-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v257) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x128 : Shape := ⟨2, ![1, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg9 : FVec F S1x128 .f32) (main_v33 : IVec S_ 1) : IVec S_ 1 :=
  let main_v34 : FVec F S1x128 .f32 := Host.absf main_arg9
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  main_v38

def fn_part1 {F : FTy → Type} [FloatOps F] (main_arg6 : FVec F S4x128 .f32) (main_arg7 : FVec F S4x128 .f32) (main_arg8 : FVec F S4x128 .f32) (main_arg9 : FVec F S1x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S1x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x128 : Shape := ⟨2, ![1, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S1x128x128 : Shape := ⟨3, ![1, 128, 128]⟩
abbrev S850000x128 : Shape := ⟨2, ![850000, 128]⟩
abbrev S5000 : Shape := ⟨1, ![5000]⟩
abbrev S5000x1 : Shape := ⟨2, ![5000, 1]⟩
abbrev S128x1 : Shape := ⟨2, ![128, 1]⟩
abbrev S1 : Shape := ⟨1, ![1]⟩
abbrev S50000x1 : Shape := ⟨2, ![50000, 1]⟩
abbrev S32x1 : Shape := ⟨2, ![32, 1]⟩
abbrev S32 : Shape := ⟨1, ![32]⟩

abbrev nBuf : Space → Nat
  | .hbm => 203
  | .vmem => 72
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S1x128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S128x128, .f32⟩
  | 54 => ⟨S1x128, .f32⟩
  | 55 => ⟨S50000x128, .f32⟩
  | 56 => ⟨S_, .f32⟩
  | 57 => ⟨S1x128, .f32⟩
  | 58 => ⟨S1x128x128, .f32⟩
  | 59 => ⟨S128x128, .f32⟩
  | 60 => ⟨S128x128, .f32⟩
  | 61 => ⟨S50000x128, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x128, .f32⟩
  | 71 => ⟨S850000x1, .f32⟩
  | 72 => ⟨S850000x128, .f32⟩
  | 73 => ⟨S850000x128, .f32⟩
  | 74 => ⟨S_, .f32⟩
  | 75 => ⟨S50000x128, .f32⟩
  | 76 => ⟨S850000x1, .i32⟩
  | 77 => ⟨S50000x128, .f32⟩
  | 78 => ⟨S1x128, .f32⟩
  | 79 => ⟨S128, .f32⟩
  | 80 => ⟨S1x128, .f32⟩
  | 81 => ⟨S1x128, .f32⟩
  | 82 => ⟨S128, .f32⟩
  | 83 => ⟨S1x128, .f32⟩
  | 84 => ⟨S1x128, .f32⟩
  | 85 => ⟨S128, .f32⟩
  | 86 => ⟨S1x128, .f32⟩
  | 87 => ⟨S50000x128, .f32⟩
  | 88 => ⟨S1x128x128, .f32⟩
  | 89 => ⟨S128x128, .f32⟩
  | 90 => ⟨S128x128, .f32⟩
  | 91 => ⟨S50000x128, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x1, .f32⟩
  | 102 => ⟨S850000x128, .f32⟩
  | 103 => ⟨S850000x128, .f32⟩
  | 104 => ⟨S_, .f32⟩
  | 105 => ⟨S50000x128, .f32⟩
  | 106 => ⟨S850000x1, .i32⟩
  | 107 => ⟨S50000x128, .f32⟩
  | 108 => ⟨S1x128, .f32⟩
  | 109 => ⟨S128, .f32⟩
  | 110 => ⟨S1x128, .f32⟩
  | 111 => ⟨S1x128, .f32⟩
  | 112 => ⟨S128, .f32⟩
  | 113 => ⟨S1x128, .f32⟩
  | 114 => ⟨S1x128, .f32⟩
  | 115 => ⟨S128, .f32⟩
  | 116 => ⟨S1x128, .f32⟩
  | 117 => ⟨S50000x128, .f32⟩
  | 118 => ⟨S1x128x128, .f32⟩
  | 119 => ⟨S128x128, .f32⟩
  | 120 => ⟨S128x128, .f32⟩
  | 121 => ⟨S50000x128, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_1 (i : Nat) : BufTy := match i % 128 with
  | 0 => ⟨S850000, .i32⟩
  | 1 => ⟨S850000x1, .i32⟩
  | 2 => ⟨S850000x128, .f32⟩
  | 3 => ⟨S850000x1, .f32⟩
  | 4 => ⟨S850000x128, .f32⟩
  | 5 => ⟨S850000x128, .f32⟩
  | 6 => ⟨S_, .f32⟩
  | 7 => ⟨S50000x128, .f32⟩
  | 8 => ⟨S850000x1, .i32⟩
  | 9 => ⟨S50000x128, .f32⟩
  | 10 => ⟨S1x128, .f32⟩
  | 11 => ⟨S128, .f32⟩
  | 12 => ⟨S1x128, .f32⟩
  | 13 => ⟨S1x128, .f32⟩
  | 14 => ⟨S128, .f32⟩
  | 15 => ⟨S1x128, .f32⟩
  | 16 => ⟨S1x128, .f32⟩
  | 17 => ⟨S128, .f32⟩
  | 18 => ⟨S1x128, .f32⟩
  | 19 => ⟨S50000x128, .f32⟩
  | 20 => ⟨S1x128x128, .f32⟩
  | 21 => ⟨S128x128, .f32⟩
  | 22 => ⟨S128x128, .f32⟩
  | 23 => ⟨S50000x128, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000x128, .f32⟩
  | 33 => ⟨S850000x1, .f32⟩
  | 34 => ⟨S850000x128, .f32⟩
  | 35 => ⟨S850000x128, .f32⟩
  | 36 => ⟨S_, .f32⟩
  | 37 => ⟨S50000x128, .f32⟩
  | 38 => ⟨S850000x1, .i32⟩
  | 39 => ⟨S50000x128, .f32⟩
  | 40 => ⟨S1x128, .f32⟩
  | 41 => ⟨S128, .f32⟩
  | 42 => ⟨S1x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S50000x128, .f32⟩
  | 50 => ⟨S_, .f32⟩
  | 51 => ⟨S128x128, .f32⟩
  | 52 => ⟨S128x1, .f32⟩
  | 53 => ⟨S_, .i32⟩
  | 54 => ⟨S1, .i32⟩
  | 55 => ⟨S128x128, .f32⟩
  | 56 => ⟨S_, .f32⟩
  | 57 => ⟨S1x128, .f32⟩
  | 58 => ⟨S50000x128, .f32⟩
  | 59 => ⟨S50000x1, .f32⟩
  | 60 => ⟨S_, .f32⟩
  | 61 => ⟨S32x1, .f32⟩
  | 62 => ⟨S50000x1, .i32⟩
  | 63 => ⟨S32x1, .f32⟩
  | 64 => ⟨S_, .f32⟩
  | 65 => ⟨S50000, .f32⟩
  | 66 => ⟨S_, .f32⟩
  | 67 => ⟨S32, .f32⟩
  | 68 => ⟨S50000x1, .i32⟩
  | 69 => ⟨S32, .f32⟩
  | 70 => ⟨S_, .f32⟩
  | 71 => ⟨S32, .f32⟩
  | 72 => ⟨S32, .f32⟩
  | 73 => ⟨S32x1, .f32⟩
  | 74 => ⟨S32x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S128x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_11 : Ref sig .tc := ⟨.hbm, 92, rfl⟩
abbrev main_v67 : Ref sig .tc := ⟨.hbm, 93, rfl⟩
abbrev main_v68 : Ref sig .tc := ⟨.hbm, 94, rfl⟩
abbrev main_c_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_13 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_14 : Ref sig .tc := ⟨.hbm, 122, rfl⟩
abbrev main_v94 : Ref sig .tc := ⟨.hbm, 123, rfl⟩
abbrev main_v95 : Ref sig .tc := ⟨.hbm, 124, rfl⟩
abbrev main_c_15 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_16 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_c_17 : Ref sig .tc := ⟨.hbm, 152, rfl⟩
abbrev main_v121 : Ref sig .tc := ⟨.hbm, 153, rfl⟩
abbrev main_v122 : Ref sig .tc := ⟨.hbm, 154, rfl⟩
abbrev main_c_18 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_19 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_20 : Ref sig .tc := ⟨.hbm, 178, rfl⟩
abbrev main_v144 : Ref sig .tc := ⟨.hbm, 179, rfl⟩
abbrev main_v145 : Ref sig .tc := ⟨.hbm, 180, rfl⟩
abbrev main_c_21 : Ref sig .tc := ⟨.hbm, 181, rfl⟩
abbrev main_v146 : Ref sig .tc := ⟨.hbm, 182, rfl⟩
abbrev main_v147 : Ref sig .tc := ⟨.hbm, 183, rfl⟩
abbrev main_cst_22 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_23 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_24 : Ref sig .tc := ⟨.hbm, 192, rfl⟩
abbrev main_v154 : Ref sig .tc := ⟨.hbm, 193, rfl⟩
abbrev main_cst_25 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_26 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg5_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg3_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg4_0 : Ref sig .tc := ⟨.vmem, 63, rfl⟩
abbrev cc8_stg5_0 : Ref sig .tc := ⟨.vmem, 64, rfl⟩
abbrev cc8_stg5_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg3_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem3_1 : DmaSem sig := 56
abbrev cc8_sem0_0 : DmaSem sig := 57
abbrev cc8_sem0_1 : DmaSem sig := 58
abbrev cc8_sem1_0 : DmaSem sig := 59
abbrev cc8_sem1_1 : DmaSem sig := 60
abbrev cc8_sem2_0 : DmaSem sig := 61
abbrev cc8_sem3_0 : DmaSem sig := 62
abbrev cc8_sem4_0 : DmaSem sig := 63
abbrev cc8_sem5_0 : DmaSem sig := 64
abbrev cc8_sem5_1 : DmaSem sig := 65
abbrev cc9_sem0_0 : DmaSem sig := 66
abbrev cc9_sem0_1 : DmaSem sig := 67
abbrev cc9_sem1_0 : DmaSem sig := 68
abbrev cc9_sem2_0 : DmaSem sig := 69
abbrev cc9_sem3_0 : DmaSem sig := 70
abbrev cc9_sem3_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1x128 : S_.BroadcastsInDim S1x128 (![] : Fin 0 → Fin S1x128.rank)
  slices_S4x128x128_S1x128x128_0_0_0 : S4x128x128.Slices ![0, 0, 0] S1x128x128
  shapeCasts_S1x128x128_S128x128 : S1x128x128.ShapeCasts S128x128
  shapeCasts_S5000x128_S5000x128 : S5000x128.ShapeCasts S5000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  reduces_S5000x128_S5000 : S5000x128.Reduces [1] S5000
  shapeCasts_S5000_S5000x1 : S5000.ShapeCasts S5000x1
  broadcasts_S5000x1_S5000x128 : S5000x1.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  transposes_S1x128_S128x1_1_0 : S1x128.Transposes [1, 0] S128x1
  bcast_S_S1 : S_.BroadcastsInDim S1 (![] : Fin 0 → Fin S1.rank)
  slices_S50000x128_S50000x1_0_0 : S50000x128.Slices ![0, 0] S50000x1
  bcast_S_S32x1 : S_.BroadcastsInDim S32x1 (![] : Fin 0 → Fin S32x1.rank)
  bcast_S50000_S50000x1_0 : S50000.BroadcastsInDim S50000x1 (![0] : Fin 1 → Fin S50000x1.rank)
  bcast_S_S32 : S_.BroadcastsInDim S32 (![] : Fin 0 → Fin S32.rank)
  bcast_S32_S32x1_0 : S32.BroadcastsInDim S32x1 (![0] : Fin 1 → Fin S32x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128x128_S1_S128x1_01_n_1_0_wf : ScatterDims.WF S128x128 S1 S128x1 [0, 1] [] [1] 0
  scatter_S32x1_S50000x1_S50000x1_1_0_0_1_wf : ScatterDims.WF S32x1 S50000x1 S50000x1 [1] [0] [0] 1
  scatter_S32_S50000x1_S50000_n_0_0_1_wf : ScatterDims.WF S32 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S50000x128.size a
  hwx9_3 : ∀ i : grid9.Coords, EltTy.bits .f32 = 32 ∨ (Rect.block (s := S50000x128) S5000x128.size (cc9_transform_3 i) (hinb9_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128x128_S1_S128x1_01_n_1_0 : ScatterDims S128x128 S1 S128x1 where
  updateWindowDims := [0, 1]
  insertedWindowDims := []
  scatterDimsToOperandDims := [1]
  indexVectorDim := 0
  wf := scatter_S128x128_S1_S128x1_01_n_1_0_wf
def scatter_S32x1_S50000x1_S50000x1_1_0_0_1 : ScatterDims S32x1 S50000x1 S50000x1 where
  updateWindowDims := [1]
  insertedWindowDims := [0]
  scatterDimsToOperandDims := [0]
  indexVectorDim := 1
  wf := scatter_S32x1_S50000x1_S50000x1_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v82) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v89) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v35) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v89) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v106) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v109) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v112) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v115) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v116) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v116) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v119) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v35) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v120) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v116) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v133) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v136) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v139) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v142) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v143) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v143) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v147) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v148) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v149) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x128 : Shape := ⟨2, ![1, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S850000x128 : Shape := ⟨2, ![850000, 128]⟩
abbrev S50000x1 : Shape := ⟨2, ![50000, 1]⟩
abbrev S128x1 : Shape := ⟨2, ![128, 1]⟩
abbrev S32x1 : Shape := ⟨2, ![32, 1]⟩
abbrev S32 : Shape := ⟨1, ![32]⟩

abbrev nBuf : Space → Nat
  | .hbm => 323
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S1x128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S128x128, .f32⟩
  | 54 => ⟨S50000x128, .f32⟩
  | 55 => ⟨S1x128, .f32⟩
  | 56 => ⟨S50000x128, .f32⟩
  | 57 => ⟨S50000x128, .f32⟩
  | 58 => ⟨S1x128x128, .f32⟩
  | 59 => ⟨S128x128, .f32⟩
  | 60 => ⟨S128x128, .f32⟩
  | 61 => ⟨S50000x128, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x128, .f32⟩
  | 71 => ⟨S850000x1, .f32⟩
  | 72 => ⟨S850000x128, .f32⟩
  | 73 => ⟨S850000x128, .f32⟩
  | 74 => ⟨S_, .f32⟩
  | 75 => ⟨S50000x128, .f32⟩
  | 76 => ⟨S850000x1, .i32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .f32⟩
  | 109 => ⟨S50000x1, .f32⟩
  | 110 => ⟨S50000x1, .f32⟩
  | 111 => ⟨S50000x1, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S1x128x128, .f32⟩
  | 121 => ⟨S128x128, .f32⟩
  | 122 => ⟨S128x128, .f32⟩
  | 123 => ⟨S50000x128, .f32⟩
  | 124 => ⟨S_, .i32⟩
  | 125 => ⟨S850000, .i32⟩
  | 126 => ⟨S850000, .i1⟩
  | 127 => ⟨S_, .i32⟩
  | _ => ⟨S50000x128, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x128, .f32⟩
  | 5 => ⟨S850000x1, .f32⟩
  | 6 => ⟨S850000x128, .f32⟩
  | 7 => ⟨S850000x128, .f32⟩
  | 8 => ⟨S_, .f32⟩
  | 9 => ⟨S50000x128, .f32⟩
  | 10 => ⟨S850000x1, .i32⟩
  | 11 => ⟨S50000x128, .f32⟩
  | 12 => ⟨S1x128, .f32⟩
  | 13 => ⟨S128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S50000x128, .f32⟩
  | 21 => ⟨S1x128, .f32⟩
  | 22 => ⟨S128, .f32⟩
  | 23 => ⟨S1x128, .f32⟩
  | 24 => ⟨S128, .f32⟩
  | 25 => ⟨S_, .f32⟩
  | 26 => ⟨S50000, .f32⟩
  | 27 => ⟨S50000x1, .f32⟩
  | 28 => ⟨S_, .f32⟩
  | 29 => ⟨S50000x1, .f32⟩
  | 30 => ⟨S50000x1, .f32⟩
  | 31 => ⟨S50000x128, .f32⟩
  | 32 => ⟨S50000x128, .f32⟩
  | 33 => ⟨S50000x128, .f32⟩
  | 34 => ⟨S_, .f32⟩
  | 35 => ⟨S50000, .f32⟩
  | 36 => ⟨S50000x1, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S_, .f32⟩
  | 43 => ⟨S50000x1, .f32⟩
  | 44 => ⟨S50000x1, .f32⟩
  | 45 => ⟨S50000x1, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S1x128x128, .f32⟩
  | 55 => ⟨S128x128, .f32⟩
  | 56 => ⟨S128x128, .f32⟩
  | 57 => ⟨S50000x128, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x1, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S50000x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S50000x128, .f32⟩
  | 94 => ⟨S50000x128, .f32⟩
  | 95 => ⟨S50000x128, .f32⟩
  | 96 => ⟨S_, .f32⟩
  | 97 => ⟨S50000, .f32⟩
  | 98 => ⟨S50000x1, .f32⟩
  | 99 => ⟨S_, .f32⟩
  | 100 => ⟨S50000x1, .f32⟩
  | 101 => ⟨S50000x1, .f32⟩
  | 102 => ⟨S50000x128, .f32⟩
  | 103 => ⟨S50000x128, .f32⟩
  | 104 => ⟨S_, .f32⟩
  | 105 => ⟨S50000x1, .f32⟩
  | 106 => ⟨S50000x1, .f32⟩
  | 107 => ⟨S50000x1, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128x128, .f32⟩
  | 117 => ⟨S128x128, .f32⟩
  | 118 => ⟨S128x128, .f32⟩
  | 119 => ⟨S50000x128, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_2 (i : Nat) : BufTy := match i % 128 with
  | 0 => ⟨S850000x128, .f32⟩
  | 1 => ⟨S850000x1, .f32⟩
  | 2 => ⟨S850000x128, .f32⟩
  | 3 => ⟨S850000x128, .f32⟩
  | 4 => ⟨S_, .f32⟩
  | 5 => ⟨S50000x128, .f32⟩
  | 6 => ⟨S850000x1, .i32⟩
  | 7 => ⟨S50000x128, .f32⟩
  | 8 => ⟨S1x128, .f32⟩
  | 9 => ⟨S128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S128, .f32⟩
  | 21 => ⟨S_, .f32⟩
  | 22 => ⟨S50000, .f32⟩
  | 23 => ⟨S50000x1, .f32⟩
  | 24 => ⟨S_, .f32⟩
  | 25 => ⟨S50000x1, .f32⟩
  | 26 => ⟨S50000x1, .f32⟩
  | 27 => ⟨S50000x128, .f32⟩
  | 28 => ⟨S50000x128, .f32⟩
  | 29 => ⟨S50000x128, .f32⟩
  | 30 => ⟨S_, .f32⟩
  | 31 => ⟨S50000, .f32⟩
  | 32 => ⟨S50000x1, .f32⟩
  | 33 => ⟨S_, .f32⟩
  | 34 => ⟨S50000x1, .f32⟩
  | 35 => ⟨S50000x1, .f32⟩
  | 36 => ⟨S50000x128, .f32⟩
  | 37 => ⟨S50000x128, .f32⟩
  | 38 => ⟨S_, .f32⟩
  | 39 => ⟨S50000x1, .f32⟩
  | 40 => ⟨S50000x1, .f32⟩
  | 41 => ⟨S50000x1, .f32⟩
  | 42 => ⟨S50000x128, .f32⟩
  | 43 => ⟨S50000x128, .f32⟩
  | 44 => ⟨S1x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S128x1, .f32⟩
  | 51 => ⟨S50000x1, .f32⟩
  | 52 => ⟨S_, .f32⟩
  | 53 => ⟨S32x1, .f32⟩
  | 54 => ⟨S50000x1, .i32⟩
  | 55 => ⟨S32x1, .f32⟩
  | 56 => ⟨S_, .f32⟩
  | 57 => ⟨S50000, .f32⟩
  | 58 => ⟨S_, .f32⟩
  | 59 => ⟨S32, .f32⟩
  | 60 => ⟨S50000x1, .i32⟩
  | 61 => ⟨S32, .f32⟩
  | 62 => ⟨S_, .f32⟩
  | 63 => ⟨S32, .f32⟩
  | 64 => ⟨S32, .f32⟩
  | 65 => ⟨S32x1, .f32⟩
  | 66 => ⟨S32x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_15 : Ref sig .tc := ⟨.hbm, 124, rfl⟩
abbrev main_v93 : Ref sig .tc := ⟨.hbm, 125, rfl⟩
abbrev main_v94 : Ref sig .tc := ⟨.hbm, 126, rfl⟩
abbrev main_c_16 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_17 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_call2_cst : Ref sig .tc := ⟨.hbm, 145, rfl⟩
abbrev main_call2_v0 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_cst_18 : Ref sig .tc := ⟨.hbm, 153, rfl⟩
abbrev main_v117 : Ref sig .tc := ⟨.hbm, 154, rfl⟩
abbrev main_v118 : Ref sig .tc := ⟨.hbm, 155, rfl⟩
abbrev main_cst_19 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_20 : Ref sig .tc := ⟨.hbm, 162, rfl⟩
abbrev main_v124 : Ref sig .tc := ⟨.hbm, 163, rfl⟩
abbrev main_v125 : Ref sig .tc := ⟨.hbm, 164, rfl⟩
abbrev main_cst_21 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_22 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_c_23 : Ref sig .tc := ⟨.hbm, 186, rfl⟩
abbrev main_v145 : Ref sig .tc := ⟨.hbm, 187, rfl⟩
abbrev main_v146 : Ref sig .tc := ⟨.hbm, 188, rfl⟩
abbrev main_c_24 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_25 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_call3_cst : Ref sig .tc := ⟨.hbm, 207, rfl⟩
abbrev main_call3_v0 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_26 : Ref sig .tc := ⟨.hbm, 215, rfl⟩
abbrev main_v169 : Ref sig .tc := ⟨.hbm, 216, rfl⟩
abbrev main_v170 : Ref sig .tc := ⟨.hbm, 217, rfl⟩
abbrev main_cst_27 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_cst_28 : Ref sig .tc := ⟨.hbm, 224, rfl⟩
abbrev main_v176 : Ref sig .tc := ⟨.hbm, 225, rfl⟩
abbrev main_v177 : Ref sig .tc := ⟨.hbm, 226, rfl⟩
abbrev main_cst_29 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_30 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_c_31 : Ref sig .tc := ⟨.hbm, 248, rfl⟩
abbrev main_v197 : Ref sig .tc := ⟨.hbm, 249, rfl⟩
abbrev main_v198 : Ref sig .tc := ⟨.hbm, 250, rfl⟩
abbrev main_c_32 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_cst_33 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_call4_cst : Ref sig .tc := ⟨.hbm, 269, rfl⟩
abbrev main_call4_v0 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_cst_34 : Ref sig .tc := ⟨.hbm, 277, rfl⟩
abbrev main_v221 : Ref sig .tc := ⟨.hbm, 278, rfl⟩
abbrev main_v222 : Ref sig .tc := ⟨.hbm, 279, rfl⟩
abbrev main_cst_35 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_cst_36 : Ref sig .tc := ⟨.hbm, 286, rfl⟩
abbrev main_v228 : Ref sig .tc := ⟨.hbm, 287, rfl⟩
abbrev main_v229 : Ref sig .tc := ⟨.hbm, 288, rfl⟩
abbrev main_cst_37 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_cst_38 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_cst_39 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_cst_40 : Ref sig .tc := ⟨.hbm, 312, rfl⟩
abbrev main_v250 : Ref sig .tc := ⟨.hbm, 313, rfl⟩
abbrev main_cst_41 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_cst_42 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  transposes_S1x128_S128x1_1_0 : S1x128.Transposes [1, 0] S128x1
  bcast_S_S32x1 : S_.BroadcastsInDim S32x1 (![] : Fin 0 → Fin S32x1.rank)
  bcast_S_S32 : S_.BroadcastsInDim S32 (![] : Fin 0 → Fin S32.rank)
  bcast_S32_S32x1_0 : S32.BroadcastsInDim S32x1 (![0] : Fin 1 → Fin S32x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []
  scatter_S32x1_S50000x1_S50000x1_1_0_0_1_wf : ScatterDims.WF S32x1 S50000x1 S50000x1 [1] [0] [0] 1
  scatter_S32_S50000x1_S50000_n_0_0_1_wf : ScatterDims.WF S32 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S32x1_S50000x1_S50000x1_1_0_0_1 : ScatterDims S32x1 S50000x1 S50000x1 where
  updateWindowDims := [1]
  insertedWindowDims := [0]
  scatterDimsToOperandDims := [0]
  indexVectorDim := 1
  wf := scatter_S32x1_S50000x1_S50000x1_1_0_0_1_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf

class Facts : Prop extends Facts₀ where

variable [Facts]
-- ==== Proof.KRun.lean ====
/-
  The idealized kernel program's run with its result named: every weakly fair execution of @main terminates without a
  fault, the result buffer holds what the fold of the host stretches and the regions' write-backs leaves there, and
  the argument arrays are as launched.
-/
import proofs.«103784_j3092376453282_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments with the last boundary's contents read at the result buffer and at the arguments. -/
theorem run_result : θ_run defs (onTc (τ := τ) (main (F := F))) ⟨m, fun _ => 0, ρ⟩ (fun r => ∀ c : Dev nD,
      r.2.mem ((c.tc : Thread nD τ).loc main_v161) = W23 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v161 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c)⟩)

end Cert.KernelIdeal.Gen

end
-- ==== Proof.KChainLib.lean ====
/-
  A small tactic for reading the fold of the kernel program's segments: a buffer that a stretch of host operations
  does not write keeps its contents over the stretch (no operation of the stretch lists it among the buffers it
  writes, decided reference by reference).
-/
import proofs.«103784_j3092376453282_1_alg».proof.Proof.Gen.KernelIdeal.Frame
import Idealize.ShloMosaic.Lib.StableHlo.Run

namespace Cert.KernelIdeal.Chain

open Cert.KernelIdeal Cert.KernelIdeal.Gen Idealize.ShloMosaic

/-- Closes `after ops V b = V b` for a stretch none of whose operations writes `b`. -/
macro "keepH" : tactic => `(tactic| exact StableHlo.after_of_forall_not_mem _ _ (List.forall_iff_forall_mem.mp (by
  simp only [hostOps0, hostOps0_1, hostOps0_2, hostOps1, hostOps2, hostOps3, hostOps4, hostOps5, hostOps6, hostOps7, hostOps8, hostOps9, hostOps10,
    List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

end Cert.KernelIdeal.Chain
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Spec.lean ====
/-
  A graph-convolution layer stack on the extended reals, index by index.

  A linear layer sends a row block `x : [n, K]`, a weight `w : [K, d]` and a bias row `b : [1, d]` to
  `x · w + b`: entry (r, j) is `∑ k, x (r, k) * w (k, j)` plus `b (0, j)`. The block after the aggregation adds a
  bias row to the aggregate, rectifies, adds the residual and normalises every row to zero mean and unit variance
  (the variance shifted by a small constant), then scales and shifts by two more rows. Every entry of either result
  reads ONE row of its row operands, so a row block of the result is the same function of the row block of the operands.
-/
import Idealize.ShloMosaic.PureOps.Ideal
import Idealize.ShloMosaic.PureOps.Ideal.Laws
import Idealize.ShloMosaic.Lib.ValueIdx
import proofs.«103784_j3092376453282_1_alg».proof.Proof.LibDense

noncomputable section

namespace Cert.Gcn

open Idealize.ShloMosaic Idealize.ShloMosaic.ValueIdx

/-- An `[n, d]` array of extended reals. -/
abbrev Mat (n d : ℕ) : Type := (⟨2, ![n, d]⟩ : Shape).Idx → EReal
/-- A `[d]` array of extended reals. -/
abbrev Vec1 (d : ℕ) : Type := (⟨1, ![d]⟩ : Shape).Idx → EReal

/-- The row `[1, d]` holding a vector `[d]`. -/
def rowOf {d : ℕ} (v : Vec1 d) : Mat 1 d := fun i => v (ix1 (i 1))

/-- The row `[1, d]` of zeros (the zero word's value). -/
def zeroRow (d : ℕ) : Mat 1 d := fun _ => Ideal.ofBits .f32 0x00000000#32

/-- A linear layer: `x · w + b`, the bias row added to every row. -/
def lin {n K d : ℕ} (x : Mat n K) (w : Mat K d) (b : Mat 1 d) : Mat n d :=
  fun i => Cert.LibDense.prod x w i + b (ix2 0 (i 1))

/-- An entry of a linear layer reads one row of `x`: two row operands that agree on that row give the same entry. -/
theorem lin_congr {n n' K d : ℕ} (x : Mat n K) (x' : Mat n' K) (w : Mat K d) (b : Mat 1 d)
    (r : Fin n) (r' : Fin n') (j : Fin d) (hx : ∀ k : Fin K, x (ix2 r k) = x' (ix2 r' k)) :
    lin x w b (ix2 r j) = lin x' w b (ix2 r' j) := by
  unfold lin Cert.LibDense.prod
  exact congrArg (· + b (ix2 0 j)) (Finset.sum_congr rfl fun k _ => congrArg (· * w (ix2 k j)) (hx k))

/-- The residual plus the rectified biased aggregate. -/
def resid {n d : ℕ} (h a : Mat n d) (b : Mat 1 d) : Mat n d :=
  fun i => h i + max (a i + b (ix2 0 (i 1))) (Ideal.ofBits .f32 0x00000000#32)

/-- A row's mean over its 128 entries: the row's sum divided by the word of 128.0. -/
def rowMean {n : ℕ} (z : Mat n 128) (r : Fin n) : EReal :=
  Ideal.div (∑ j : Fin 128, z (ix2 r j)) (Ideal.ofBits .f32 0x43000000#32)

/-- A row minus its mean. -/
def centred {n : ℕ} (z : Mat n 128) : Mat n 128 := fun i => z i - rowMean z (i 0)

/-- Row normalisation with scale `g` and shift `β`: `(z - μ) · rsqrt (var + ε) · g + β`, the variance the mean of the
    squared centred row and `ε` the word 0x3727C5AC. -/
def layerNorm {n : ℕ} (z : Mat n 128) (g β : Mat 1 128) : Mat n 128 :=
  fun i => centred z i
      * Ideal.rsqrt (rowMean (fun i' => centred z i' * centred z i') (i 0) + Ideal.ofBits .f32 0x3727C5AC#32)
      * g (ix2 0 (i 1)) + β (ix2 0 (i 1))

/-- The block after the aggregation: normalise `h + relu (a + b)`. -/
def gcnPost {n : ℕ} (h a : Mat n 128) (b g β : Mat 1 128) : Mat n 128 := layerNorm (resid h a b) g β

theorem rowMean_congr {n n' : ℕ} (z : Mat n 128) (z' : Mat n' 128) (r : Fin n) (r' : Fin n')
    (hz : ∀ k : Fin 128, z (ix2 r k) = z' (ix2 r' k)) : rowMean z r = rowMean z' r' := by
  unfold rowMean
  exact congrArg (Ideal.div · _) (Finset.sum_congr rfl fun k _ => hz k)

theorem centred_congr {n n' : ℕ} (z : Mat n 128) (z' : Mat n' 128) (r : Fin n) (r' : Fin n')
    (hz : ∀ k : Fin 128, z (ix2 r k) = z' (ix2 r' k)) (j : Fin 128) : centred z (ix2 r j) = centred z' (ix2 r' j) := by
  unfold centred
  exact congrArg₂ (· - ·) (hz j) (rowMean_congr z z' r r' hz)

/-- An entry of the normalised row reads one row: two operands that agree on that row give the same entry. -/
theorem layerNorm_congr {n n' : ℕ} (z : Mat n 128) (z' : Mat n' 128) (g β : Mat 1 128) (r : Fin n) (r' : Fin n')
    (hz : ∀ k : Fin 128, z (ix2 r k) = z' (ix2 r' k)) (j : Fin 128) :
    layerNorm z g β (ix2 r j) = layerNorm z' g β (ix2 r' j) := by
  unfold layerNorm
  have hc := centred_congr z z' r r' hz
  have hv : rowMean (fun i' => centred z i' * centred z i') r = rowMean (fun i' => centred z' i' * centred z' i') r' :=
    rowMean_congr _ _ r r' fun k => congrArg₂ (· * ·) (hc k) (hc k)
  show centred z (ix2 r j) * Ideal.rsqrt (rowMean (fun i' => centred z i' * centred z i') r + _) * g (ix2 0 j) + β (ix2 0 j)
    = centred z' (ix2 r' j) * Ideal.rsqrt (rowMean (fun i' => centred z' i' * centred z' i') r' + _) * g (ix2 0 j) + β (ix2 0 j)
  rw [hc j, hv]

/-- The same for the whole block after the aggregation. -/
theorem gcnPost_congr {n n' : ℕ} (h a : Mat n 128) (h' a' : Mat n' 128) (b g β : Mat 1 128) (r : Fin n) (r' : Fin n')
    (hh : ∀ k : Fin 128, h (ix2 r k) = h' (ix2 r' k)) (ha : ∀ k : Fin 128, a (ix2 r k) = a' (ix2 r' k)) (j : Fin 128) :
    gcnPost h a b g β (ix2 r j) = gcnPost h' a' b g β (ix2 r' j) := by
  unfold gcnPost
  refine layerNorm_congr _ _ g β r r' (fun k => ?_) j
  show h (ix2 r k) + max (a (ix2 r k) + b (ix2 0 k)) _ = h' (ix2 r' k) + max (a' (ix2 r' k) + b (ix2 0 k)) _
  rw [hh k, ha k]

end Cert.Gcn

end
-- ==== Proof.KPay.lean ====
/-
  What the bodies of the two kinds of kernel store, index by index, on the extended reals: the linear kernel's
  block is the linear layer of its loaded blocks (a change of float format is the identity, a matrix product into a
  zero accumulator is the row-by-column sum, the bias row is broadcast down the rows), and the normalisation kernel's
  block is the normalised residual block (a lane sum is the sum over the row, a keep-dims column is read at its row).
-/
import proofs.«103784_j3092376453282_1_alg».proof.Proof.Gen.KernelIdeal.Skeleton
import proofs.«103784_j3092376453282_1_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Gcn

/-- A bias row `[1, 128]` broadcast down 5000 rows, at entry (p, q), is the row's entry q. -/
theorem row_bcast (b : FVec Ideal S1x128 .f32) (p : Fin 5000) (q : Fin 128) :
    broadcastTo S5000x128 b broadcasts_S1x128_S5000x128 (ix2 p q) = b (ix2 0 q) := by
  refine broadcastTo_apply b broadcasts_S1x128_S5000x128 (ix2 p q) (ix2 0 q) (fun a => ?_)
  match a with
  | ⟨0, _⟩ => exact (if_pos rfl).symm
  | ⟨1, _⟩ => show q.val = if (128 : ℕ) = 1 then 0 else q.val; rw [if_neg (by decide)]

/-- A keep-dims column `[5000, 1]` broadcast along the lanes, at entry (p, q), is the column's entry p. -/
theorem col_bcast (u : FVec Ideal S5000x1 .f32) (p : Fin 5000) (q : Fin 128) :
    broadcastTo S5000x128 u broadcasts_S5000x1_S5000x128 (ix2 p q) = u (ix2 p 0) := by
  refine broadcastTo_apply u broadcasts_S5000x1_S5000x128 (ix2 p q) (ix2 p 0) (fun a => ?_)
  match a with
  | ⟨0, _⟩ => show p.val = if (5000 : ℕ) = 1 then 0 else p.val; rw [if_neg (by decide)]
  | ⟨1, _⟩ => exact (if_pos rfl).symm

/-- A vector `[5000]` cast to a column `[5000, 1]`, at entry (p, 0), is the vector's entry p. -/
theorem col_cast (v : FVec Ideal S5000 .f32) (p : Fin 5000) :
    shapeCast S5000x1 v shapeCasts_S5000_S5000x1 (ix2 p 0) = v (ix1 p) := by
  refine shapeCast_apply v shapeCasts_S5000_S5000x1 (ix2 p 0) (ix1 p) ?_
  rw [Shape.rowMajor_val_two, Shape.rowMajor_val_one]
  show p.val = p.val * 1 + 0
  omega

/-- A lane sum of a block, at row p, is the sum over the row's 128 entries. -/
theorem lane_sum (src : FVec Ideal S5000x128 .f32) (hφ : FKind.Formats .f32)
    (hacc : (0x00000000#32 : BitVec 32) = FKind.add.neutral .f32 hφ) (p : Fin 5000) :
    multiReduction .add [1] S5000 src 0x00000000#32 reduces_S5000x128_S5000 hφ hacc (ix1 p) = ∑ k : Fin 128, src (ix2 p k) := by
  refine (Ideal.multiReduction_add_single src _ reduces_S5000x128_S5000 hφ hacc (ix1 p)).trans ?_
  refine Finset.sum_congr rfl fun k _ => congrArg src (funext fun a => Fin.ext ?_)
  match a with
  | ⟨0, _⟩ => rfl
  | ⟨1, _⟩ => rfl

/-- The matrix product's dimension record is the plain `[5000, 128] × [128, 128]` one. -/
theorem dot_plain : dot_S5000x128_S128x128_S5000x128_1_0_0_1_n_n = DotDims.plain 5000 128 128 := rfl

/-- The first linear kernel's stored block is the linear layer of its loaded blocks. -/
theorem k0_lin (v0 : Vec Ideal S5000x128 .f32) (v2 : Vec Ideal S128x128 .f32) (v6 : Vec Ideal S1x128 .f32) :
    k0_pay1 (F := Ideal) v0 v2 v6 = lin (n := 5000) (K := 128) (d := 128) v0 v2 v6 := by
  funext i
  obtain ⟨p, q, rfl⟩ : ∃ (p : Fin 5000) (q : Fin 128), i = ix2 p q := ⟨i 0, i 1, eq_ix2 i⟩
  show (matmul (F := Ideal) dot_S5000x128_S128x128_S5000x128_1_0_0_1_n_n none (truncf .bf16 v0 bitsLt_bf16_f32)
      (truncf .bf16 (shapeCast S128x128 v2 shapeCasts_S128x128_S128x128) bitsLt_bf16_f32) (constant (F := Ideal) S5000x128 .f32 0x00000000#32)) (ix2 p q)
    + broadcastTo S5000x128 (shapeCast S1x128 v6 shapeCasts_S1x128_S1x128) broadcasts_S1x128_S5000x128 (ix2 p q) = _
  rw [shapeCast_self, shapeCast_self, row_bcast]
  refine congrArg (· + v6 (ix2 0 q)) ?_
  exact Cert.LibDense.matmul_plain (M := 5000) (K := 128) (N := 128) (truncf .bf16 v0 bitsLt_bf16_f32) (truncf .bf16 v2 bitsLt_bf16_f32) (ix2 p q)

/-- The later linear kernels' stored block likewise. -/
theorem k1_lin (v0 : Vec Ideal S5000x128 .f32) (v3 : Vec Ideal S128x128 .f32) (v7 : Vec Ideal S1x128 .f32) :
    k1_pay1 (F := Ideal) v0 v3 v7 = lin (n := 5000) (K := 128) (d := 128) v0 v3 v7 := by
  funext i
  obtain ⟨p, q, rfl⟩ : ∃ (p : Fin 5000) (q : Fin 128), i = ix2 p q := ⟨i 0, i 1, eq_ix2 i⟩
  show (matmul (F := Ideal) dot_S5000x128_S128x128_S5000x128_1_0_0_1_n_n none (truncf .bf16 (shapeCast S5000x128 v0 shapeCasts_S5000x128_S5000x128) bitsLt_bf16_f32)
      (truncf .bf16 (shapeCast S128x128 v3 shapeCasts_S128x128_S128x128) bitsLt_bf16_f32) (constant (F := Ideal) S5000x128 .f32 0x00000000#32)) (ix2 p q)
    + broadcastTo S5000x128 (shapeCast S1x128 v7 shapeCasts_S1x128_S1x128) broadcasts_S1x128_S5000x128 (ix2 p q) = _
  rw [shapeCast_self, shapeCast_self, shapeCast_self, row_bcast]
  refine congrArg (· + v7 (ix2 0 q)) ?_
  exact Cert.LibDense.matmul_plain (M := 5000) (K := 128) (N := 128) (truncf .bf16 v0 bitsLt_bf16_f32) (truncf .bf16 v3 bitsLt_bf16_f32) (ix2 p q)

theorem k3_lin (v0 : Vec Ideal S5000x128 .f32) (v3 : Vec Ideal S128x128 .f32) (v7 : Vec Ideal S1x128 .f32) :
    k3_pay1 (F := Ideal) v0 v3 v7 = lin (n := 5000) (K := 128) (d := 128) v0 v3 v7 := k1_lin v0 v3 v7
theorem k5_lin (v0 : Vec Ideal S5000x128 .f32) (v3 : Vec Ideal S128x128 .f32) (v7 : Vec Ideal S1x128 .f32) :
    k5_pay1 (F := Ideal) v0 v3 v7 = lin (n := 5000) (K := 128) (d := 128) v0 v3 v7 := k1_lin v0 v3 v7
theorem k7_lin (v0 : Vec Ideal S5000x128 .f32) (v3 : Vec Ideal S128x128 .f32) (v7 : Vec Ideal S1x128 .f32) :
    k7_pay1 (F := Ideal) v0 v3 v7 = lin (n := 5000) (K := 128) (d := 128) v0 v3 v7 := k1_lin v0 v3 v7
theorem k9_lin (v0 : Vec Ideal S5000x128 .f32) (v3 : Vec Ideal S128x128 .f32) (v7 : Vec Ideal S1x128 .f32) :
    k9_pay1 (F := Ideal) v0 v3 v7 = lin (n := 5000) (K := 128) (d := 128) v0 v3 v7 := k1_lin v0 v3 v7

end Cert.KernelIdeal.Pay

end
-- ==== Proof.KArr0.lean ====
/-
  The array region 0 leaves: a linear layer of the arrays the region finds. Point `t` of the grid stores rows
  5000·t … 5000·t + 4999, computed from the same rows of the row operand, the whole weight and the whole bias row,
  and the ten points' blocks cover the array.
-/
import proofs.«103784_j3092376453282_1_alg».proof.Proof.Gen.KernelIdeal.Frame
import proofs.«103784_j3092376453282_1_alg».proof.Proof.KPay

set_option maxRecDepth 16384

noncomputable section

namespace Cert.KernelIdeal.Arr0

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row operand's block moves with the output's, the weight and the bias row
    stay at block (0, 0), and the output's block row is below 10. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 :=
  (by decide +kernel : ∀ t : Fin grid0.N, _)

/-- Every block row of the output is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point `t` writes back is block `t` of the linear layer of the arrays. -/
theorem flushed_eq (c : Dev nD) (t : Fin cfg0.N) :
    (dat0 (F := Ideal) V c).flushed 3 t
      = ((cfg0.win 3).blk t).view.read (Elt Ideal) (lin (n := 50000) (K := 128) (d := 128) (V c main_arg0) (V c main_v32) (V c main_v33)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin, View.ld_unit_zero (S := S1x128) origin]
  rw [Cert.KernelIdeal.Pay.k0_lin]
  obtain ⟨e0, e1, e2, e3, e4, e5, e6, e7⟩ := idx_facts t
  have hw : (iblk0 V c 1 t : S128x128.Idx → EReal) = V c main_v32 := by
    funext y
    show V c main_v32 (((cfg0.win 1).blk t).view.emb y) = V c main_v32 y
    refine congrArg (V c main_v32) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hb : (iblk0 V c 2 t : S1x128.Idx → EReal) = V c main_v33 := by
    funext y
    show V c main_v33 (((cfg0.win 2).blk t).view.emb y) = V c main_v33 y
    refine congrArg (V c main_v33) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [hw, hb]
  funext j
  obtain ⟨p, q, rfl⟩ : ∃ (p : Fin 5000) (q : Fin 128), j = ix2 p q := ⟨j 0, j 1, eq_ix2 j⟩
  have hr : win0_3.index t (0 : Fin 2) * 5000 + p.val < 50000 := by have := p.isLt; omega
  have hemb : ((cfg0.win 3).blk t).view.emb (ix2 p q) = ix2 (⟨win0_3.index t (0 : Fin 2) * 5000 + p.val, hr⟩ : Fin 50000) q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * q.val = q.val; omega
  show lin (iblk0 V c 0 t) (V c main_v32) (V c main_v33) (ix2 p q) = lin (V c main_arg0) (V c main_v32) (V c main_v33) (((cfg0.win 3).blk t).view.emb (ix2 p q))
  rw [hemb]
  refine lin_congr (iblk0 V c 0 t) (V c main_arg0) (V c main_v32) (V c main_v33) p _ q (fun k => ?_)
  show V c main_arg0 (((cfg0.win 0).blk t).view.emb (ix2 p k)) = V c main_arg0 (ix2 _ k)
  refine congrArg (V c main_arg0) (funext fun a => Fin.ext ?_)
  match a with
  | ⟨0, _⟩ => show win0_0.index t (0 : Fin 2) * 5000 + 1 * p.val = win0_3.index t (0 : Fin 2) * 5000 + p.val; omega
  | ⟨1, _⟩ => show win0_0.index t (1 : Fin 2) * 128 + 1 * k.val = k.val; omega

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v34).slice (win0_3.rect t)).set ↔ _
  rw [View.set_slice_whole, Rect.mem_set_unit]
  exact Iff.rfl

/-- The ten blocks cover the array. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array after region 0: the linear layer of the arrays the region finds. -/
theorem arr (c : Dev nD) :
    (dat0 (F := Ideal) V c).arrAt 3 cfg0.N = lin (n := 50000) (K := 128) (d := 128) (V c main_arg0) (V c main_v32) (V c main_v33) :=
  (dat0 (F := Ideal) V c).arrAt_eq_of_cover 3 _ (fun t _ => flushed_eq V c t) (cover)

end Cert.KernelIdeal.Arr0

end
-- ==== Proof.KArr1.lean ====
/-
  The array region 1 leaves: a linear layer of the arrays the region finds. Point `t` of the grid stores rows
  5000·t … 5000·t + 4999, computed from the same rows of the row operand, the whole weight and the whole bias row,
  and the ten points' blocks cover the array.
-/
import proofs.«103784_j3092376453282_1_alg».proof.Proof.Gen.KernelIdeal.Frame
import proofs.«103784_j3092376453282_1_alg».proof.Proof.KPay

set_option maxRecDepth 16384

noncomputable section

namespace Cert.KernelIdeal.Arr1

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row operand's block moves with the output's, the weight and the bias row
    stay at block (0, 0), and the output's block row is below 10. -/
theorem idx_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 :=
  (by decide +kernel : ∀ t : Fin grid1.N, _)

/-- Every block row of the output is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of the linear layer of the arrays. -/
theorem flushed_eq (c : Dev nD) (t : Fin cfg1.N) :
    (dat1 (F := Ideal) V c).flushed 3 t
      = ((cfg1.win 3).blk t).view.read (Elt Ideal) (lin (n := 50000) (K := 128) (d := 128) (V c main_v34) (V c main_v38) (V c main_v35)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin, View.ld_unit_zero (S := S1x128) origin]
  rw [Cert.KernelIdeal.Pay.k1_lin]
  obtain ⟨e0, e1, e2, e3, e4, e5, e6, e7⟩ := idx_facts t
  have hw : (iblk1 V c 1 t : S128x128.Idx → EReal) = V c main_v38 := by
    funext y
    show V c main_v38 (((cfg1.win 1).blk t).view.emb y) = V c main_v38 y
    refine congrArg (V c main_v38) (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have hb : (iblk1 V c 2 t : S1x128.Idx → EReal) = V c main_v35 := by
    funext y
    show V c main_v35 (((cfg1.win 2).blk t).view.emb y) = V c main_v35 y
    refine congrArg (V c main_v35) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  rw [hw, hb]
  funext j
  obtain ⟨p, q, rfl⟩ : ∃ (p : Fin 5000) (q : Fin 128), j = ix2 p q := ⟨j 0, j 1, eq_ix2 j⟩
  have hr : win1_3.index t (0 : Fin 2) * 5000 + p.val < 50000 := by have := p.isLt; omega
  have hemb : ((cfg1.win 3).blk t).view.emb (ix2 p q) = ix2 (⟨win1_3.index t (0 : Fin 2) * 5000 + p.val, hr⟩ : Fin 50000) q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 128 + 1 * q.val = q.val; omega
  show lin (iblk1 V c 0 t) (V c main_v38) (V c main_v35) (ix2 p q) = lin (V c main_v34) (V c main_v38) (V c main_v35) (((cfg1.win 3).blk t).view.emb (ix2 p q))
  rw [hemb]
  refine lin_congr (iblk1 V c 0 t) (V c main_v34) (V c main_v38) (V c main_v35) p _ q (fun k => ?_)
  show V c main_v34 (((cfg1.win 0).blk t).view.emb (ix2 p k)) = V c main_v34 (ix2 _ k)
  refine congrArg (V c main_v34) (funext fun a => Fin.ext ?_)
  match a with
  | ⟨0, _⟩ => show win1_0.index t (0 : Fin 2) * 5000 + 1 * p.val = win1_3.index t (0 : Fin 2) * 5000 + p.val; omega
  | ⟨1, _⟩ => show win1_0.index t (1 : Fin 2) * 128 + 1 * k.val = k.val; omega

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v39).slice (win1_3.rect t)).set ↔ _
  rw [View.set_slice_whole, Rect.mem_set_unit]
  exact Iff.rfl

/-- The ten blocks cover the array. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The array after region 1: the linear layer of the arrays the region finds. -/
theorem arr (c : Dev nD) :
    (dat1 (F := Ideal) V c).arrAt 3 cfg1.N = lin (n := 50000) (K := 128) (d := 128) (V c main_v34) (V c main_v38) (V c main_v35) :=
  (dat1 (F := Ideal) V c).arrAt_eq_of_cover 3 _ (fun t _ => flushed_eq V c t) (cover)

end Cert.KernelIdeal.Arr1

end
-- ==== Proof.KTail.lean ====
/-
  Small readings on the kernel program's host side: a vector cast to a row is the row holding it; a splat of the zero
  word over a row is the zero row; and a `[128, 1]` column written into column 0 of a `[128, 128]` array of zeros reads
  back, at column 0, as the column.
-/
import proofs.«103784_j3092376453282_1_alg».proof.Proof.Gen.KernelIdeal
import proofs.«103784_j3092376453282_1_alg».proof.Proof.Spec
import Idealize.ShloMosaic.Lib.Pipeline.Value
import Idealize.ShloMosaic.Lib.ValueIdx
import Idealize.ShloMosaic.PureOps.Ideal.Laws

noncomputable section

namespace Cert.KernelIdeal.Tail

open Cert.KernelIdeal Cert.KernelIdeal.Gen Idealize.ShloMosaic Idealize.ShloMosaic.ValueIdx Cert.Gcn

/-- A vector `[128]` cast to `[1, 128]` is the row holding it. -/
theorem row_cast (v : FVec Ideal S128 .f32) : (shapeCast S1x128 v shapeCasts_S128_S1x128 : FVec Ideal S1x128 .f32) = rowOf v := by
  funext j
  refine (shapeCast_addUnit_apply ![128] v shapeCasts_S128_S1x128 j).trans (congrArg v (funext fun a => ?_))
  match a with
  | ⟨0, _⟩ => rfl

/-- The zero word splat over a row `[1, 128]` is the zero row. -/
theorem zero_row : (broadcastInDim S1x128 ![] bcast_S_S1x128 (constant (F := Ideal) S_ .f32 0x00000000#32) : FVec Ideal S1x128 .f32) = zeroRow 128 := by
  funext j
  rfl

/-! ## Writes folded over a list, read at one index -/

/-- A fold of writes over a list, read at an index i. Each item either writes its value at one index or leaves the array
    alone. If the array already holds c at i or some item of the list writes at i, and every item of the list that writes
    at i writes c, then the folded array holds c at i. -/
theorem foldl_write {ι I β : Type} [DecidableEq I] (g : ι → Option I) (w : ι → β) (step : (I → β) → ι → (I → β))
    (hnone : ∀ r n, g n = none → step r n = r)
    (hsome : ∀ r n i', g n = some i' → ∀ j, step r n j = if j = i' then w n else r j)
    (i : I) (c : β) :
    ∀ (l : List ι) (x : I → β), (x i = c ∨ ∃ n ∈ l, g n = some i) → (∀ n ∈ l, g n = some i → w n = c) →
      l.foldl step x i = c := by
  intro l
  induction l with
  | nil =>
    intro x hx _
    rcases hx with hx | ⟨n, hn, _⟩
    · exact hx
    · cases hn
  | cons n l ih =>
    intro x hx hall
    rw [List.foldl_cons]
    refine ih (step x n) ?_ (fun m hm => hall m (List.mem_cons_of_mem _ hm))
    have hmem : n ∈ n :: l := List.mem_cons.mpr (Or.inl rfl)
    have keep : x i = c → step x n i = c := by
      intro hxi
      cases hg : g n with
      | none => rw [hnone x n hg]; exact hxi
      | some i' =>
        rw [hsome x n i' hg i]
        by_cases hi : i = i'
        · rw [if_pos hi]; exact hall n hmem (by rw [hg, hi])
        · rw [if_neg hi]; exact hxi
    rcases hx with hx | ⟨m, hm, hgm⟩
    · exact Or.inl (keep hx)
    · rcases List.mem_cons.mp hm with rfl | hm
      · left
        rw [hsome x m i hgm i, if_pos rfl]
        exact hall m hmem hgm
      · exact Or.inr ⟨m, hm, hgm⟩

/-! ## Where the column's entries land -/

/-- With the one start index the zero word, every window starts at 0 on both axes. -/
theorem start_zero (idx : IVec S1 32) (hidx : ∀ c, idx c = 0#32) (j : S128x1.Idx) (a : Fin 2) :
    scatter_S128x128_S1_S128x1_01_n_1_0.start j idx a = 0 := by
  unfold ScatterDims.start
  split
  · rw [hidx]; rfl
  · rfl

/-- The window coordinate of an update index on either axis is the update index's own coordinate. -/
theorem window_eq (j : S128x1.Idx) (a : Fin 2) : scatter_S128x128_S1_S128x1_01_n_1_0.window j a = (j a).val := by
  have h0 : scatter_S128x128_S1_S128x1_01_n_1_0.window j (0 : Fin 2) = (j 0).val := by
    unfold ScatterDims.window
    rw [dif_pos (show (0 : Fin 2) ∈ scatter_S128x128_S1_S128x1_01_n_1_0.sKept by decide)]
    rfl
  have h1 : scatter_S128x128_S1_S128x1_01_n_1_0.window j (1 : Fin 2) = (j 1).val := by
    unfold ScatterDims.window
    rw [dif_pos (show (1 : Fin 2) ∈ scatter_S128x128_S1_S128x1_01_n_1_0.sKept by decide)]
    rfl
  match a with
  | ⟨0, _⟩ => exact h0
  | ⟨1, _⟩ => exact h1

/-- Update entry (r, 0) lands at (r, 0). -/
theorem res_eq (idx : IVec S1 32) (hidx : ∀ c, idx c = 0#32) (j : S128x1.Idx) :
    scatter_S128x128_S1_S128x1_01_n_1_0.resultIdx? j idx = some (ix2 (j 0) (0 : Fin 128)) := by
  have hsw : ∀ a : Fin 2, scatter_S128x128_S1_S128x1_01_n_1_0.start j idx a + (scatter_S128x128_S1_S128x1_01_n_1_0.window j a : ℤ) = ((j a).val : ℤ) := fun a => by
    rw [start_zero idx hidx, window_eq, zero_add]
  have h0 : (j 0).val < 128 := idx2_lt0 j
  have h1 : (j 1).val < 1 := idx2_lt1 j
  have hC : ∀ a : Fin 2, 0 ≤ scatter_S128x128_S1_S128x1_01_n_1_0.start j idx a + (scatter_S128x128_S1_S128x1_01_n_1_0.window j a : ℤ)
      ∧ scatter_S128x128_S1_S128x1_01_n_1_0.start j idx a + (scatter_S128x128_S1_S128x1_01_n_1_0.window j a : ℤ) < (S128x128.size a : ℤ) := by
    intro a
    rw [hsw a]
    match a with
    | ⟨0, _⟩ => exact ⟨Int.natCast_nonneg _, by show ((j 0).val : ℤ) < ((128 : ℕ) : ℤ); omega⟩
    | ⟨1, _⟩ => exact ⟨Int.natCast_nonneg _, by show ((j 1).val : ℤ) < ((128 : ℕ) : ℤ); omega⟩
  unfold ScatterDims.resultIdx?
  split
  · refine congrArg some (funext fun a => Fin.ext ?_)
    show (scatter_S128x128_S1_S128x1_01_n_1_0.start j idx a + (scatter_S128x128_S1_S128x1_01_n_1_0.window j a : ℤ)).toNat = _
    rw [hsw a, Int.toNat_natCast]
    match a with
    | ⟨0, _⟩ => rfl
    | ⟨1, _⟩ => show (j 1).val = 0; omega
  · rename_i hn
    exact absurd hC hn

/-- The column written into column 0 of the zero array, read back at (k, 0). -/
theorem pad_col (u : FVec Ideal S128x1 .f32) (k : Fin 128) :
    (Host.scatter scatter_S128x128_S1_S128x1_01_n_1_0 (fun _ b => b)
        (broadcastInDim S128x128 ![] bcast_S_S128x128 (constant (F := Ideal) S_ .f32 0x00000000#32))
        (broadcastInDim S1 ![] bcast_S_S1 (constantI S_ 32 0#32)) u : FVec Ideal S128x128 .f32) (ix2 k (0 : Fin 128))
      = u (ix2 k (0 : Fin 1)) := by
  have hidx : ∀ c, (broadcastInDim S1 ![] bcast_S_S1 (constantI S_ 32 0#32) : IVec S1 32) c = 0#32 := fun _ => rfl
  have hres := res_eq _ hidx
  unfold Host.scatter
  apply foldl_write
    (fun n : Fin S128x1.numel => scatter_S128x128_S1_S128x1_01_n_1_0.resultIdx? (S128x1.rowMajor.symm n) (broadcastInDim S1 ![] bcast_S_S1 (constantI S_ 32 0#32)))
    (fun n : Fin S128x1.numel => u (S128x1.rowMajor.symm n))
  · intro r n hn
    have hn' : scatter_S128x128_S1_S128x1_01_n_1_0.resultIdx? (S128x1.rowMajor.symm n) (broadcastInDim S1 ![] bcast_S_S1 (constantI S_ 32 0#32)) = none := hn
    simp only [hn']
  · intro r n i' hn j
    have hn' : scatter_S128x128_S1_S128x1_01_n_1_0.resultIdx? (S128x1.rowMajor.symm n) (broadcastInDim S1 ![] bcast_S_S1 (constantI S_ 32 0#32)) = some i' := hn
    simp only [hn']
  · refine Or.inr ⟨S128x1.rowMajor (ix2 k (0 : Fin 1)), List.mem_finRange _, ?_⟩
    show scatter_S128x128_S1_S128x1_01_n_1_0.resultIdx? (S128x1.rowMajor.symm (S128x1.rowMajor (ix2 k (0 : Fin 1)))) _ = _
    rw [Equiv.symm_apply_apply, hres]
    rfl
  · intro n _ hn
    have hn' : scatter_S128x128_S1_S128x1_01_n_1_0.resultIdx? (S128x1.rowMajor.symm n) (broadcastInDim S1 ![] bcast_S_S1 (constantI S_ 32 0#32)) = some (ix2 k (0 : Fin 128)) := hn
    rw [hres] at hn'
    have hj0 : (S128x1.rowMajor.symm n) 0 = k := congrFun (Option.some.inj hn') 0
    have h1 : ((S128x1.rowMajor.symm n) 1).val < 1 := idx2_lt1 _
    show u (S128x1.rowMajor.symm n) = u (ix2 k (0 : Fin 1))
    refine congrArg u (funext fun a => ?_)
    match a with
    | ⟨0, _⟩ => exact hj0
    | ⟨1, _⟩ => exact Fin.ext (by show ((S128x1.rowMajor.symm n) 1).val = 0; omega)

/-- Column 0 of a linear layer with the zero row as bias, cut out as a `[50000, 1]` slice, at row p. -/
theorem out_col (H : FVec Ideal S50000x128 .f32) (Wp : FVec Ideal S128x128 .f32) (p : Fin 50000) :
    (extractStridedSlice S50000x1 ![0, 0] (lin (n := 50000) (K := 128) (d := 128) H Wp (zeroRow 128)) slices_S50000x128_S50000x1_0_0 : FVec Ideal S50000x1 .f32) (ix2 p (0 : Fin 1))
      = ∑ k : Fin 128, H (ix2 p k) * Wp (ix2 k (0 : Fin 128)) := by
  refine (extractStridedSlice_apply ![0, 0] _ slices_S50000x128_S50000x1_0_0 (ix2 p (0 : Fin 1)) (ix2 p (0 : Fin 128)) (fun a => ?_)).trans ?_
  · match a with
    | ⟨0, _⟩ => show p.val = 0 + p.val; omega
    | ⟨1, _⟩ => rfl
  · show (∑ k : Fin 128, H (ix2 p k) * Wp (ix2 k (0 : Fin 128))) + Ideal.ofBits .f32 0x00000000#32 = _
    rw [Ideal.ofBits_zero_f32, add_zero]

end Cert.KernelIdeal.Tail

end
-- ==== Proof.RLayer.lean ====
/-
  The reference's layers on the extended reals, index by index: a dot_general plus a broadcast bias vector is the linear
  layer with the vector as its bias row; a dot_general alone is the linear layer with the zero row; and the chain
  "add the bias, rectify, add the residual, subtract the row mean, divide by the root of the row variance plus ε, scale,
  shift" is the block after the aggregation.
-/
import proofs.«103784_j3092376453282_1_alg».proof.Proof.Gen.ReferenceIdeal
import proofs.«103784_j3092376453282_1_alg».proof.Proof.Spec
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Gen Idealize.ShloMosaic Idealize.ShloMosaic.ValueIdx Cert.Gcn

/-- A vector `[128]` broadcast to a row `[1, 128]` and then down 50000 rows. -/
def rows (v : FVec Ideal S128 .f32) : FVec Ideal S50000x128 .f32 :=
  broadcastInDim S50000x128 ![0, 1] bcast_S1x128_S50000x128_0_1 (broadcastInDim S1x128 ![1] bcast_S128_S1x128_1 v)

/-- A keep-dims column `[50000, 1]` broadcast along the 128 lanes. -/
def lanes (u : FVec Ideal S50000x1 .f32) : FVec Ideal S50000x128 .f32 :=
  broadcastInDim S50000x128 ![0, 1] bcast_S50000x1_S50000x128_0_1 u

/-- The row means of an array as the reference computes them: the host's sum over the lanes from the zero word, kept as
    a column, divided by the word of 128.0. -/
def meanCol (z : FVec Ideal S50000x128 .f32) : FVec Ideal S50000x1 .f32 :=
  Host.divf (broadcastInDim S50000x1 ![0] bcast_S50000_S50000x1_0
      (Host.reduceAdd z (constant S_ .f32 0x00000000#32) reducesTo_S50000x128_S50000_d1 h_S_))
    (broadcastInDim S50000x1 ![] bcast_S_S50000x1 (constant S_ .f32 0x43000000#32))

/-- The residual plus the rectified biased aggregate, as the reference computes it. -/
def refResid (h agg : FVec Ideal S50000x128 .f32) (bv : FVec Ideal S128 .f32) : FVec Ideal S50000x128 .f32 :=
  addf h (maximumf (addf agg (rows bv)) (broadcastInDim S50000x128 ![] bcast_S_S50000x128 (constant S_ .f32 0x00000000#32)))

/-- The row normalisation as the reference computes it. -/
def refNorm (z : FVec Ideal S50000x128 .f32) (gv βv : FVec Ideal S128 .f32) : FVec Ideal S50000x128 .f32 :=
  addf (mulf (mulf (subf z (lanes (meanCol z)))
      (lanes (Host.rsqrt (addf (meanCol (mulf (subf z (lanes (meanCol z))) (subf z (lanes (meanCol z)))))
        (broadcastInDim S50000x1 ![] bcast_S_S50000x1 (constant S_ .f32 0x3727C5AC#32))))))
    (rows gv)) (rows βv)

/-! ## The broadcasts and the lane sum, read at an entry -/

/-- A vector broadcast to a row and then down the rows, at entry (p, q), is the vector's entry q. -/
theorem rows_apply (v : FVec Ideal S128 .f32) (p : Fin 50000) (q : Fin 128) : rows v (ix2 p q) = v (ix1 q) := by
  unfold rows
  refine (broadcastInDim_apply _ bcast_S1x128_S50000x128_0_1 _ (ix2 p q) (ix2 0 q) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
  · refine broadcastInDim_apply _ bcast_S128_S1x128_1 v (ix2 0 q) (ix1 q) (fun a => ?_)
    match a with
    | ⟨0, _⟩ => show q.val = if (128 : Nat) = 1 then 0 else q.val; rw [if_neg (by decide)]

/-- A keep-dims column broadcast along the lanes, at entry (p, q), is the column's entry p. -/
theorem lanes_apply (u : FVec Ideal S50000x1 .f32) (p : Fin 50000) (q : Fin 128) : lanes u (ix2 p q) = u (ix2 p 0) := by
  unfold lanes
  refine broadcastInDim_apply _ bcast_S50000x1_S50000x128_0_1 u (ix2 p q) (ix2 p 0) (fun a => ?_)
  match a with
  | ⟨0, _⟩ => show p.val = if (50000 : Nat) = 1 then 0 else p.val; rw [if_neg (by decide)]
  | ⟨1, _⟩ => show 0 = if (1 : Nat) = 1 then 0 else q.val; rw [if_pos rfl]

/-- A vector [50000] broadcast to a column [50000, 1], at entry (p, 0), is the vector's entry p. -/
theorem col_apply (v : FVec Ideal S50000 .f32) (p : Fin 50000) :
    broadcastInDim S50000x1 ![0] bcast_S50000_S50000x1_0 v (ix2 p 0) = v (ix1 p) := by
  refine broadcastInDim_apply _ bcast_S50000_S50000x1_0 v (ix2 p 0) (ix1 p) (fun a => ?_)
  match a with
  | ⟨0, _⟩ => show p.val = if (50000 : Nat) = 1 then 0 else p.val; rw [if_neg (by decide)]

/-- The host's sum over the lanes from the zero word, at row p, is the sum over the row's 128 entries. -/
theorem lane_sum (z : FVec Ideal S50000x128 .f32) (p : Fin 50000) :
    (Host.reduceAdd z (constant (F := Ideal) S_ .f32 0x00000000#32) reducesTo_S50000x128_S50000_d1 h_S_ : FVec Ideal S50000 .f32) (ix1 p)
      = ∑ k : Fin 128, z (ix2 p k) := by
  simp only [Host.reduceAdd, Ideal.hostReduceAdd_def]
  rw [Ideal.hostReduceAdd_single reducesTo_S50000x128_S50000_d1 (by decide)]
  rw [constant_apply, Ideal.ofBits_zero_f32, zero_add]
  refine Finset.sum_congr rfl fun k _ => congrArg z (funext fun a => Fin.ext ?_)
  match a with
  | ⟨0, _⟩ => rfl
  | ⟨1, _⟩ => rfl

/-- The row means as the reference computes them, at row p. -/
theorem meanCol_apply (z : FVec Ideal S50000x128 .f32) (p : Fin 50000) : meanCol z (ix2 p 0) = rowMean (n := 50000) z p := by
  unfold meanCol
  show Ideal.div (broadcastInDim S50000x1 ![0] bcast_S50000_S50000x1_0
      (Host.reduceAdd z (constant (F := Ideal) S_ .f32 0x00000000#32) reducesTo_S50000x128_S50000_d1 h_S_ : FVec Ideal S50000 .f32) (ix2 p 0))
    (Ideal.ofBits .f32 0x43000000#32) = _
  rw [col_apply, lane_sum]
  rfl

/-- The matrix product's dimension record is the plain [50000, 128] × [128, 128] one. -/
theorem dot_plain : dot_S50000x128_S128x128_S50000x128_1_0_0_1_n_n = DotDims.plain 50000 128 128 := rfl

/-- The reference's dot_general `[50000, 128] × [128, 128]` at an entry is the row-by-column sum. -/
theorem dot_apply (X : FVec Ideal S50000x128 .f32) (W : FVec Ideal S128x128 .f32) (i : S50000x128.Idx) :
    Host.dotGeneral (F := Ideal) dot_S50000x128_S128x128_S50000x128_1_0_0_1_n_n none X W i = Cert.LibDense.prod (n := 50000) (K := 128) (d := 128) X W i := by
  simp only [Host.dotGeneral]
  exact Cert.LibDense.dotGeneral_plain (M := 50000) (K := 128) (N := 128) _ X W i

/-- dot_general plus the broadcast bias vector is the linear layer with the vector as its bias row. -/
theorem lin_bias (X : FVec Ideal S50000x128 .f32) (W : FVec Ideal S128x128 .f32) (bv : FVec Ideal S128 .f32) :
    addf (Host.dotGeneral (F := Ideal) dot_S50000x128_S128x128_S50000x128_1_0_0_1_n_n none X W) (rows bv)
      = lin (n := 50000) (K := 128) (d := 128) X W (rowOf bv) := by
  funext i
  obtain ⟨p, q, rfl⟩ : ∃ (p : Fin 50000) (q : Fin 128), i = ix2 p q := ⟨i 0, i 1, eq_ix2 i⟩
  rw [addf_apply, dot_apply, rows_apply]
  rfl

/-- dot_general alone is the linear layer with the zero row. -/
theorem lin_zero (X : FVec Ideal S50000x128 .f32) (W : FVec Ideal S128x128 .f32) :
    Host.dotGeneral (F := Ideal) dot_S50000x128_S128x128_S50000x128_1_0_0_1_n_n none X W
      = lin (n := 50000) (K := 128) (d := 128) X W (zeroRow 128) := by
  funext i
  rw [dot_apply]
  unfold lin zeroRow
  rw [Ideal.ofBits_zero_f32, add_zero]

/-! ## The chain after the aggregation -/

/-- The residual plus the rectified biased aggregate, as the reference computes it, is the specification's. -/
theorem resid_eq (h agg : FVec Ideal S50000x128 .f32) (bv : FVec Ideal S128 .f32) :
    refResid h agg bv = resid (n := 50000) (d := 128) h agg (rowOf bv) := by
  funext i
  obtain ⟨p, q, rfl⟩ : ∃ (p : Fin 50000) (q : Fin 128), i = ix2 p q := ⟨i 0, i 1, eq_ix2 i⟩
  unfold refResid
  show h (ix2 p q) + max (agg (ix2 p q) + rows bv (ix2 p q)) (Ideal.ofBits .f32 0x00000000#32) = _
  rw [rows_apply]
  rfl

/-- The row normalisation as the reference computes it, at entry (p, q), is the specification's. -/
theorem norm_apply (z : FVec Ideal S50000x128 .f32) (gv βv : FVec Ideal S128 .f32) (p : Fin 50000) (q : Fin 128) :
    refNorm z gv βv (ix2 p q) = layerNorm (n := 50000) z (rowOf gv) (rowOf βv) (ix2 p q) := by
  -- the centred array, at any entry of row p
  have hc : ∀ k : Fin 128, (subf z (lanes (meanCol z)) : FVec Ideal S50000x128 .f32) (ix2 p k) = centred (n := 50000) z (ix2 p k) := by
    intro k
    rw [subf_apply, lanes_apply, meanCol_apply]
    rfl
  unfold refNorm
  rw [addf_apply, mulf_apply, mulf_apply, hc q, lanes_apply, rows_apply, rows_apply]
  show centred z (ix2 p q) * Ideal.rsqrt (meanCol (mulf (subf z (lanes (meanCol z))) (subf z (lanes (meanCol z)))) (ix2 p 0)
      + Ideal.ofBits .f32 0x3727C5AC#32) * gv (ix1 q) + βv (ix1 q) = _
  rw [meanCol_apply]
  unfold layerNorm
  show _ = centred z (ix2 p q) * Ideal.rsqrt (rowMean (fun i' => centred z i' * centred z i') p + _) * gv (ix1 q) + βv (ix1 q)
  refine congrArg (fun t => centred z (ix2 p q) * Ideal.rsqrt (t + Ideal.ofBits .f32 0x3727C5AC#32) * gv (ix1 q) + βv (ix1 q)) ?_
  refine rowMean_congr _ _ p p fun k => ?_
  rw [mulf_apply, hc k]

/-- The reference's chain after the aggregation is the block after the aggregation. -/
theorem post_eq (h agg : FVec Ideal S50000x128 .f32) (bv gv βv : FVec Ideal S128 .f32) :
    refNorm (refResid h agg bv) gv βv = gcnPost (n := 50000) h agg (rowOf bv) (rowOf gv) (rowOf βv) := by
  funext i
  obtain ⟨p, q, rfl⟩ : ∃ (p : Fin 50000) (q : Fin 128), i = ix2 p q := ⟨i 0, i 1, eq_ix2 i⟩
  unfold gcnPost
  rw [resid_eq]
  exact norm_apply (resid h agg (rowOf bv)) gv βv p q

end Cert.ReferenceIdeal.Layer

end
-- ==== Proof.KChain0.lean ====
/-
  The fold of the kernel program's segments read up to the second region's exit: the edge lists, the degree
  normalisation and the transposed embedding weight are the same host operations as the reference's stages; the first
  region leaves the embedding layer and the second the first layer's linear map.
-/
import proofs.«103784_j3092376453282_1_alg».proof.Proof.KChainLib
import proofs.«103784_j3092376453282_1_alg».proof.Proof.KArr0
import proofs.«103784_j3092376453282_1_alg».proof.Proof.KArr1
import proofs.«103784_j3092376453282_1_alg».proof.Proof.KTail
import proofs.«103784_j3092376453282_1_alg».proof.Proof.RLayer
import proofs.«103784_j3092376453282_1_alg».proof.Proof.ReadP
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx Cert.Gcn
open Idealize.SL.Sem Idealize.ShloMosaic.StableHlo
open Cert.ReferenceIdeal.ReadP

variable (m : (ℓ : Loc nD τ sig) → Buf (Elt Ideal) ℓ) (ρ : Dev nD → PrngReg) (c : Dev nD)

/-! ## Before the first region: the shared host operations -/

set_option maxRecDepth 100000 in
theorem row_1 : W1 m ρ c (Proc.devRef .tc main_v3) = val_main_v3 (m ((c : Thread nD τ).loc main_arg1)) := by
  show StableHlo.after hostOps0 (W0 m ρ c) (Proc.devRef .tc main_v3) = _
  after_results
  rfl

set_option maxRecDepth 100000 in
theorem col_1 : W1 m ρ c (Proc.devRef .tc main_v6) = val_main_v6 (m ((c : Thread nD τ).loc main_arg1)) := by
  show StableHlo.after hostOps0 (W0 m ρ c) (Proc.devRef .tc main_v6) = _
  after_results
  rfl

set_option maxRecDepth 100000 in
theorem pos_1 : W1 m ρ c (Proc.devRef .tc main_v12) = val_main_v12 (m ((c : Thread nD τ).loc main_arg1)) := by
  show StableHlo.after hostOps0 (W0 m ρ c) (Proc.devRef .tc main_v12) = _
  after_results
  rfl

set_option maxRecDepth 100000 in
theorem rs_1 : W1 m ρ c (Proc.devRef .tc main_v15) = val_main_v15 (m ((c : Thread nD τ).loc main_arg1)) := by
  show StableHlo.after hostOps0 (W0 m ρ c) (Proc.devRef .tc main_v15) = _
  after_results
  rfl

set_option maxRecDepth 100000 in
theorem cst3_1 : W1 m ρ c (Proc.devRef .tc main_cst_3) = val_main_cst_3 := by
  show StableHlo.after hostOps0 (W0 m ρ c) (Proc.devRef .tc main_cst_3) = _
  after_results
  rfl

/-! A buffer of a called function read at its declared type is the buffer (the transport along a type equation that holds by computation). -/
theorem ob12 (v : (⟨S50000, .i1⟩ : BufTy).Contents (Elt Ideal)) : (TRef.of (sig := sig) (T := ⟨S50000, .i1⟩) main_v12).ofBuf v = v := rfl
theorem ob15 (v : (⟨S50000, .f32⟩ : BufTy).Contents (Elt Ideal)) : (TRef.of (sig := sig) (T := ⟨S50000, .f32⟩) main_v15).ofBuf v = v := rfl
theorem obc1 (v : (⟨S50000, .f32⟩ : BufTy).Contents (Elt Ideal)) : (TRef.of (sig := sig) (T := ⟨S50000, .f32⟩) main_call0_v1).ofBuf v = v := rfl
theorem tbc1 (v : (⟨S50000, .f32⟩ : BufTy).Contents (Elt Ideal)) : (TRef.of (sig := sig) (T := ⟨S50000, .f32⟩) main_call0_v1).toBuf v = v := rfl
theorem obc0 (v : (⟨S_, .f32⟩ : BufTy).Contents (Elt Ideal)) : (TRef.of (sig := sig) (T := ⟨S_, .f32⟩) main_call0_v0).ofBuf v = v := rfl
theorem tbc0 (v : (⟨S_, .f32⟩ : BufTy).Contents (Elt Ideal)) : (TRef.of (sig := sig) (T := ⟨S_, .f32⟩) main_call0_v0).toBuf v = v := rfl
theorem obk3 (v : (⟨S_, .f32⟩ : BufTy).Contents (Elt Ideal)) : (TRef.of (sig := sig) (T := ⟨S_, .f32⟩) main_cst_3).ofBuf v = v := rfl
theorem tb16 (v : (⟨S50000, .f32⟩ : BufTy).Contents (Elt Ideal)) : (TRef.of (sig := sig) (T := ⟨S50000, .f32⟩) main_v16).toBuf v = v := rfl

set_option maxRecDepth 100000 in
theorem dis_2 : W2 m ρ c (Proc.devRef .tc main_v16) = val_main_v16 (m ((c : Thread nD τ).loc main_arg1)) := by
  have h1 := pos_1 m ρ c
  have h2 := rs_1 m ρ c
  have h3 := cst3_1 m ρ c
  show StableHlo.after hostOps0_1 (W1 m ρ c) (Proc.devRef .tc main_v16) = _
  generalize W1 m ρ c = V at h1 h2 h3 ⊢
  after_results
  rw [h1, h2, h3]
  rw [tb16, ob12, ob15, obc1, tbc1, obc0, tbc0, obk3]
  rfl

theorem row_2 : W2 m ρ c (Proc.devRef .tc main_v3) = val_main_v3 (m ((c : Thread nD τ).loc main_arg1)) :=
  (by keepH : W2 m ρ c (Proc.devRef .tc main_v3) = W1 m ρ c (Proc.devRef .tc main_v3)).trans (row_1 m ρ c)

theorem col_2 : W2 m ρ c (Proc.devRef .tc main_v6) = val_main_v6 (m ((c : Thread nD τ).loc main_arg1)) :=
  (by keepH : W2 m ρ c (Proc.devRef .tc main_v6) = W1 m ρ c (Proc.devRef .tc main_v6)).trans (col_1 m ρ c)

set_option maxHeartbeats 4000000 in
set_option maxRecDepth 100000 in
theorem pre_norm : W3 m ρ c (Proc.devRef .tc main_v31) = val_main_v31 (m ((c : Thread nD τ).loc main_arg1)) := by
  have h1 := dis_2 m ρ c
  have h2 := row_2 m ρ c
  have h3 := col_2 m ρ c
  show StableHlo.after hostOps0_2 (W2 m ρ c) (Proc.devRef .tc main_v31) = _
  generalize W2 m ρ c = V at h1 h2 h3 ⊢
  after_results
  rw [h1, h2, h3]
  rfl

theorem pre_row : W3 m ρ c (Proc.devRef .tc main_v3) = val_main_v3 (m ((c : Thread nD τ).loc main_arg1)) :=
  (by keepH : W3 m ρ c (Proc.devRef .tc main_v3) = W2 m ρ c (Proc.devRef .tc main_v3)).trans (row_2 m ρ c)

theorem pre_col : W3 m ρ c (Proc.devRef .tc main_v6) = val_main_v6 (m ((c : Thread nD τ).loc main_arg1)) :=
  (by keepH : W3 m ρ c (Proc.devRef .tc main_v6) = W2 m ρ c (Proc.devRef .tc main_v6)).trans (col_2 m ρ c)

theorem arg3_2 : W2 m ρ c (Proc.devRef .tc main_arg3) = (m ((c : Thread nD τ).loc main_arg3)) :=
  ((by keepH : W2 m ρ c (Proc.devRef .tc main_arg3) = W1 m ρ c (Proc.devRef .tc main_arg3)).trans (by keepH : W1 m ρ c (Proc.devRef .tc main_arg3) = W0 m ρ c (Proc.devRef .tc main_arg3))).trans (rfl)

theorem arg4_2 : W2 m ρ c (Proc.devRef .tc main_arg4) = (m ((c : Thread nD τ).loc main_arg4)) :=
  ((by keepH : W2 m ρ c (Proc.devRef .tc main_arg4) = W1 m ρ c (Proc.devRef .tc main_arg4)).trans (by keepH : W1 m ρ c (Proc.devRef .tc main_arg4) = W0 m ρ c (Proc.devRef .tc main_arg4))).trans (rfl)

theorem pre_wemb : W3 m ρ c (Proc.devRef .tc main_v32) = val_main_v32 (m ((c : Thread nD τ).loc main_arg3)) := by
  show StableHlo.after hostOps0_2 (W2 m ρ c) (Proc.devRef .tc main_v32) = _
  after_results
  rfl

theorem pre_bemb : W3 m ρ c (Proc.devRef .tc main_v33) = rowOf (m ((c : Thread nD τ).loc main_arg4)) := by
  show StableHlo.after hostOps0_2 (W2 m ρ c) (Proc.devRef .tc main_v33) = _
  after_results
  exact Cert.KernelIdeal.Tail.row_cast _

theorem arg0_3 : W3 m ρ c (Proc.devRef .tc main_arg0) = (m ((c : Thread nD τ).loc main_arg0)) :=
  (((by keepH : W3 m ρ c (Proc.devRef .tc main_arg0) = W2 m ρ c (Proc.devRef .tc main_arg0)).trans (by keepH : W2 m ρ c (Proc.devRef .tc main_arg0) = W1 m ρ c (Proc.devRef .tc main_arg0))).trans (by keepH : W1 m ρ c (Proc.devRef .tc main_arg0) = W0 m ρ c (Proc.devRef .tc main_arg0))).trans (rfl)

theorem arg5_3 : W3 m ρ c (Proc.devRef .tc main_arg5) = (m ((c : Thread nD τ).loc main_arg5)) :=
  (((by keepH : W3 m ρ c (Proc.devRef .tc main_arg5) = W2 m ρ c (Proc.devRef .tc main_arg5)).trans (by keepH : W2 m ρ c (Proc.devRef .tc main_arg5) = W1 m ρ c (Proc.devRef .tc main_arg5))).trans (by keepH : W1 m ρ c (Proc.devRef .tc main_arg5) = W0 m ρ c (Proc.devRef .tc main_arg5))).trans (rfl)

theorem arg6_3 : W3 m ρ c (Proc.devRef .tc main_arg6) = (m ((c : Thread nD τ).loc main_arg6)) :=
  (((by keepH : W3 m ρ c (Proc.devRef .tc main_arg6) = W2 m ρ c (Proc.devRef .tc main_arg6)).trans (by keepH : W2 m ρ c (Proc.devRef .tc main_arg6) = W1 m ρ c (Proc.devRef .tc main_arg6))).trans (by keepH : W1 m ρ c (Proc.devRef .tc main_arg6) = W0 m ρ c (Proc.devRef .tc main_arg6))).trans (rfl)

theorem arg7_3 : W3 m ρ c (Proc.devRef .tc main_arg7) = (m ((c : Thread nD τ).loc main_arg7)) :=
  (((by keepH : W3 m ρ c (Proc.devRef .tc main_arg7) = W2 m ρ c (Proc.devRef .tc main_arg7)).trans (by keepH : W2 m ρ c (Proc.devRef .tc main_arg7) = W1 m ρ c (Proc.devRef .tc main_arg7))).trans (by keepH : W1 m ρ c (Proc.devRef .tc main_arg7) = W0 m ρ c (Proc.devRef .tc main_arg7))).trans (rfl)

theorem arg8_3 : W3 m ρ c (Proc.devRef .tc main_arg8) = (m ((c : Thread nD τ).loc main_arg8)) :=
  (((by keepH : W3 m ρ c (Proc.devRef .tc main_arg8) = W2 m ρ c (Proc.devRef .tc main_arg8)).trans (by keepH : W2 m ρ c (Proc.devRef .tc main_arg8) = W1 m ρ c (Proc.devRef .tc main_arg8))).trans (by keepH : W1 m ρ c (Proc.devRef .tc main_arg8) = W0 m ρ c (Proc.devRef .tc main_arg8))).trans (rfl)

theorem arg9_3 : W3 m ρ c (Proc.devRef .tc main_arg9) = (m ((c : Thread nD τ).loc main_arg9)) :=
  (((by keepH : W3 m ρ c (Proc.devRef .tc main_arg9) = W2 m ρ c (Proc.devRef .tc main_arg9)).trans (by keepH : W2 m ρ c (Proc.devRef .tc main_arg9) = W1 m ρ c (Proc.devRef .tc main_arg9))).trans (by keepH : W1 m ρ c (Proc.devRef .tc main_arg9) = W0 m ρ c (Proc.devRef .tc main_arg9))).trans (rfl)

theorem arg2_3 : W3 m ρ c (Proc.devRef .tc main_arg2) = (m ((c : Thread nD τ).loc main_arg2)) :=
  (((by keepH : W3 m ρ c (Proc.devRef .tc main_arg2) = W2 m ρ c (Proc.devRef .tc main_arg2)).trans (by keepH : W2 m ρ c (Proc.devRef .tc main_arg2) = W1 m ρ c (Proc.devRef .tc main_arg2))).trans (by keepH : W1 m ρ c (Proc.devRef .tc main_arg2) = W0 m ρ c (Proc.devRef .tc main_arg2))).trans (rfl)

/-! ## The first region: the embedding layer -/

theorem emb_4 : W4 m ρ c (Proc.devRef .tc main_v34) = val_main_v36 (m ((c : Thread nD τ).loc main_arg0)) (m ((c : Thread nD τ).loc main_arg3)) (m ((c : Thread nD τ).loc main_arg4)) := by
  refine (W4_arr m ρ c 3).trans ((Cert.KernelIdeal.Arr0.arr (V3 m ρ) c).trans ?_)
  show lin (W3 m ρ c (Proc.devRef .tc main_arg0)) (W3 m ρ c (Proc.devRef .tc main_v32)) (W3 m ρ c (Proc.devRef .tc main_v33)) = _
  rw [arg0_3, pre_wemb, pre_bemb]
  exact (Cert.ReferenceIdeal.Layer.lin_bias _ _ _).symm

/-! ## The zero row, the first layer's weight, and the second region: the first layer's linear map -/

theorem z_5 : W5 m ρ c (Proc.devRef .tc main_v35) = zeroRow 128 := by
  show StableHlo.after hostOps1 (W4 m ρ c) (Proc.devRef .tc main_v35) = _
  after_results
  exact Cert.KernelIdeal.Tail.zero_row

theorem arg5_4 : W4 m ρ c (Proc.devRef .tc main_arg5) = (m ((c : Thread nD τ).loc main_arg5)) :=
  (W4_of_ne m ρ c main_arg5 (by decide)).trans (arg5_3 m ρ c)

theorem Wt_5 : W5 m ρ c (Proc.devRef .tc main_v38) = val_main_v39 (m ((c : Thread nD τ).loc main_arg5)) := by
  show StableHlo.after hostOps1 (W4 m ρ c) (Proc.devRef .tc main_v38) = _
  after_results
  rw [arg5_4]
  rfl

theorem H_5 : W5 m ρ c (Proc.devRef .tc main_v34) = val_main_v36 (m ((c : Thread nD τ).loc main_arg0)) (m ((c : Thread nD τ).loc main_arg3)) (m ((c : Thread nD τ).loc main_arg4)) :=
  (by keepH : W5 m ρ c (Proc.devRef .tc main_v34) = W4 m ρ c (Proc.devRef .tc main_v34)).trans (emb_4 m ρ c)

theorem T_6 : W6 m ρ c (Proc.devRef .tc main_v39) = val_main_v40 (m ((c : Thread nD τ).loc main_arg0)) (m ((c : Thread nD τ).loc main_arg3)) (m ((c : Thread nD τ).loc main_arg4)) (m ((c : Thread nD τ).loc main_arg5)) := by
  refine (W6_arr m ρ c 3).trans ((Cert.KernelIdeal.Arr1.arr (V5 m ρ) c).trans ?_)
  show lin (W5 m ρ c (Proc.devRef .tc main_v34)) (W5 m ρ c (Proc.devRef .tc main_v38)) (W5 m ρ c (Proc.devRef .tc main_v35)) = _
  rw [H_5, Wt_5, z_5]
  exact (Cert.ReferenceIdeal.Layer.lin_zero _ _).symm

theorem H_6 : W6 m ρ c (Proc.devRef .tc main_v34) = val_main_v36 (m ((c : Thread nD τ).loc main_arg0)) (m ((c : Thread nD τ).loc main_arg3)) (m ((c : Thread nD τ).loc main_arg4)) :=
  ((W6_arr m ρ c 0).trans (((dat1 (V5 m ρ) c).arrAt_in 0 rfl _).trans (A_eq1 (V5 m ρ) c 0))).trans (H_5 m ρ c)

theorem row_6 : W6 m ρ c (Proc.devRef .tc main_v3) = val_main_v3 (m ((c : Thread nD τ).loc main_arg1)) :=
  (((W6_of_ne m ρ c main_v3 (by decide)).trans (by keepH : W5 m ρ c (Proc.devRef .tc main_v3) = W4 m ρ c (Proc.devRef .tc main_v3))).trans (W4_of_ne m ρ c main_v3 (by decide))).trans (pre_row m ρ c)

theorem col_6 : W6 m ρ c (Proc.devRef .tc main_v6) = val_main_v6 (m ((c : Thread nD τ).loc main_arg1)) :=
  (((W6_of_ne m ρ c main_v6 (by decide)).trans (by keepH : W5 m ρ c (Proc.devRef .tc main_v6) = W4 m ρ c (Proc.devRef .tc main_v6))).trans (W4_of_ne m ρ c main_v6 (by decide))).trans (pre_col m ρ c)

theorem nrm_6 : W6 m ρ c (Proc.devRef .tc main_v31) = val_main_v31 (m ((c : Thread nD τ).loc main_arg1)) :=
  (((W6_of_ne m ρ c main_v31 (by decide)).trans (by keepH : W5 m ρ c (Proc.devRef .tc main_v31) = W4 m ρ c (Proc.devRef .tc main_v31))).trans (W4_of_ne m ρ c main_v31 (by decide))).trans (pre_norm m ρ c)

theorem z_6 : W6 m ρ c (Proc.devRef .tc main_v35) = zeroRow 128 :=
  ((W6_arr m ρ c 2).trans (((dat1 (V5 m ρ) c).arrAt_in 2 rfl _).trans (A_eq1 (V5 m ρ) c 2))).trans (z_5 m ρ c)

theorem arg5_6 : W6 m ρ c (Proc.devRef .tc main_arg5) = (m ((c : Thread nD τ).loc main_arg5)) :=
  ((W6_of_ne m ρ c main_arg5 (by decide)).trans (by keepH : W5 m ρ c (Proc.devRef .tc main_arg5) = W4 m ρ c (Proc.devRef .tc main_arg5))).trans (arg5_4 m ρ c)

theorem arg6_6 : W6 m ρ c (Proc.devRef .tc main_arg6) = (m ((c : Thread nD τ).loc main_arg6)) :=
  (((W6_of_ne m ρ c main_arg6 (by decide)).trans (by keepH : W5 m ρ c (Proc.devRef .tc main_arg6) = W4 m ρ c (Proc.devRef .tc main_arg6))).trans (W4_of_ne m ρ c main_arg6 (by decide))).trans (arg6_3 m ρ c)

theorem arg7_6 : W6 m ρ c (Proc.devRef .tc main_arg7) = (m ((c : Thread nD τ).loc main_arg7)) :=
  (((W6_of_ne m ρ c main_arg7 (by decide)).trans (by keepH : W5 m ρ c (Proc.devRef .tc main_arg7) = W4 m ρ c (Proc.devRef .tc main_arg7))).trans (W4_of_ne m ρ c main_arg7 (by decide))).trans (arg7_3 m ρ c)

theorem arg8_6 : W6 m ρ c (Proc.devRef .tc main_arg8) = (m ((c : Thread nD τ).loc main_arg8)) :=
  (((W6_of_ne m ρ c main_arg8 (by decide)).trans (by keepH : W5 m ρ c (Proc.devRef .tc main_arg8) = W4 m ρ c (Proc.devRef .tc main_arg8))).trans (W4_of_ne m ρ c main_arg8 (by decide))).trans (arg8_3 m ρ c)

end Cert.KernelIdeal.Chain

end
-- ==== Proof.KPayPost.lean ====
/-
  The normalisation kernel's stored block, index by index: with `z` the residual block, `μ` the row means (a lane
  sum divided by 128, kept as a column), `v` the row variances (the lane sum of the squared centred block divided by
  128), the block is `(z - μ) · rsqrt (v + ε) · g + β`, the three rows `b`, `g`, `β` broadcast down the rows.
-/
import proofs.«103784_j3092376453282_1_alg».proof.Proof.KPay

noncomputable section

namespace Cert.KernelIdeal.Pay

open Cert.KernelIdeal Cert.KernelIdeal.Gen Idealize.ShloMosaic Idealize.ShloMosaic.ValueIdx Cert.Gcn

/-- The row means of a block, as the kernel computes them into a column, at row p. -/
theorem mean_col (z : FVec Ideal S5000x128 .f32) (hφ : FKind.Formats .f32)
    (hacc : (0x00000000#32 : BitVec 32) = FKind.add.neutral .f32 hφ) (p : Fin 5000) :
    (divf (shapeCast S5000x1 (multiReduction .add [1] S5000 z 0x00000000#32 reduces_S5000x128_S5000 hφ hacc) shapeCasts_S5000_S5000x1)
        (broadcast S5000x1 (Scalar.ofBits .f32 0x43000000#32)) : FVec Ideal S5000x1 .f32) (ix2 p 0) = rowMean (n := 5000) z p := by
  show Ideal.div (shapeCast S5000x1 (multiReduction .add [1] S5000 z 0x00000000#32 reduces_S5000x128_S5000 hφ hacc) shapeCasts_S5000_S5000x1 (ix2 p 0))
      (Ideal.ofBits .f32 0x43000000#32) = _
  rw [col_cast, lane_sum]
  rfl

/-- The residual block as the kernel computes it. -/
theorem resid_blk (v0 v2 : Vec Ideal S5000x128 .f32) (v4 : Vec Ideal S1x128 .f32) :
    (addf (shapeCast S5000x128 v0 shapeCasts_S5000x128_S5000x128)
      (maximumf (addf (shapeCast S5000x128 v2 shapeCasts_S5000x128_S5000x128)
          (broadcastTo S5000x128 (shapeCast S1x128 v4 shapeCasts_S1x128_S1x128) broadcasts_S1x128_S5000x128))
        (broadcast S5000x128 (Scalar.ofBits .f32 0x00000000#32))) : FVec Ideal S5000x128 .f32) = resid (n := 5000) (d := 128) v0 v2 v4 := by
  funext i
  obtain ⟨p, q, rfl⟩ : ∃ (p : Fin 5000) (q : Fin 128), i = ix2 p q := ⟨i 0, i 1, eq_ix2 i⟩
  rw [shapeCast_self, shapeCast_self, shapeCast_self]
  show v0 (ix2 p q) + max (v2 (ix2 p q) + broadcastTo S5000x128 v4 broadcasts_S1x128_S5000x128 (ix2 p q)) (Ideal.ofBits .f32 0x00000000#32) = _
  rw [row_bcast]
  rfl

/-- The normalised block from the residual block `z`, as the kernel computes it, is the row normalisation of `z`. -/
theorem norm_blk (z : FVec Ideal S5000x128 .f32) (v29 v33 : Vec Ideal S1x128 .f32) (hφ : FKind.Formats .f32)
    (hacc : (0x00000000#32 : BitVec 32) = FKind.add.neutral .f32 hφ) (p : Fin 5000) (q : Fin 128) :
    (addf (mulf (mulf
        (subf z (broadcastTo S5000x128 (divf (shapeCast S5000x1 (multiReduction .add [1] S5000 z 0x00000000#32 reduces_S5000x128_S5000 hφ hacc) shapeCasts_S5000_S5000x1)
            (broadcast S5000x1 (Scalar.ofBits .f32 0x43000000#32))) broadcasts_S5000x1_S5000x128))
        (broadcastTo S5000x128 (rsqrt (addf
            (divf (shapeCast S5000x1 (multiReduction .add [1] S5000
                (mulf
                  (subf z (broadcastTo S5000x128 (divf (shapeCast S5000x1 (multiReduction .add [1] S5000 z 0x00000000#32 reduces_S5000x128_S5000 hφ hacc) shapeCasts_S5000_S5000x1)
                    (broadcast S5000x1 (Scalar.ofBits .f32 0x43000000#32))) broadcasts_S5000x1_S5000x128))
                  (subf z (broadcastTo S5000x128 (divf (shapeCast S5000x1 (multiReduction .add [1] S5000 z 0x00000000#32 reduces_S5000x128_S5000 hφ hacc) shapeCasts_S5000_S5000x1)
                    (broadcast S5000x1 (Scalar.ofBits .f32 0x43000000#32))) broadcasts_S5000x1_S5000x128)))
                0x00000000#32 reduces_S5000x128_S5000 hφ hacc) shapeCasts_S5000_S5000x1)
              (broadcast S5000x1 (Scalar.ofBits .f32 0x43000000#32)))
            (broadcast S5000x1 (Scalar.ofBits .f32 0x3727C5AC#32)))) broadcasts_S5000x1_S5000x128))
        (broadcastTo S5000x128 (shapeCast S1x128 v29 shapeCasts_S1x128_S1x128) broadcasts_S1x128_S5000x128))
        (broadcastTo S5000x128 (shapeCast S1x128 v33 shapeCasts_S1x128_S1x128) broadcasts_S1x128_S5000x128) : FVec Ideal S5000x128 .f32) (ix2 p q)
      = layerNorm (n := 5000) z v29 v33 (ix2 p q) := by
  -- the centred block, at any entry of row p
  have hc : ∀ k : Fin 128, (subf z (broadcastTo S5000x128 (divf (shapeCast S5000x1 (multiReduction .add [1] S5000 z 0x00000000#32 reduces_S5000x128_S5000 hφ hacc) shapeCasts_S5000_S5000x1)
            (broadcast S5000x1 (Scalar.ofBits .f32 0x43000000#32))) broadcasts_S5000x1_S5000x128) : FVec Ideal S5000x128 .f32) (ix2 p k) = centred (n := 5000) z (ix2 p k) := by
    intro k
    rw [subf_apply, col_bcast, mean_col]
    rfl
  rw [addf_apply, mulf_apply, mulf_apply, hc q, col_bcast, row_bcast, row_bcast, shapeCast_self, shapeCast_self]
  show centred z (ix2 p q) * Ideal.rsqrt ((divf (shapeCast S5000x1 (multiReduction .add [1] S5000 _ 0x00000000#32 reduces_S5000x128_S5000 hφ hacc) shapeCasts_S5000_S5000x1)
        (broadcast S5000x1 (Scalar.ofBits .f32 0x43000000#32)) : FVec Ideal S5000x1 .f32) (ix2 p 0) + Ideal.ofBits .f32 0x3727C5AC#32) * v29 (ix2 0 q) + v33 (ix2 0 q) = _
  rw [mean_col]
  unfold layerNorm
  show _ = centred z (ix2 p q) * Ideal.rsqrt (rowMean (fun i' => centred z i' * centred z i') p + _) * v29 (ix2 0 q) + v33 (ix2 0 q)
  refine congrArg (fun t => centred z (ix2 p q) * Ideal.rsqrt (t + Ideal.ofBits .f32 0x3727C5AC#32) * v29 (ix2 0 q) + v33 (ix2 0 q)) ?_
  refine rowMean_congr _ _ p p fun k => ?_
  rw [mulf_apply, hc k]

/-- The normalisation kernel's stored block is the block after the aggregation, of its loaded blocks. -/
theorem k2_post (v0 v2 : Vec Ideal S5000x128 .f32) (v4 v29 v33 : Vec Ideal S1x128 .f32) :
    k2_pay1 (F := Ideal) v0 v2 v4 v29 v33 = gcnPost (n := 5000) v0 v2 v4 v29 v33 := by
  funext i
  obtain ⟨p, q, rfl⟩ : ∃ (p : Fin 5000) (q : Fin 128), i = ix2 p q := ⟨i 0, i 1, eq_ix2 i⟩
  unfold k2_pay1 gcnPost
  dsimp only
  rw [resid_blk]
  exact norm_blk (resid v0 v2 v4) v29 v33 _ _ p q

theorem k4_post (v0 v2 : Vec Ideal S5000x128 .f32) (v4 v29 v33 : Vec Ideal S1x128 .f32) :
    k4_pay1 (F := Ideal) v0 v2 v4 v29 v33 = gcnPost (n := 5000) v0 v2 v4 v29 v33 := k2_post v0 v2 v4 v29 v33
theorem k6_post (v0 v2 : Vec Ideal S5000x128 .f32) (v4 v29 v33 : Vec Ideal S1x128 .f32) :
    k6_pay1 (F := Ideal) v0 v2 v4 v29 v33 = gcnPost (n := 5000) v0 v2 v4 v29 v33 := k2_post v0 v2 v4 v29 v33
theorem k8_post (v0 v2 : Vec Ideal S5000x128 .f32) (v4 v29 v33 : Vec Ideal S1x128 .f32) :
    k8_pay1 (F := Ideal) v0 v2 v4 v29 v33 = gcnPost (n := 5000) v0 v2 v4 v29 v33 := k2_post v0 v2 v4 v29 v33

end Cert.KernelIdeal.Pay

end
-- ==== Proof.KArr2.lean ====
/-
  The array region 2 leaves: the block after the aggregation (residual, rectifier, row normalisation) of the arrays
  the region finds. Point `t` of the grid stores rows 5000·t … 5000·t + 4999, computed from the same rows of the two
  row operands and the three whole rows, and the ten points' blocks cover the array.
-/
import proofs.«103784_j3092376453282_1_alg».proof.Proof.Gen.KernelIdeal.Frame
import proofs.«103784_j3092376453282_1_alg».proof.Proof.KPayPost

set_option maxRecDepth 16384

noncomputable section

namespace Cert.KernelIdeal.Arr2

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two row operands' blocks move with the output's, the three rows stay at
    block (0, 0), and the output's block row is below 10. -/
theorem idx_facts : ∀ t : Fin cfg2.N, win2_0.index t (0 : Fin 2) = win2_5.index t (0 : Fin 2)
    ∧ win2_0.index t (1 : Fin 2) = 0 ∧ win2_5.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 :=
  (by decide +kernel : ∀ t : Fin grid2.N, _)

/-- Every block row of the output is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- What point `t` writes back is block `t` of the normalised residual of the arrays. -/
theorem flushed_eq (c : Dev nD) (t : Fin cfg2.N) :
    (dat2 (F := Ideal) V c).flushed 5 t
      = ((cfg2.win 5).blk t).view.read (Elt Ideal) (gcnPost (n := 50000) (V c main_v34) (V c main_v52) (V c main_v55) (V c main_v58) (V c main_v61)) := by
  show (cfg2.win 5).cut (grid2.coords t) ((dat2 V c).after 5 t) = _
  rw [after2_5]
  unfold out2_5
  rw [View.canon_unit_zero origin]
  simp only [View.ld_unit_zero (S := S5000x128) origin, View.ld_unit_zero (S := S1x128) origin]
  rw [Cert.KernelIdeal.Pay.k2_post]
  obtain ⟨e0, e1, e2, e3, e4, e5, e6, e7, e8, e9, e10, e11⟩ := idx_facts t
  have hb : (iblk2 V c 2 t : S1x128.Idx → EReal) = V c main_v55 := by
    funext y
    show V c main_v55 (((cfg2.win 2).blk t).view.emb y) = V c main_v55 y
    refine congrArg (V c main_v55) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  have hg : (iblk2 V c 3 t : S1x128.Idx → EReal) = V c main_v58 := by
    funext y
    show V c main_v58 (((cfg2.win 3).blk t).view.emb y) = V c main_v58 y
    refine congrArg (V c main_v58) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  have hbe : (iblk2 V c 4 t : S1x128.Idx → EReal) = V c main_v61 := by
    funext y
    show V c main_v61 (((cfg2.win 4).blk t).view.emb y) = V c main_v61 y
    refine congrArg (V c main_v61) (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  rw [hb, hg, hbe]
  funext j
  obtain ⟨p, q, rfl⟩ : ∃ (p : Fin 5000) (q : Fin 128), j = ix2 p q := ⟨j 0, j 1, eq_ix2 j⟩
  have hr : win2_5.index t (0 : Fin 2) * 5000 + p.val < 50000 := by have := p.isLt; omega
  have hemb : ((cfg2.win 5).blk t).view.emb (ix2 p q) = ix2 (⟨win2_5.index t (0 : Fin 2) * 5000 + p.val, hr⟩ : Fin 50000) q := by
    funext a; apply Fin.ext
    match a with
    | ⟨0, _⟩ => show win2_5.index t (0 : Fin 2) * 5000 + 1 * p.val = win2_5.index t (0 : Fin 2) * 5000 + p.val; omega
    | ⟨1, _⟩ => show win2_5.index t (1 : Fin 2) * 128 + 1 * q.val = q.val; omega
  show gcnPost (iblk2 V c 0 t) (iblk2 V c 1 t) (V c main_v55) (V c main_v58) (V c main_v61) (ix2 p q)
    = gcnPost (V c main_v34) (V c main_v52) (V c main_v55) (V c main_v58) (V c main_v61) (((cfg2.win 5).blk t).view.emb (ix2 p q))
  rw [hemb]
  refine gcnPost_congr (iblk2 V c 0 t) (iblk2 V c 1 t) (V c main_v34) (V c main_v52) (V c main_v55) (V c main_v58) (V c main_v61) p _ (fun k => ?_) (fun k => ?_) q
  · show V c main_v34 (((cfg2.win 0).blk t).view.emb (ix2 p k)) = V c main_v34 (ix2 _ k)
    refine congrArg (V c main_v34) (funext fun a => Fin.ext ?_)
    match a with
    | ⟨0, _⟩ => show win2_0.index t (0 : Fin 2) * 5000 + 1 * p.val = win2_5.index t (0 : Fin 2) * 5000 + p.val; omega
    | ⟨1, _⟩ => show win2_0.index t (1 : Fin 2) * 128 + 1 * k.val = k.val; omega
  · show V c main_v52 (((cfg2.win 1).blk t).view.emb (ix2 p k)) = V c main_v52 (ix2 _ k)
    refine congrArg (V c main_v52) (funext fun a => Fin.ext ?_)
    match a with
    | ⟨0, _⟩ => show win2_1.index t (0 : Fin 2) * 5000 + 1 * p.val = win2_5.index t (0 : Fin 2) * 5000 + p.val; omega
    | ⟨1, _⟩ => show win2_1.index t (1 : Fin 2) * 128 + 1 * k.val = k.val; omega

/-- An index of the array is in point `t`'s block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v62).slice (win2_5.rect t)).set ↔ _
  rw [View.set_slice_whole, Rect.mem_set_unit]
  exact Iff.rfl

/-- The ten blocks cover the array. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The array after region 2: the normalised residual of the arrays the region finds. -/
theorem arr (c : Dev nD) :
    (dat2 (F := Ideal) V c).arrAt 5 cfg2.N = gcnPost (n := 50000) (V c main_v34) (V c main_v52) (V c main_v55) (V c main_v58) (V c main_v61) :=
  (dat2 (F := Ideal) V c).arrAt_eq_of_cover 5 _ (fun t _ => flushed_eq V c t) (cover)

end Cert.KernelIdeal.Arr2

end
-- ==== Proof.KArr3.lean ====
/-
  The array region 3 leaves: a linear layer of the arrays the region finds. Point `t` of the grid stores rows
  5000·t … 5000·t + 4999, computed from the same rows of the row operand, the whole weight and the whole bias row,
  and the ten points' blocks cover the array.
-/
import proofs.«103784_j3092376453282_1_alg».proof.Proof.Gen.KernelIdeal.Frame
import proofs.«103784_j3092376453282_1_alg».proof.Proof.KPay

set_option maxRecDepth 16384

noncomputable section

namespace Cert.KernelIdeal.Arr3

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row operand's block moves with the output's, the weight and the bias row
    stay at block (0, 0), and the output's block row is below 10. -/
theorem idx_facts : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 9 :=
  (by decide +kernel : ∀ t : Fin grid3.N, _)

/-- Every block row of the output is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

/-- What point `t` writes back is block `t` of the linear layer of the arrays. -/
theorem flushed_eq (c : Dev nD) (t : Fin cfg3.N) :
    (dat3 (F := Ideal) V c).flushed 3 t
      = ((cfg3.win 3).blk t).view.read (Elt Ideal) (lin (n := 50000) (K := 128) (d := 128) (V c main_v62) (V c main_v65) (V c main_v35)) := by
  show (cfg3.win 3).cut (grid3.coords t) ((dat3 V c).after 3 t) = _
  rw [after3_3]
  unfold out3_3
  rw [View.canon_unit_zero origin]
  simp only [View.ld_unit_zero (S := S5000x128) origin, View.ld_unit_zero (S := S128x128) origin, View.ld_unit_zero (S := S1x128) origin]
  rw [Cert.KernelIdeal.Pay.k3_lin]
  obtain ⟨e0, e1, e2, e3, e4, e5, e6, e7⟩ := idx_facts t
  have hw : (iblk3 V c 1 t : S128x128.Idx → EReal) = V c main_v65 := by
    funext y
    show V c main_v65 (((cfg3.win 1).blk t).view.emb y) = V c main_v65 y
    refine congrArg (V c main_v65) (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  have hb : (iblk3 V c 2 t : S1x128.Idx → EReal) = V c main_v35 := by
    funext y
    show V c main_v35 (((cfg3.win 2).blk t).view.emb y) = V c main_v35 y
    refine congrArg (V c main_v35) (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  rw [hw, hb]
  funext j
  obtain ⟨p, q, rfl⟩ : ∃ (p : Fin 5000) (q : Fin 128), j = ix2 p q := ⟨j 0, j 1, eq_ix2 j⟩
  have hr : win3_3.index t (0 : Fin 2) * 5000 + p.val < 50000 := by have := p.isLt; omega
  have hemb : ((cfg3.win 3).blk t).view.emb (ix2 p q) = ix2 (⟨win3_3.index t (0 : Fin 2) * 5000 + p.val, hr⟩ : Fin 50000) q := by
    funext a; apply Fin.ext
    match a with
    | ⟨0, _⟩ => show win3_3.index t (0 : Fin 2) * 5000 + 1 * p.val = win3_3.index t (0 : Fin 2) * 5000 + p.val; omega
    | ⟨1, _⟩ => show win3_3.index t (1 : Fin 2) * 128 + 1 * q.val = q.val; omega
  show lin (iblk3 V c 0 t) (V c main_v65) (V c main_v35) (ix2 p q) = lin (V c main_v62) (V c main_v65) (V c main_v35) (((cfg3.win 3).blk t).view.emb (ix2 p q))
  rw [hemb]
  refine lin_congr (iblk3 V c 0 t) (V c main_v62) (V c main_v65) (V c main_v35) p _ q (fun k => ?_)
  show V c main_v62 (((cfg3.win 0).blk t).view.emb (ix2 p k)) = V c main_v62 (ix2 _ k)
  refine congrArg (V c main_v62) (funext fun a => Fin.ext ?_)
  match a with
  | ⟨0, _⟩ => show win3_0.index t (0 : Fin 2) * 5000 + 1 * p.val = win3_3.index t (0 : Fin 2) * 5000 + p.val; omega
  | ⟨1, _⟩ => show win3_0.index t (1 : Fin 2) * 128 + 1 * k.val = k.val; omega

/-- An index of the array is in point `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v66).slice (win3_3.rect t)).set ↔ _
  rw [View.set_slice_whole, Rect.mem_set_unit]
  exact Iff.rfl

/-- The ten blocks cover the array. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The array after region 3: the linear layer of the arrays the region finds. -/
theorem arr (c : Dev nD) :
    (dat3 (F := Ideal) V c).arrAt 3 cfg3.N = lin (n := 50000) (K := 128) (d := 128) (V c main_v62) (V c main_v65) (V c main_v35) :=
  (dat3 (F := Ideal) V c).arrAt_eq_of_cover 3 _ (fun t _ => flushed_eq V c t) (cover)

end Cert.KernelIdeal.Arr3

end
-- ==== Proof.KChainL1.lean ====
/-
  The fold of the kernel program's segments read through layer 1: the gather, the scaling by the edge
  normalisation and the scatter-add are the same host operations as the reference's stages, the normalisation region
  leaves the reference's normalised residual, and the next linear region the reference's next product.
-/
import proofs.«103784_j3092376453282_1_alg».proof.Proof.KChain0
import proofs.«103784_j3092376453282_1_alg».proof.Proof.KArr2
import proofs.«103784_j3092376453282_1_alg».proof.Proof.KArr3
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx Cert.Gcn
open Idealize.SL.Sem Idealize.ShloMosaic.StableHlo
open Cert.ReferenceIdeal.ReadP

variable (m : (ℓ : Loc nD τ sig) → Buf (Elt Ideal) ℓ) (ρ : Dev nD → PrngReg) (c : Dev nD)

/-! ## Layer 1: the aggregation on the host, the normalisation region, the next weight, the next linear region -/

set_option maxHeartbeats 8000000 in
set_option maxRecDepth 100000 in
theorem agg_7 : W7 m ρ c (Proc.devRef .tc main_v52) = val_main_v53 (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W6 m ρ c) (Proc.devRef .tc main_v52) = _
  after_results
  rw [T_6, row_6, col_6, nrm_6]
  rfl

set_option maxHeartbeats 8000000 in
set_option maxRecDepth 100000 in
theorem b_7 : W7 m ρ c (Proc.devRef .tc main_v55) = rowOf (val_main_v55 (m ((c : Thread nD τ).loc main_arg6))) := by
  show StableHlo.after hostOps2 (W6 m ρ c) (Proc.devRef .tc main_v55) = _
  after_results
  rw [arg6_6]
  exact Cert.KernelIdeal.Tail.row_cast _

set_option maxHeartbeats 8000000 in
set_option maxRecDepth 100000 in
theorem g_7 : W7 m ρ c (Proc.devRef .tc main_v58) = rowOf (val_main_v62 (m ((c : Thread nD τ).loc main_arg7))) := by
  show StableHlo.after hostOps2 (W6 m ρ c) (Proc.devRef .tc main_v58) = _
  after_results
  rw [arg7_6]
  exact Cert.KernelIdeal.Tail.row_cast _

set_option maxHeartbeats 8000000 in
set_option maxRecDepth 100000 in
theorem be_7 : W7 m ρ c (Proc.devRef .tc main_v61) = rowOf (val_main_v64 (m ((c : Thread nD τ).loc main_arg8))) := by
  show StableHlo.after hostOps2 (W6 m ρ c) (Proc.devRef .tc main_v61) = _
  after_results
  rw [arg8_6]
  exact Cert.KernelIdeal.Tail.row_cast _

theorem H_7 : W7 m ρ c (Proc.devRef .tc main_v34) = val_main_v36 (m ((c : Thread nD τ).loc main_arg0)) (m ((c : Thread nD τ).loc main_arg3)) (m ((c : Thread nD τ).loc main_arg4)) :=
  (by keepH : W7 m ρ c (Proc.devRef .tc main_v34) = W6 m ρ c (Proc.devRef .tc main_v34)).trans (H_6 m ρ c)

theorem H_8 : W8 m ρ c (Proc.devRef .tc main_v62) = val_main_v88 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 5).trans ((Cert.KernelIdeal.Arr2.arr (V7 m ρ) c).trans ?_)
  show gcnPost (W7 m ρ c (Proc.devRef .tc main_v34)) (W7 m ρ c (Proc.devRef .tc main_v52)) (W7 m ρ c (Proc.devRef .tc main_v55)) (W7 m ρ c (Proc.devRef .tc main_v58)) (W7 m ρ c (Proc.devRef .tc main_v61)) = _
  rw [H_7, agg_7, b_7, g_7, be_7]
  exact (Cert.ReferenceIdeal.Layer.post_eq _ _ _ _ _).symm

theorem arg5_8 : W8 m ρ c (Proc.devRef .tc main_arg5) = (m ((c : Thread nD τ).loc main_arg5)) :=
  ((W8_of_ne m ρ c main_arg5 (by decide)).trans (by keepH : W7 m ρ c (Proc.devRef .tc main_arg5) = W6 m ρ c (Proc.devRef .tc main_arg5))).trans (arg5_6 m ρ c)

set_option maxHeartbeats 8000000 in
set_option maxRecDepth 100000 in
theorem Wt_9 : W9 m ρ c (Proc.devRef .tc main_v65) = val_main_v91 (m ((c : Thread nD τ).loc main_arg5)) := by
  show StableHlo.after hostOps3 (W8 m ρ c) (Proc.devRef .tc main_v65) = _
  after_results
  rw [arg5_8]
  rfl

theorem H_9 : W9 m ρ c (Proc.devRef .tc main_v62) = val_main_v88 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (by keepH : W9 m ρ c (Proc.devRef .tc main_v62) = W8 m ρ c (Proc.devRef .tc main_v62)).trans (H_8 m ρ c)

theorem z_9 : W9 m ρ c (Proc.devRef .tc main_v35) = zeroRow 128 :=
  (((by keepH : W9 m ρ c (Proc.devRef .tc main_v35) = W8 m ρ c (Proc.devRef .tc main_v35)).trans (W8_of_ne m ρ c main_v35 (by decide))).trans (by keepH : W7 m ρ c (Proc.devRef .tc main_v35) = W6 m ρ c (Proc.devRef .tc main_v35))).trans (z_6 m ρ c)

theorem T_10 : W10 m ρ c (Proc.devRef .tc main_v66) = val_main_v92 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 3).trans ((Cert.KernelIdeal.Arr3.arr (V9 m ρ) c).trans ?_)
  show lin (W9 m ρ c (Proc.devRef .tc main_v62)) (W9 m ρ c (Proc.devRef .tc main_v65)) (W9 m ρ c (Proc.devRef .tc main_v35)) = _
  rw [H_9, Wt_9, z_9]
  exact (Cert.ReferenceIdeal.Layer.lin_zero _ _).symm

theorem H_10 : W10 m ρ c (Proc.devRef .tc main_v62) = val_main_v88 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((W10_arr m ρ c 0).trans (((dat3 (V9 m ρ) c).arrAt_in 0 rfl _).trans (A_eq3 (V9 m ρ) c 0))).trans (H_9 m ρ c)

theorem row_10 : W10 m ρ c (Proc.devRef .tc main_v3) = val_main_v3 (m ((c : Thread nD τ).loc main_arg1)) :=
  ((((W10_of_ne m ρ c main_v3 (by decide)).trans (by keepH : W9 m ρ c (Proc.devRef .tc main_v3) = W8 m ρ c (Proc.devRef .tc main_v3))).trans (W8_of_ne m ρ c main_v3 (by decide))).trans (by keepH : W7 m ρ c (Proc.devRef .tc main_v3) = W6 m ρ c (Proc.devRef .tc main_v3))).trans (row_6 m ρ c)

theorem col_10 : W10 m ρ c (Proc.devRef .tc main_v6) = val_main_v6 (m ((c : Thread nD τ).loc main_arg1)) :=
  ((((W10_of_ne m ρ c main_v6 (by decide)).trans (by keepH : W9 m ρ c (Proc.devRef .tc main_v6) = W8 m ρ c (Proc.devRef .tc main_v6))).trans (W8_of_ne m ρ c main_v6 (by decide))).trans (by keepH : W7 m ρ c (Proc.devRef .tc main_v6) = W6 m ρ c (Proc.devRef .tc main_v6))).trans (col_6 m ρ c)

theorem nrm_10 : W10 m ρ c (Proc.devRef .tc main_v31) = val_main_v31 (m ((c : Thread nD τ).loc main_arg1)) :=
  ((((W10_of_ne m ρ c main_v31 (by decide)).trans (by keepH : W9 m ρ c (Proc.devRef .tc main_v31) = W8 m ρ c (Proc.devRef .tc main_v31))).trans (W8_of_ne m ρ c main_v31 (by decide))).trans (by keepH : W7 m ρ c (Proc.devRef .tc main_v31) = W6 m ρ c (Proc.devRef .tc main_v31))).trans (nrm_6 m ρ c)

theorem z_10 : W10 m ρ c (Proc.devRef .tc main_v35) = zeroRow 128 :=
  ((W10_arr m ρ c 2).trans (((dat3 (V9 m ρ) c).arrAt_in 2 rfl _).trans (A_eq3 (V9 m ρ) c 2))).trans (z_9 m ρ c)

theorem arg5_10 : W10 m ρ c (Proc.devRef .tc main_arg5) = (m ((c : Thread nD τ).loc main_arg5)) :=
  ((W10_of_ne m ρ c main_arg5 (by decide)).trans (by keepH : W9 m ρ c (Proc.devRef .tc main_arg5) = W8 m ρ c (Proc.devRef .tc main_arg5))).trans (arg5_8 m ρ c)

theorem arg6_10 : W10 m ρ c (Proc.devRef .tc main_arg6) = (m ((c : Thread nD τ).loc main_arg6)) :=
  ((((W10_of_ne m ρ c main_arg6 (by decide)).trans (by keepH : W9 m ρ c (Proc.devRef .tc main_arg6) = W8 m ρ c (Proc.devRef .tc main_arg6))).trans (W8_of_ne m ρ c main_arg6 (by decide))).trans (by keepH : W7 m ρ c (Proc.devRef .tc main_arg6) = W6 m ρ c (Proc.devRef .tc main_arg6))).trans (arg6_6 m ρ c)

theorem arg7_10 : W10 m ρ c (Proc.devRef .tc main_arg7) = (m ((c : Thread nD τ).loc main_arg7)) :=
  ((((W10_of_ne m ρ c main_arg7 (by decide)).trans (by keepH : W9 m ρ c (Proc.devRef .tc main_arg7) = W8 m ρ c (Proc.devRef .tc main_arg7))).trans (W8_of_ne m ρ c main_arg7 (by decide))).trans (by keepH : W7 m ρ c (Proc.devRef .tc main_arg7) = W6 m ρ c (Proc.devRef .tc main_arg7))).trans (arg7_6 m ρ c)

theorem arg8_10 : W10 m ρ c (Proc.devRef .tc main_arg8) = (m ((c : Thread nD τ).loc main_arg8)) :=
  ((((W10_of_ne m ρ c main_arg8 (by decide)).trans (by keepH : W9 m ρ c (Proc.devRef .tc main_arg8) = W8 m ρ c (Proc.devRef .tc main_arg8))).trans (W8_of_ne m ρ c main_arg8 (by decide))).trans (by keepH : W7 m ρ c (Proc.devRef .tc main_arg8) = W6 m ρ c (Proc.devRef .tc main_arg8))).trans (arg8_6 m ρ c)

end Cert.KernelIdeal.Chain

end
-- ==== Proof.KArr4.lean ====
/-
  The array region 4 leaves: the block after the aggregation (residual, rectifier, row normalisation) of the arrays
  the region finds. Point `t` of the grid stores rows 5000·t … 5000·t + 4999, computed from the same rows of the two
  row operands and the three whole rows, and the ten points' blocks cover the array.
-/
import proofs.«103784_j3092376453282_1_alg».proof.Proof.Gen.KernelIdeal.Frame
import proofs.«103784_j3092376453282_1_alg».proof.Proof.KPayPost

set_option maxRecDepth 16384

noncomputable section

namespace Cert.KernelIdeal.Arr4

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two row operands' blocks move with the output's, the three rows stay at
    block (0, 0), and the output's block row is below 10. -/
theorem idx_facts : ∀ t : Fin cfg4.N, win4_0.index t (0 : Fin 2) = win4_5.index t (0 : Fin 2)
    ∧ win4_0.index t (1 : Fin 2) = 0 ∧ win4_5.index t (1 : Fin 2) = 0
    ∧ win4_1.index t (0 : Fin 2) = win4_5.index t (0 : Fin 2) ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) ≤ 9 :=
  (by decide +kernel : ∀ t : Fin grid4.N, _)

/-- Every block row of the output is some point's. -/
theorem idx_onto : ∀ q0 : Fin 10, ∃ t : Fin cfg4.N, win4_5.index t = ![q0.val, 0] :=
  (by decide +kernel : ∀ q0 : Fin 10, ∃ t : Fin grid4.N, win4_5.index t = ![q0.val, 0])

/-- What point `t` writes back is block `t` of the normalised residual of the arrays. -/
theorem flushed_eq (c : Dev nD) (t : Fin cfg4.N) :
    (dat4 (F := Ideal) V c).flushed 5 t
      = ((cfg4.win 5).blk t).view.read (Elt Ideal) (gcnPost (n := 50000) (V c main_v62) (V c main_v79) (V c main_v82) (V c main_v85) (V c main_v88)) := by
  show (cfg4.win 5).cut (grid4.coords t) ((dat4 V c).after 5 t) = _
  rw [after4_5]
  unfold out4_5
  rw [View.canon_unit_zero origin]
  simp only [View.ld_unit_zero (S := S5000x128) origin, View.ld_unit_zero (S := S1x128) origin]
  rw [Cert.KernelIdeal.Pay.k4_post]
  obtain ⟨e0, e1, e2, e3, e4, e5, e6, e7, e8, e9, e10, e11⟩ := idx_facts t
  have hb : (iblk4 V c 2 t : S1x128.Idx → EReal) = V c main_v82 := by
    funext y
    show V c main_v82 (((cfg4.win 2).blk t).view.emb y) = V c main_v82 y
    refine congrArg (V c main_v82) (funext fun a => Fin.ext ?_)
    match a with
    | ⟨0, _⟩ => show win4_2.index t (0 : Fin 2) * 1 + 1 * (y 0).val = (y 0).val; omega
    | ⟨1, _⟩ => show win4_2.index t (1 : Fin 2) * 128 + 1 * (y 1).val = (y 1).val; omega
  have hg : (iblk4 V c 3 t : S1x128.Idx → EReal) = V c main_v85 := by
    funext y
    show V c main_v85 (((cfg4.win 3).blk t).view.emb y) = V c main_v85 y
    refine congrArg (V c main_v85) (funext fun a => Fin.ext ?_)
    match a with
    | ⟨0, _⟩ => show win4_3.index t (0 : Fin 2) * 1 + 1 * (y 0).val = (y 0).val; omega
    | ⟨1, _⟩ => show win4_3.index t (1 : Fin 2) * 128 + 1 * (y 1).val = (y 1).val; omega
  have hbe : (iblk4 V c 4 t : S1x128.Idx → EReal) = V c main_v88 := by
    funext y
    show V c main_v88 (((cfg4.win 4).blk t).view.emb y) = V c main_v88 y
    refine congrArg (V c main_v88) (funext fun a => Fin.ext ?_)
    match a with
    | ⟨0, _⟩ => show win4_4.index t (0 : Fin 2) * 1 + 1 * (y 0).val = (y 0).val; omega
    | ⟨1, _⟩ => show win4_4.index t (1 : Fin 2) * 128 + 1 * (y 1).val = (y 1).val; omega
  rw [hb, hg, hbe]
  funext j
  obtain ⟨p, q, rfl⟩ : ∃ (p : Fin 5000) (q : Fin 128), j = ix2 p q := ⟨j 0, j 1, eq_ix2 j⟩
  have hr : win4_5.index t (0 : Fin 2) * 5000 + p.val < 50000 := by have := p.isLt; omega
  have hemb : ((cfg4.win 5).blk t).view.emb (ix2 p q) = ix2 (⟨win4_5.index t (0 : Fin 2) * 5000 + p.val, hr⟩ : Fin 50000) q := by
    funext a; apply Fin.ext
    match a with
    | ⟨0, _⟩ => show win4_5.index t (0 : Fin 2) * 5000 + 1 * p.val = win4_5.index t (0 : Fin 2) * 5000 + p.val; omega
    | ⟨1, _⟩ => show win4_5.index t (1 : Fin 2) * 128 + 1 * q.val = q.val; omega
  show gcnPost (iblk4 V c 0 t) (iblk4 V c 1 t) (V c main_v82) (V c main_v85) (V c main_v88) (ix2 p q)
    = gcnPost (V c main_v62) (V c main_v79) (V c main_v82) (V c main_v85) (V c main_v88) (((cfg4.win 5).blk t).view.emb (ix2 p q))
  rw [hemb]
  refine gcnPost_congr (iblk4 V c 0 t) (iblk4 V c 1 t) (V c main_v62) (V c main_v79) (V c main_v82) (V c main_v85) (V c main_v88) p _ (fun k => ?_) (fun k => ?_) q
  · show V c main_v62 (((cfg4.win 0).blk t).view.emb (ix2 p k)) = V c main_v62 (ix2 _ k)
    refine congrArg (V c main_v62) (funext fun a => Fin.ext ?_)
    match a with
    | ⟨0, _⟩ => show win4_0.index t (0 : Fin 2) * 5000 + 1 * p.val = win4_5.index t (0 : Fin 2) * 5000 + p.val; omega
    | ⟨1, _⟩ => show win4_0.index t (1 : Fin 2) * 128 + 1 * k.val = k.val; omega
  · show V c main_v79 (((cfg4.win 1).blk t).view.emb (ix2 p k)) = V c main_v79 (ix2 _ k)
    refine congrArg (V c main_v79) (funext fun a => Fin.ext ?_)
    match a with
    | ⟨0, _⟩ => show win4_1.index t (0 : Fin 2) * 5000 + 1 * p.val = win4_5.index t (0 : Fin 2) * 5000 + p.val; omega
    | ⟨1, _⟩ => show win4_1.index t (1 : Fin 2) * 128 + 1 * k.val = k.val; omega

/-- An index of the array is in point `t`'s block iff each coordinate is in the block's range on its axis. -/
theorem mem_blk (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v89).slice (win4_5.rect t)).set ↔ _
  rw [View.set_slice_whole, Rect.mem_set_unit]
  exact Iff.rfl

/-- The ten blocks cover the array. -/
theorem cover (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := idx_onto ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- The array after region 4: the normalised residual of the arrays the region finds. -/
theorem arr (c : Dev nD) :
    (dat4 (F := Ideal) V c).arrAt 5 cfg4.N = gcnPost (n := 50000) (V c main_v62) (V c main_v79) (V c main_v82) (V c main_v85) (V c main_v88) :=
  (dat4 (F := Ideal) V c).arrAt_eq_of_cover 5 _ (fun t _ => flushed_eq V c t) (cover)

end Cert.KernelIdeal.Arr4

end
-- ==== Proof.KArr5.lean ====
/-
  The array region 5 leaves: a linear layer of the arrays the region finds. Point `t` of the grid stores rows
  5000·t … 5000·t + 4999, computed from the same rows of the row operand, the whole weight and the whole bias row,
  and the ten points' blocks cover the array.
-/
import proofs.«103784_j3092376453282_1_alg».proof.Proof.Gen.KernelIdeal.Frame
import proofs.«103784_j3092376453282_1_alg».proof.Proof.KPay

set_option maxRecDepth 16384

noncomputable section

namespace Cert.KernelIdeal.Arr5

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row operand's block moves with the output's, the weight and the bias row
    stay at block (0, 0), and the output's block row is below 10. -/
theorem idx_facts : ∀ t : Fin cfg5.N, win5_0.index t (0 : Fin 2) = win5_3.index t (0 : Fin 2)
    ∧ win5_0.index t (1 : Fin 2) = 0 ∧ win5_3.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) ≤ 9 :=
  (by decide +kernel : ∀ t : Fin grid5.N, _)

/-- Every block row of the output is some point's. -/
theorem idx_onto : ∀ q0 : Fin 10, ∃ t : Fin cfg5.N, win5_3.index t = ![q0.val, 0] :=
  (by decide +kernel : ∀ q0 : Fin 10, ∃ t : Fin grid5.N, win5_3.index t = ![q0.val, 0])

/-- What point `t` writes back is block `t` of the linear layer of the arrays. -/
theorem flushed_eq (c : Dev nD) (t : Fin cfg5.N) :
    (dat5 (F := Ideal) V c).flushed 3 t
      = ((cfg5.win 3).blk t).view.read (Elt Ideal) (lin (n := 50000) (K := 128) (d := 128) (V c main_v89) (V c main_v92) (V c main_v35)) := by
  show (cfg5.win 3).cut (grid5.coords t) ((dat5 V c).after 3 t) = _
  rw [after5_3]
  unfold out5_3
  rw [View.canon_unit_zero origin]
  simp only [View.ld_unit_zero (S := S5000x128) origin, View.ld_unit_zero (S := S128x128) origin, View.ld_unit_zero (S := S1x128) origin]
  rw [Cert.KernelIdeal.Pay.k5_lin]
  obtain ⟨e0, e1, e2, e3, e4, e5, e6, e7⟩ := idx_facts t
  have hw : (iblk5 V c 1 t : S128x128.Idx → EReal) = V c main_v92 := by
    funext y
    show V c main_v92 (((cfg5.win 1).blk t).view.emb y) = V c main_v92 y
    refine congrArg (V c main_v92) (funext fun a => Fin.ext ?_)
    match a with
    | ⟨0, _⟩ => show win5_1.index t (0 : Fin 2) * 128 + 1 * (y 0).val = (y 0).val; omega
    | ⟨1, _⟩ => show win5_1.index t (1 : Fin 2) * 128 + 1 * (y 1).val = (y 1).val; omega
  have hb : (iblk5 V c 2 t : S1x128.Idx → EReal) = V c main_v35 := by
    funext y
    show V c main_v35 (((cfg5.win 2).blk t).view.emb y) = V c main_v35 y
    refine congrArg (V c main_v35) (funext fun a => Fin.ext ?_)
    match a with
    | ⟨0, _⟩ => show win5_2.index t (0 : Fin 2) * 1 + 1 * (y 0).val = (y 0).val; omega
    | ⟨1, _⟩ => show win5_2.index t (1 : Fin 2) * 128 + 1 * (y 1).val = (y 1).val; omega
  rw [hw, hb]
  funext j
  obtain ⟨p, q, rfl⟩ : ∃ (p : Fin 5000) (q : Fin 128), j = ix2 p q := ⟨j 0, j 1, eq_ix2 j⟩
  have hr : win5_3.index t (0 : Fin 2) * 5000 + p.val < 50000 := by have := p.isLt; omega
  have hemb : ((cfg5.win 3).blk t).view.emb (ix2 p q) = ix2 (⟨win5_3.index t (0 : Fin 2) * 5000 + p.val, hr⟩ : Fin 50000) q := by
    funext a; apply Fin.ext
    match a with
    | ⟨0, _⟩ => show win5_3.index t (0 : Fin 2) * 5000 + 1 * p.val = win5_3.index t (0 : Fin 2) * 5000 + p.val; omega
    | ⟨1, _⟩ => show win5_3.index t (1 : Fin 2) * 128 + 1 * q.val = q.val; omega
  show lin (iblk5 V c 0 t) (V c main_v92) (V c main_v35) (ix2 p q) = lin (V c main_v89) (V c main_v92) (V c main_v35) (((cfg5.win 3).blk t).view.emb (ix2 p q))
  rw [hemb]
  refine lin_congr (iblk5 V c 0 t) (V c main_v89) (V c main_v92) (V c main_v35) p _ q (fun k => ?_)
  show V c main_v89 (((cfg5.win 0).blk t).view.emb (ix2 p k)) = V c main_v89 (ix2 _ k)
  refine congrArg (V c main_v89) (funext fun a => Fin.ext ?_)
  match a with
  | ⟨0, _⟩ => show win5_0.index t (0 : Fin 2) * 5000 + 1 * p.val = win5_3.index t (0 : Fin 2) * 5000 + p.val; omega
  | ⟨1, _⟩ => show win5_0.index t (1 : Fin 2) * 128 + 1 * k.val = k.val; omega

/-- An index of the array is in point `t`'s block iff each coordinate is in the block's range on its axis. -/
theorem mem_blk (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v93).slice (win5_3.rect t)).set ↔ _
  rw [View.set_slice_whole, Rect.mem_set_unit]
  exact Iff.rfl

/-- The ten blocks cover the array. -/
theorem cover (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The array after region 5: the linear layer of the arrays the region finds. -/
theorem arr (c : Dev nD) :
    (dat5 (F := Ideal) V c).arrAt 3 cfg5.N = lin (n := 50000) (K := 128) (d := 128) (V c main_v89) (V c main_v92) (V c main_v35) :=
  (dat5 (F := Ideal) V c).arrAt_eq_of_cover 3 _ (fun t _ => flushed_eq V c t) (cover)

end Cert.KernelIdeal.Arr5

end
-- ==== Proof.KChainL2.lean ====
/-
  The fold of the kernel program's segments read through layer 2: the gather, the scaling by the edge
  normalisation and the scatter-add are the same host operations as the reference's stages, the normalisation region
  leaves the reference's normalised residual, and the next linear region the reference's next product.
-/
import proofs.«103784_j3092376453282_1_alg».proof.Proof.KChainL1
import proofs.«103784_j3092376453282_1_alg».proof.Proof.KArr4
import proofs.«103784_j3092376453282_1_alg».proof.Proof.KArr5
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx Cert.Gcn
open Idealize.SL.Sem Idealize.ShloMosaic.StableHlo
open Cert.ReferenceIdeal.ReadP

variable (m : (ℓ : Loc nD τ sig) → Buf (Elt Ideal) ℓ) (ρ : Dev nD → PrngReg) (c : Dev nD)

/-! ## Layer 2: the aggregation on the host, the normalisation region, the next weight, the next linear region -/

set_option maxHeartbeats 8000000 in
set_option maxRecDepth 100000 in
theorem agg_11 : W11 m ρ c (Proc.devRef .tc main_v79) = val_main_v105 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W10 m ρ c) (Proc.devRef .tc main_v79) = _
  after_results
  rw [T_10, row_10, col_10, nrm_10]
  rfl

set_option maxHeartbeats 8000000 in
set_option maxRecDepth 100000 in
theorem b_11 : W11 m ρ c (Proc.devRef .tc main_v82) = rowOf (val_main_v107 (m ((c : Thread nD τ).loc main_arg6))) := by
  show StableHlo.after hostOps4 (W10 m ρ c) (Proc.devRef .tc main_v82) = _
  after_results
  rw [arg6_10]
  exact Cert.KernelIdeal.Tail.row_cast _

set_option maxHeartbeats 8000000 in
set_option maxRecDepth 100000 in
theorem g_11 : W11 m ρ c (Proc.devRef .tc main_v85) = rowOf (val_main_v114 (m ((c : Thread nD τ).loc main_arg7))) := by
  show StableHlo.after hostOps4 (W10 m ρ c) (Proc.devRef .tc main_v85) = _
  after_results
  rw [arg7_10]
  exact Cert.KernelIdeal.Tail.row_cast _

set_option maxHeartbeats 8000000 in
set_option maxRecDepth 100000 in
theorem be_11 : W11 m ρ c (Proc.devRef .tc main_v88) = rowOf (val_main_v116 (m ((c : Thread nD τ).loc main_arg8))) := by
  show StableHlo.after hostOps4 (W10 m ρ c) (Proc.devRef .tc main_v88) = _
  after_results
  rw [arg8_10]
  exact Cert.KernelIdeal.Tail.row_cast _

theorem H_11 : W11 m ρ c (Proc.devRef .tc main_v62) = val_main_v88 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (by keepH : W11 m ρ c (Proc.devRef .tc main_v62) = W10 m ρ c (Proc.devRef .tc main_v62)).trans (H_10 m ρ c)

theorem H_12 : W12 m ρ c (Proc.devRef .tc main_v89) = val_main_v140 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 5).trans ((Cert.KernelIdeal.Arr4.arr (V11 m ρ) c).trans ?_)
  show gcnPost (W11 m ρ c (Proc.devRef .tc main_v62)) (W11 m ρ c (Proc.devRef .tc main_v79)) (W11 m ρ c (Proc.devRef .tc main_v82)) (W11 m ρ c (Proc.devRef .tc main_v85)) (W11 m ρ c (Proc.devRef .tc main_v88)) = _
  rw [H_11, agg_11, b_11, g_11, be_11]
  exact (Cert.ReferenceIdeal.Layer.post_eq _ _ _ _ _).symm

theorem arg5_12 : W12 m ρ c (Proc.devRef .tc main_arg5) = (m ((c : Thread nD τ).loc main_arg5)) :=
  ((W12_of_ne m ρ c main_arg5 (by decide)).trans (by keepH : W11 m ρ c (Proc.devRef .tc main_arg5) = W10 m ρ c (Proc.devRef .tc main_arg5))).trans (arg5_10 m ρ c)

set_option maxHeartbeats 8000000 in
set_option maxRecDepth 100000 in
theorem Wt_13 : W13 m ρ c (Proc.devRef .tc main_v92) = val_main_v143 (m ((c : Thread nD τ).loc main_arg5)) := by
  show StableHlo.after hostOps5 (W12 m ρ c) (Proc.devRef .tc main_v92) = _
  after_results
  rw [arg5_12]
  rfl

theorem H_13 : W13 m ρ c (Proc.devRef .tc main_v89) = val_main_v140 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (by keepH : W13 m ρ c (Proc.devRef .tc main_v89) = W12 m ρ c (Proc.devRef .tc main_v89)).trans (H_12 m ρ c)

theorem z_13 : W13 m ρ c (Proc.devRef .tc main_v35) = zeroRow 128 :=
  (((by keepH : W13 m ρ c (Proc.devRef .tc main_v35) = W12 m ρ c (Proc.devRef .tc main_v35)).trans (W12_of_ne m ρ c main_v35 (by decide))).trans (by keepH : W11 m ρ c (Proc.devRef .tc main_v35) = W10 m ρ c (Proc.devRef .tc main_v35))).trans (z_10 m ρ c)

theorem T_14 : W14 m ρ c (Proc.devRef .tc main_v93) = val_main_v144 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W14_arr m ρ c 3).trans ((Cert.KernelIdeal.Arr5.arr (V13 m ρ) c).trans ?_)
  show lin (W13 m ρ c (Proc.devRef .tc main_v89)) (W13 m ρ c (Proc.devRef .tc main_v92)) (W13 m ρ c (Proc.devRef .tc main_v35)) = _
  rw [H_13, Wt_13, z_13]
  exact (Cert.ReferenceIdeal.Layer.lin_zero _ _).symm

theorem H_14 : W14 m ρ c (Proc.devRef .tc main_v89) = val_main_v140 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((W14_arr m ρ c 0).trans (((dat5 (V13 m ρ) c).arrAt_in 0 rfl _).trans (A_eq5 (V13 m ρ) c 0))).trans (H_13 m ρ c)

theorem row_14 : W14 m ρ c (Proc.devRef .tc main_v3) = val_main_v3 (m ((c : Thread nD τ).loc main_arg1)) :=
  ((((W14_of_ne m ρ c main_v3 (by decide)).trans (by keepH : W13 m ρ c (Proc.devRef .tc main_v3) = W12 m ρ c (Proc.devRef .tc main_v3))).trans (W12_of_ne m ρ c main_v3 (by decide))).trans (by keepH : W11 m ρ c (Proc.devRef .tc main_v3) = W10 m ρ c (Proc.devRef .tc main_v3))).trans (row_10 m ρ c)

theorem col_14 : W14 m ρ c (Proc.devRef .tc main_v6) = val_main_v6 (m ((c : Thread nD τ).loc main_arg1)) :=
  ((((W14_of_ne m ρ c main_v6 (by decide)).trans (by keepH : W13 m ρ c (Proc.devRef .tc main_v6) = W12 m ρ c (Proc.devRef .tc main_v6))).trans (W12_of_ne m ρ c main_v6 (by decide))).trans (by keepH : W11 m ρ c (Proc.devRef .tc main_v6) = W10 m ρ c (Proc.devRef .tc main_v6))).trans (col_10 m ρ c)

theorem nrm_14 : W14 m ρ c (Proc.devRef .tc main_v31) = val_main_v31 (m ((c : Thread nD τ).loc main_arg1)) :=
  ((((W14_of_ne m ρ c main_v31 (by decide)).trans (by keepH : W13 m ρ c (Proc.devRef .tc main_v31) = W12 m ρ c (Proc.devRef .tc main_v31))).trans (W12_of_ne m ρ c main_v31 (by decide))).trans (by keepH : W11 m ρ c (Proc.devRef .tc main_v31) = W10 m ρ c (Proc.devRef .tc main_v31))).trans (nrm_10 m ρ c)

theorem z_14 : W14 m ρ c (Proc.devRef .tc main_v35) = zeroRow 128 :=
  ((W14_arr m ρ c 2).trans (((dat5 (V13 m ρ) c).arrAt_in 2 rfl _).trans (A_eq5 (V13 m ρ) c 2))).trans (z_13 m ρ c)

theorem arg5_14 : W14 m ρ c (Proc.devRef .tc main_arg5) = (m ((c : Thread nD τ).loc main_arg5)) :=
  ((W14_of_ne m ρ c main_arg5 (by decide)).trans (by keepH : W13 m ρ c (Proc.devRef .tc main_arg5) = W12 m ρ c (Proc.devRef .tc main_arg5))).trans (arg5_12 m ρ c)

theorem arg6_14 : W14 m ρ c (Proc.devRef .tc main_arg6) = (m ((c : Thread nD τ).loc main_arg6)) :=
  ((((W14_of_ne m ρ c main_arg6 (by decide)).trans (by keepH : W13 m ρ c (Proc.devRef .tc main_arg6) = W12 m ρ c (Proc.devRef .tc main_arg6))).trans (W12_of_ne m ρ c main_arg6 (by decide))).trans (by keepH : W11 m ρ c (Proc.devRef .tc main_arg6) = W10 m ρ c (Proc.devRef .tc main_arg6))).trans (arg6_10 m ρ c)

theorem arg7_14 : W14 m ρ c (Proc.devRef .tc main_arg7) = (m ((c : Thread nD τ).loc main_arg7)) :=
  ((((W14_of_ne m ρ c main_arg7 (by decide)).trans (by keepH : W13 m ρ c (Proc.devRef .tc main_arg7) = W12 m ρ c (Proc.devRef .tc main_arg7))).trans (W12_of_ne m ρ c main_arg7 (by decide))).trans (by keepH : W11 m ρ c (Proc.devRef .tc main_arg7) = W10 m ρ c (Proc.devRef .tc main_arg7))).trans (arg7_10 m ρ c)

theorem arg8_14 : W14 m ρ c (Proc.devRef .tc main_arg8) = (m ((c : Thread nD τ).loc main_arg8)) :=
  ((((W14_of_ne m ρ c main_arg8 (by decide)).trans (by keepH : W13 m ρ c (Proc.devRef .tc main_arg8) = W12 m ρ c (Proc.devRef .tc main_arg8))).trans (W12_of_ne m ρ c main_arg8 (by decide))).trans (by keepH : W11 m ρ c (Proc.devRef .tc main_arg8) = W10 m ρ c (Proc.devRef .tc main_arg8))).trans (arg8_10 m ρ c)

end Cert.KernelIdeal.Chain

end
-- ==== Proof.KArr6.lean ====
/-
  The array region 6 leaves: the block after the aggregation (residual, rectifier, row normalisation) of the arrays
  the region finds. Point `t` of the grid stores rows 5000·t … 5000·t + 4999, computed from the same rows of the two
  row operands and the three whole rows, and the ten points' blocks cover the array.
-/
import proofs.«103784_j3092376453282_1_alg».proof.Proof.Gen.KernelIdeal.Frame
import proofs.«103784_j3092376453282_1_alg».proof.Proof.KPayPost

set_option maxRecDepth 16384

noncomputable section

namespace Cert.KernelIdeal.Arr6

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two row operands' blocks move with the output's, the three rows stay at
    block (0, 0), and the output's block row is below 10. -/
theorem idx_facts : ∀ t : Fin cfg6.N, win6_0.index t (0 : Fin 2) = win6_5.index t (0 : Fin 2)
    ∧ win6_0.index t (1 : Fin 2) = 0 ∧ win6_5.index t (1 : Fin 2) = 0
    ∧ win6_1.index t (0 : Fin 2) = win6_5.index t (0 : Fin 2) ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) ≤ 9 :=
  (by decide +kernel : ∀ t : Fin grid6.N, _)

/-- Every block row of the output is some point's. -/
theorem idx_onto : ∀ q0 : Fin 10, ∃ t : Fin cfg6.N, win6_5.index t = ![q0.val, 0] :=
  (by decide +kernel : ∀ q0 : Fin 10, ∃ t : Fin grid6.N, win6_5.index t = ![q0.val, 0])

/-- What point `t` writes back is block `t` of the normalised residual of the arrays. -/
theorem flushed_eq (c : Dev nD) (t : Fin cfg6.N) :
    (dat6 (F := Ideal) V c).flushed 5 t
      = ((cfg6.win 5).blk t).view.read (Elt Ideal) (gcnPost (n := 50000) (V c main_v89) (V c main_v106) (V c main_v109) (V c main_v112) (V c main_v115)) := by
  show (cfg6.win 5).cut (grid6.coords t) ((dat6 V c).after 5 t) = _
  rw [after6_5]
  unfold out6_5
  rw [View.canon_unit_zero origin]
  simp only [View.ld_unit_zero (S := S5000x128) origin, View.ld_unit_zero (S := S1x128) origin]
  rw [Cert.KernelIdeal.Pay.k6_post]
  obtain ⟨e0, e1, e2, e3, e4, e5, e6, e7, e8, e9, e10, e11⟩ := idx_facts t
  have hb : (iblk6 V c 2 t : S1x128.Idx → EReal) = V c main_v109 := by
    funext y
    show V c main_v109 (((cfg6.win 2).blk t).view.emb y) = V c main_v109 y
    refine congrArg (V c main_v109) (funext fun a => Fin.ext ?_)
    match a with
    | ⟨0, _⟩ => show win6_2.index t (0 : Fin 2) * 1 + 1 * (y 0).val = (y 0).val; omega
    | ⟨1, _⟩ => show win6_2.index t (1 : Fin 2) * 128 + 1 * (y 1).val = (y 1).val; omega
  have hg : (iblk6 V c 3 t : S1x128.Idx → EReal) = V c main_v112 := by
    funext y
    show V c main_v112 (((cfg6.win 3).blk t).view.emb y) = V c main_v112 y
    refine congrArg (V c main_v112) (funext fun a => Fin.ext ?_)
    match a with
    | ⟨0, _⟩ => show win6_3.index t (0 : Fin 2) * 1 + 1 * (y 0).val = (y 0).val; omega
    | ⟨1, _⟩ => show win6_3.index t (1 : Fin 2) * 128 + 1 * (y 1).val = (y 1).val; omega
  have hbe : (iblk6 V c 4 t : S1x128.Idx → EReal) = V c main_v115 := by
    funext y
    show V c main_v115 (((cfg6.win 4).blk t).view.emb y) = V c main_v115 y
    refine congrArg (V c main_v115) (funext fun a => Fin.ext ?_)
    match a with
    | ⟨0, _⟩ => show win6_4.index t (0 : Fin 2) * 1 + 1 * (y 0).val = (y 0).val; omega
    | ⟨1, _⟩ => show win6_4.index t (1 : Fin 2) * 128 + 1 * (y 1).val = (y 1).val; omega
  rw [hb, hg, hbe]
  funext j
  obtain ⟨p, q, rfl⟩ : ∃ (p : Fin 5000) (q : Fin 128), j = ix2 p q := ⟨j 0, j 1, eq_ix2 j⟩
  have hr : win6_5.index t (0 : Fin 2) * 5000 + p.val < 50000 := by have := p.isLt; omega
  have hemb : ((cfg6.win 5).blk t).view.emb (ix2 p q) = ix2 (⟨win6_5.index t (0 : Fin 2) * 5000 + p.val, hr⟩ : Fin 50000) q := by
    funext a; apply Fin.ext
    match a with
    | ⟨0, _⟩ => show win6_5.index t (0 : Fin 2) * 5000 + 1 * p.val = win6_5.index t (0 : Fin 2) * 5000 + p.val; omega
    | ⟨1, _⟩ => show win6_5.index t (1 : Fin 2) * 128 + 1 * q.val = q.val; omega
  show gcnPost (iblk6 V c 0 t) (iblk6 V c 1 t) (V c main_v109) (V c main_v112) (V c main_v115) (ix2 p q)
    = gcnPost (V c main_v89) (V c main_v106) (V c main_v109) (V c main_v112) (V c main_v115) (((cfg6.win 5).blk t).view.emb (ix2 p q))
  rw [hemb]
  refine gcnPost_congr (iblk6 V c 0 t) (iblk6 V c 1 t) (V c main_v89) (V c main_v106) (V c main_v109) (V c main_v112) (V c main_v115) p _ (fun k => ?_) (fun k => ?_) q
  · show V c main_v89 (((cfg6.win 0).blk t).view.emb (ix2 p k)) = V c main_v89 (ix2 _ k)
    refine congrArg (V c main_v89) (funext fun a => Fin.ext ?_)
    match a with
    | ⟨0, _⟩ => show win6_0.index t (0 : Fin 2) * 5000 + 1 * p.val = win6_5.index t (0 : Fin 2) * 5000 + p.val; omega
    | ⟨1, _⟩ => show win6_0.index t (1 : Fin 2) * 128 + 1 * k.val = k.val; omega
  · show V c main_v106 (((cfg6.win 1).blk t).view.emb (ix2 p k)) = V c main_v106 (ix2 _ k)
    refine congrArg (V c main_v106) (funext fun a => Fin.ext ?_)
    match a with
    | ⟨0, _⟩ => show win6_1.index t (0 : Fin 2) * 5000 + 1 * p.val = win6_5.index t (0 : Fin 2) * 5000 + p.val; omega
    | ⟨1, _⟩ => show win6_1.index t (1 : Fin 2) * 128 + 1 * k.val = k.val; omega

/-- An index of the array is in point `t`'s block iff each coordinate is in the block's range on its axis. -/
theorem mem_blk (t : Fin cfg6.N) (i : S50000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v116).slice (win6_5.rect t)).set ↔ _
  rw [View.set_slice_whole, Rect.mem_set_unit]
  exact Iff.rfl

/-- The ten blocks cover the array. -/
theorem cover (i : S50000x128.Idx) : ∃ t : Fin cfg6.N, (cfg6.win 5).flush t = true ∧ i ∈ ((cfg6.win 5).blk t).view.set := by
  have hi0 : (i 0).val < 50000 := (i 0).isLt
  have hi1 : (i 1).val < 128 := (i 1).isLt
  obtain ⟨t, ht⟩ := idx_onto ⟨(i 0).val / 5000, by omega⟩
  have q0 : win6_5.index t (0 : Fin 2) = (i 0).val / 5000 := congrFun ht 0
  have q1 : win6_5.index t (1 : Fin 2) = 0 := congrFun ht 1
  refine ⟨t, flush6_5 t, ?_⟩
  rw [mem_blk]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

/-- The array after region 6: the normalised residual of the arrays the region finds. -/
theorem arr (c : Dev nD) :
    (dat6 (F := Ideal) V c).arrAt 5 cfg6.N = gcnPost (n := 50000) (V c main_v89) (V c main_v106) (V c main_v109) (V c main_v112) (V c main_v115) :=
  (dat6 (F := Ideal) V c).arrAt_eq_of_cover 5 _ (fun t _ => flushed_eq V c t) (cover)

end Cert.KernelIdeal.Arr6

end
-- ==== Proof.KArr7.lean ====
/-
  The array region 7 leaves: a linear layer of the arrays the region finds. Point `t` of the grid stores rows
  5000·t … 5000·t + 4999, computed from the same rows of the row operand, the whole weight and the whole bias row,
  and the ten points' blocks cover the array.
-/
import proofs.«103784_j3092376453282_1_alg».proof.Proof.Gen.KernelIdeal.Frame
import proofs.«103784_j3092376453282_1_alg».proof.Proof.KPay

set_option maxRecDepth 16384

noncomputable section

namespace Cert.KernelIdeal.Arr7

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row operand's block moves with the output's, the weight and the bias row
    stay at block (0, 0), and the output's block row is below 10. -/
theorem idx_facts : ∀ t : Fin cfg7.N, win7_0.index t (0 : Fin 2) = win7_3.index t (0 : Fin 2)
    ∧ win7_0.index t (1 : Fin 2) = 0 ∧ win7_3.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) ≤ 9 :=
  (by decide +kernel : ∀ t : Fin grid7.N, _)

/-- Every block row of the output is some point's. -/
theorem idx_onto : ∀ q0 : Fin 10, ∃ t : Fin cfg7.N, win7_3.index t = ![q0.val, 0] :=
  (by decide +kernel : ∀ q0 : Fin 10, ∃ t : Fin grid7.N, win7_3.index t = ![q0.val, 0])

/-- What point `t` writes back is block `t` of the linear layer of the arrays. -/
theorem flushed_eq (c : Dev nD) (t : Fin cfg7.N) :
    (dat7 (F := Ideal) V c).flushed 3 t
      = ((cfg7.win 3).blk t).view.read (Elt Ideal) (lin (n := 50000) (K := 128) (d := 128) (V c main_v116) (V c main_v119) (V c main_v35)) := by
  show (cfg7.win 3).cut (grid7.coords t) ((dat7 V c).after 3 t) = _
  rw [after7_3]
  unfold out7_3
  rw [View.canon_unit_zero origin]
  simp only [View.ld_unit_zero (S := S5000x128) origin, View.ld_unit_zero (S := S128x128) origin, View.ld_unit_zero (S := S1x128) origin]
  rw [Cert.KernelIdeal.Pay.k7_lin]
  obtain ⟨e0, e1, e2, e3, e4, e5, e6, e7⟩ := idx_facts t
  have hw : (iblk7 V c 1 t : S128x128.Idx → EReal) = V c main_v119 := by
    funext y
    show V c main_v119 (((cfg7.win 1).blk t).view.emb y) = V c main_v119 y
    refine congrArg (V c main_v119) (funext fun a => Fin.ext ?_)
    match a with
    | ⟨0, _⟩ => show win7_1.index t (0 : Fin 2) * 128 + 1 * (y 0).val = (y 0).val; omega
    | ⟨1, _⟩ => show win7_1.index t (1 : Fin 2) * 128 + 1 * (y 1).val = (y 1).val; omega
  have hb : (iblk7 V c 2 t : S1x128.Idx → EReal) = V c main_v35 := by
    funext y
    show V c main_v35 (((cfg7.win 2).blk t).view.emb y) = V c main_v35 y
    refine congrArg (V c main_v35) (funext fun a => Fin.ext ?_)
    match a with
    | ⟨0, _⟩ => show win7_2.index t (0 : Fin 2) * 1 + 1 * (y 0).val = (y 0).val; omega
    | ⟨1, _⟩ => show win7_2.index t (1 : Fin 2) * 128 + 1 * (y 1).val = (y 1).val; omega
  rw [hw, hb]
  funext j
  obtain ⟨p, q, rfl⟩ : ∃ (p : Fin 5000) (q : Fin 128), j = ix2 p q := ⟨j 0, j 1, eq_ix2 j⟩
  have hr : win7_3.index t (0 : Fin 2) * 5000 + p.val < 50000 := by have := p.isLt; omega
  have hemb : ((cfg7.win 3).blk t).view.emb (ix2 p q) = ix2 (⟨win7_3.index t (0 : Fin 2) * 5000 + p.val, hr⟩ : Fin 50000) q := by
    funext a; apply Fin.ext
    match a with
    | ⟨0, _⟩ => show win7_3.index t (0 : Fin 2) * 5000 + 1 * p.val = win7_3.index t (0 : Fin 2) * 5000 + p.val; omega
    | ⟨1, _⟩ => show win7_3.index t (1 : Fin 2) * 128 + 1 * q.val = q.val; omega
  show lin (iblk7 V c 0 t) (V c main_v119) (V c main_v35) (ix2 p q) = lin (V c main_v116) (V c main_v119) (V c main_v35) (((cfg7.win 3).blk t).view.emb (ix2 p q))
  rw [hemb]
  refine lin_congr (iblk7 V c 0 t) (V c main_v116) (V c main_v119) (V c main_v35) p _ q (fun k => ?_)
  show V c main_v116 (((cfg7.win 0).blk t).view.emb (ix2 p k)) = V c main_v116 (ix2 _ k)
  refine congrArg (V c main_v116) (funext fun a => Fin.ext ?_)
  match a with
  | ⟨0, _⟩ => show win7_0.index t (0 : Fin 2) * 5000 + 1 * p.val = win7_3.index t (0 : Fin 2) * 5000 + p.val; omega
  | ⟨1, _⟩ => show win7_0.index t (1 : Fin 2) * 128 + 1 * k.val = k.val; omega

/-- An index of the array is in point `t`'s block iff each coordinate is in the block's range on its axis. -/
theorem mem_blk (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v120).slice (win7_3.rect t)).set ↔ _
  rw [View.set_slice_whole, Rect.mem_set_unit]
  exact Iff.rfl

/-- The ten blocks cover the array. -/
theorem cover (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  obtain ⟨t, ht⟩ := idx_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- The array after region 7: the linear layer of the arrays the region finds. -/
theorem arr (c : Dev nD) :
    (dat7 (F := Ideal) V c).arrAt 3 cfg7.N = lin (n := 50000) (K := 128) (d := 128) (V c main_v116) (V c main_v119) (V c main_v35) :=
  (dat7 (F := Ideal) V c).arrAt_eq_of_cover 3 _ (fun t _ => flushed_eq V c t) (cover)

end Cert.KernelIdeal.Arr7

end
-- ==== Proof.KChainL3.lean ====
/-
  The fold of the kernel program's segments read through layer 3: the gather, the scaling by the edge
  normalisation and the scatter-add are the same host operations as the reference's stages, the normalisation region
  leaves the reference's normalised residual, and the next linear region the reference's next product.
-/
import proofs.«103784_j3092376453282_1_alg».proof.Proof.KChainL2
import proofs.«103784_j3092376453282_1_alg».proof.Proof.KArr6
import proofs.«103784_j3092376453282_1_alg».proof.Proof.KArr7
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx Cert.Gcn
open Idealize.SL.Sem Idealize.ShloMosaic.StableHlo
open Cert.ReferenceIdeal.ReadP

variable (m : (ℓ : Loc nD τ sig) → Buf (Elt Ideal) ℓ) (ρ : Dev nD → PrngReg) (c : Dev nD)

/-! ## Layer 3: the aggregation on the host, the normalisation region, the next weight, the next linear region -/

set_option maxHeartbeats 8000000 in
set_option maxRecDepth 100000 in
theorem agg_15 : W15 m ρ c (Proc.devRef .tc main_v106) = val_main_v157 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W14 m ρ c) (Proc.devRef .tc main_v106) = _
  after_results
  rw [T_14, row_14, col_14, nrm_14]
  rfl

set_option maxHeartbeats 8000000 in
set_option maxRecDepth 100000 in
theorem b_15 : W15 m ρ c (Proc.devRef .tc main_v109) = rowOf (val_main_v159 (m ((c : Thread nD τ).loc main_arg6))) := by
  show StableHlo.after hostOps6 (W14 m ρ c) (Proc.devRef .tc main_v109) = _
  after_results
  rw [arg6_14]
  exact Cert.KernelIdeal.Tail.row_cast _

set_option maxHeartbeats 8000000 in
set_option maxRecDepth 100000 in
theorem g_15 : W15 m ρ c (Proc.devRef .tc main_v112) = rowOf (val_main_v166 (m ((c : Thread nD τ).loc main_arg7))) := by
  show StableHlo.after hostOps6 (W14 m ρ c) (Proc.devRef .tc main_v112) = _
  after_results
  rw [arg7_14]
  exact Cert.KernelIdeal.Tail.row_cast _

set_option maxHeartbeats 8000000 in
set_option maxRecDepth 100000 in
theorem be_15 : W15 m ρ c (Proc.devRef .tc main_v115) = rowOf (val_main_v168 (m ((c : Thread nD τ).loc main_arg8))) := by
  show StableHlo.after hostOps6 (W14 m ρ c) (Proc.devRef .tc main_v115) = _
  after_results
  rw [arg8_14]
  exact Cert.KernelIdeal.Tail.row_cast _

theorem H_15 : W15 m ρ c (Proc.devRef .tc main_v89) = val_main_v140 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (by keepH : W15 m ρ c (Proc.devRef .tc main_v89) = W14 m ρ c (Proc.devRef .tc main_v89)).trans (H_14 m ρ c)

theorem H_16 : W16 m ρ c (Proc.devRef .tc main_v116) = val_main_v192 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W16_arr m ρ c 5).trans ((Cert.KernelIdeal.Arr6.arr (V15 m ρ) c).trans ?_)
  show gcnPost (W15 m ρ c (Proc.devRef .tc main_v89)) (W15 m ρ c (Proc.devRef .tc main_v106)) (W15 m ρ c (Proc.devRef .tc main_v109)) (W15 m ρ c (Proc.devRef .tc main_v112)) (W15 m ρ c (Proc.devRef .tc main_v115)) = _
  rw [H_15, agg_15, b_15, g_15, be_15]
  exact (Cert.ReferenceIdeal.Layer.post_eq _ _ _ _ _).symm

theorem arg5_16 : W16 m ρ c (Proc.devRef .tc main_arg5) = (m ((c : Thread nD τ).loc main_arg5)) :=
  ((W16_of_ne m ρ c main_arg5 (by decide)).trans (by keepH : W15 m ρ c (Proc.devRef .tc main_arg5) = W14 m ρ c (Proc.devRef .tc main_arg5))).trans (arg5_14 m ρ c)

set_option maxHeartbeats 8000000 in
set_option maxRecDepth 100000 in
theorem Wt_17 : W17 m ρ c (Proc.devRef .tc main_v119) = val_main_v195 (m ((c : Thread nD τ).loc main_arg5)) := by
  show StableHlo.after hostOps7 (W16 m ρ c) (Proc.devRef .tc main_v119) = _
  after_results
  rw [arg5_16]
  rfl

theorem H_17 : W17 m ρ c (Proc.devRef .tc main_v116) = val_main_v192 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (by keepH : W17 m ρ c (Proc.devRef .tc main_v116) = W16 m ρ c (Proc.devRef .tc main_v116)).trans (H_16 m ρ c)

theorem z_17 : W17 m ρ c (Proc.devRef .tc main_v35) = zeroRow 128 :=
  (((by keepH : W17 m ρ c (Proc.devRef .tc main_v35) = W16 m ρ c (Proc.devRef .tc main_v35)).trans (W16_of_ne m ρ c main_v35 (by decide))).trans (by keepH : W15 m ρ c (Proc.devRef .tc main_v35) = W14 m ρ c (Proc.devRef .tc main_v35))).trans (z_14 m ρ c)

theorem T_18 : W18 m ρ c (Proc.devRef .tc main_v120) = val_main_v196 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W18_arr m ρ c 3).trans ((Cert.KernelIdeal.Arr7.arr (V17 m ρ) c).trans ?_)
  show lin (W17 m ρ c (Proc.devRef .tc main_v116)) (W17 m ρ c (Proc.devRef .tc main_v119)) (W17 m ρ c (Proc.devRef .tc main_v35)) = _
  rw [H_17, Wt_17, z_17]
  exact (Cert.ReferenceIdeal.Layer.lin_zero _ _).symm

theorem H_18 : W18 m ρ c (Proc.devRef .tc main_v116) = val_main_v192 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  ((W18_arr m ρ c 0).trans (((dat7 (V17 m ρ) c).arrAt_in 0 rfl _).trans (A_eq7 (V17 m ρ) c 0))).trans (H_17 m ρ c)

theorem row_18 : W18 m ρ c (Proc.devRef .tc main_v3) = val_main_v3 (m ((c : Thread nD τ).loc main_arg1)) :=
  ((((W18_of_ne m ρ c main_v3 (by decide)).trans (by keepH : W17 m ρ c (Proc.devRef .tc main_v3) = W16 m ρ c (Proc.devRef .tc main_v3))).trans (W16_of_ne m ρ c main_v3 (by decide))).trans (by keepH : W15 m ρ c (Proc.devRef .tc main_v3) = W14 m ρ c (Proc.devRef .tc main_v3))).trans (row_14 m ρ c)

theorem col_18 : W18 m ρ c (Proc.devRef .tc main_v6) = val_main_v6 (m ((c : Thread nD τ).loc main_arg1)) :=
  ((((W18_of_ne m ρ c main_v6 (by decide)).trans (by keepH : W17 m ρ c (Proc.devRef .tc main_v6) = W16 m ρ c (Proc.devRef .tc main_v6))).trans (W16_of_ne m ρ c main_v6 (by decide))).trans (by keepH : W15 m ρ c (Proc.devRef .tc main_v6) = W14 m ρ c (Proc.devRef .tc main_v6))).trans (col_14 m ρ c)

theorem nrm_18 : W18 m ρ c (Proc.devRef .tc main_v31) = val_main_v31 (m ((c : Thread nD τ).loc main_arg1)) :=
  ((((W18_of_ne m ρ c main_v31 (by decide)).trans (by keepH : W17 m ρ c (Proc.devRef .tc main_v31) = W16 m ρ c (Proc.devRef .tc main_v31))).trans (W16_of_ne m ρ c main_v31 (by decide))).trans (by keepH : W15 m ρ c (Proc.devRef .tc main_v31) = W14 m ρ c (Proc.devRef .tc main_v31))).trans (nrm_14 m ρ c)

theorem z_18 : W18 m ρ c (Proc.devRef .tc main_v35) = zeroRow 128 :=
  ((W18_arr m ρ c 2).trans (((dat7 (V17 m ρ) c).arrAt_in 2 rfl _).trans (A_eq7 (V17 m ρ) c 2))).trans (z_17 m ρ c)

theorem arg5_18 : W18 m ρ c (Proc.devRef .tc main_arg5) = (m ((c : Thread nD τ).loc main_arg5)) :=
  ((W18_of_ne m ρ c main_arg5 (by decide)).trans (by keepH : W17 m ρ c (Proc.devRef .tc main_arg5) = W16 m ρ c (Proc.devRef .tc main_arg5))).trans (arg5_16 m ρ c)

theorem arg6_18 : W18 m ρ c (Proc.devRef .tc main_arg6) = (m ((c : Thread nD τ).loc main_arg6)) :=
  ((((W18_of_ne m ρ c main_arg6 (by decide)).trans (by keepH : W17 m ρ c (Proc.devRef .tc main_arg6) = W16 m ρ c (Proc.devRef .tc main_arg6))).trans (W16_of_ne m ρ c main_arg6 (by decide))).trans (by keepH : W15 m ρ c (Proc.devRef .tc main_arg6) = W14 m ρ c (Proc.devRef .tc main_arg6))).trans (arg6_14 m ρ c)

theorem arg7_18 : W18 m ρ c (Proc.devRef .tc main_arg7) = (m ((c : Thread nD τ).loc main_arg7)) :=
  ((((W18_of_ne m ρ c main_arg7 (by decide)).trans (by keepH : W17 m ρ c (Proc.devRef .tc main_arg7) = W16 m ρ c (Proc.devRef .tc main_arg7))).trans (W16_of_ne m ρ c main_arg7 (by decide))).trans (by keepH : W15 m ρ c (Proc.devRef .tc main_arg7) = W14 m ρ c (Proc.devRef .tc main_arg7))).trans (arg7_14 m ρ c)

theorem arg8_18 : W18 m ρ c (Proc.devRef .tc main_arg8) = (m ((c : Thread nD τ).loc main_arg8)) :=
  ((((W18_of_ne m ρ c main_arg8 (by decide)).trans (by keepH : W17 m ρ c (Proc.devRef .tc main_arg8) = W16 m ρ c (Proc.devRef .tc main_arg8))).trans (W16_of_ne m ρ c main_arg8 (by decide))).trans (by keepH : W15 m ρ c (Proc.devRef .tc main_arg8) = W14 m ρ c (Proc.devRef .tc main_arg8))).trans (arg8_14 m ρ c)

end Cert.KernelIdeal.Chain

end
-- ==== Proof.KArr8.lean ====
/-
  The array region 8 leaves: the block after the aggregation (residual, rectifier, row normalisation) of the arrays
  the region finds. Point `t` of the grid stores rows 5000·t … 5000·t + 4999, computed from the same rows of the two
  row operands and the three whole rows, and the ten points' blocks cover the array.
-/
import proofs.«103784_j3092376453282_1_alg».proof.Proof.Gen.KernelIdeal.Frame
import proofs.«103784_j3092376453282_1_alg».proof.Proof.KPayPost

set_option maxRecDepth 16384

noncomputable section

namespace Cert.KernelIdeal.Arr8

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two row operands' blocks move with the output's, the three rows stay at
    block (0, 0), and the output's block row is below 10. -/
theorem idx_facts : ∀ t : Fin cfg8.N, win8_0.index t (0 : Fin 2) = win8_5.index t (0 : Fin 2)
    ∧ win8_0.index t (1 : Fin 2) = 0 ∧ win8_5.index t (1 : Fin 2) = 0
    ∧ win8_1.index t (0 : Fin 2) = win8_5.index t (0 : Fin 2) ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) ≤ 9 :=
  (by decide +kernel : ∀ t : Fin grid8.N, _)

/-- Every block row of the output is some point's. -/
theorem idx_onto : ∀ q0 : Fin 10, ∃ t : Fin cfg8.N, win8_5.index t = ![q0.val, 0] :=
  (by decide +kernel : ∀ q0 : Fin 10, ∃ t : Fin grid8.N, win8_5.index t = ![q0.val, 0])

/-- What point `t` writes back is block `t` of the normalised residual of the arrays. -/
theorem flushed_eq (c : Dev nD) (t : Fin cfg8.N) :
    (dat8 (F := Ideal) V c).flushed 5 t
      = ((cfg8.win 5).blk t).view.read (Elt Ideal) (gcnPost (n := 50000) (V c main_v116) (V c main_v133) (V c main_v136) (V c main_v139) (V c main_v142)) := by
  show (cfg8.win 5).cut (grid8.coords t) ((dat8 V c).after 5 t) = _
  rw [after8_5]
  unfold out8_5
  rw [View.canon_unit_zero origin]
  simp only [View.ld_unit_zero (S := S5000x128) origin, View.ld_unit_zero (S := S1x128) origin]
  rw [Cert.KernelIdeal.Pay.k8_post]
  obtain ⟨e0, e1, e2, e3, e4, e5, e6, e7, e8, e9, e10, e11⟩ := idx_facts t
  have hb : (iblk8 V c 2 t : S1x128.Idx → EReal) = V c main_v136 := by
    funext y
    show V c main_v136 (((cfg8.win 2).blk t).view.emb y) = V c main_v136 y
    refine congrArg (V c main_v136) (funext fun a => Fin.ext ?_)
    match a with
    | ⟨0, _⟩ => show win8_2.index t (0 : Fin 2) * 1 + 1 * (y 0).val = (y 0).val; omega
    | ⟨1, _⟩ => show win8_2.index t (1 : Fin 2) * 128 + 1 * (y 1).val = (y 1).val; omega
  have hg : (iblk8 V c 3 t : S1x128.Idx → EReal) = V c main_v139 := by
    funext y
    show V c main_v139 (((cfg8.win 3).blk t).view.emb y) = V c main_v139 y
    refine congrArg (V c main_v139) (funext fun a => Fin.ext ?_)
    match a with
    | ⟨0, _⟩ => show win8_3.index t (0 : Fin 2) * 1 + 1 * (y 0).val = (y 0).val; omega
    | ⟨1, _⟩ => show win8_3.index t (1 : Fin 2) * 128 + 1 * (y 1).val = (y 1).val; omega
  have hbe : (iblk8 V c 4 t : S1x128.Idx → EReal) = V c main_v142 := by
    funext y
    show V c main_v142 (((cfg8.win 4).blk t).view.emb y) = V c main_v142 y
    refine congrArg (V c main_v142) (funext fun a => Fin.ext ?_)
    match a with
    | ⟨0, _⟩ => show win8_4.index t (0 : Fin 2) * 1 + 1 * (y 0).val = (y 0).val; omega
    | ⟨1, _⟩ => show win8_4.index t (1 : Fin 2) * 128 + 1 * (y 1).val = (y 1).val; omega
  rw [hb, hg, hbe]
  funext j
  obtain ⟨p, q, rfl⟩ : ∃ (p : Fin 5000) (q : Fin 128), j = ix2 p q := ⟨j 0, j 1, eq_ix2 j⟩
  have hr : win8_5.index t (0 : Fin 2) * 5000 + p.val < 50000 := by have := p.isLt; omega
  have hemb : ((cfg8.win 5).blk t).view.emb (ix2 p q) = ix2 (⟨win8_5.index t (0 : Fin 2) * 5000 + p.val, hr⟩ : Fin 50000) q := by
    funext a; apply Fin.ext
    match a with
    | ⟨0, _⟩ => show win8_5.index t (0 : Fin 2) * 5000 + 1 * p.val = win8_5.index t (0 : Fin 2) * 5000 + p.val; omega
    | ⟨1, _⟩ => show win8_5.index t (1 : Fin 2) * 128 + 1 * q.val = q.val; omega
  show gcnPost (iblk8 V c 0 t) (iblk8 V c 1 t) (V c main_v136) (V c main_v139) (V c main_v142) (ix2 p q)
    = gcnPost (V c main_v116) (V c main_v133) (V c main_v136) (V c main_v139) (V c main_v142) (((cfg8.win 5).blk t).view.emb (ix2 p q))
  rw [hemb]
  refine gcnPost_congr (iblk8 V c 0 t) (iblk8 V c 1 t) (V c main_v116) (V c main_v133) (V c main_v136) (V c main_v139) (V c main_v142) p _ (fun k => ?_) (fun k => ?_) q
  · show V c main_v116 (((cfg8.win 0).blk t).view.emb (ix2 p k)) = V c main_v116 (ix2 _ k)
    refine congrArg (V c main_v116) (funext fun a => Fin.ext ?_)
    match a with
    | ⟨0, _⟩ => show win8_0.index t (0 : Fin 2) * 5000 + 1 * p.val = win8_5.index t (0 : Fin 2) * 5000 + p.val; omega
    | ⟨1, _⟩ => show win8_0.index t (1 : Fin 2) * 128 + 1 * k.val = k.val; omega
  · show V c main_v133 (((cfg8.win 1).blk t).view.emb (ix2 p k)) = V c main_v133 (ix2 _ k)
    refine congrArg (V c main_v133) (funext fun a => Fin.ext ?_)
    match a with
    | ⟨0, _⟩ => show win8_1.index t (0 : Fin 2) * 5000 + 1 * p.val = win8_5.index t (0 : Fin 2) * 5000 + p.val; omega
    | ⟨1, _⟩ => show win8_1.index t (1 : Fin 2) * 128 + 1 * k.val = k.val; omega

/-- An index of the array is in point `t`'s block iff each coordinate is in the block's range on its axis. -/
theorem mem_blk (t : Fin cfg8.N) (i : S50000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v143).slice (win8_5.rect t)).set ↔ _
  rw [View.set_slice_whole, Rect.mem_set_unit]
  exact Iff.rfl

/-- The ten blocks cover the array. -/
theorem cover (i : S50000x128.Idx) : ∃ t : Fin cfg8.N, (cfg8.win 5).flush t = true ∧ i ∈ ((cfg8.win 5).blk t).view.set := by
  have hi0 : (i 0).val < 50000 := (i 0).isLt
  have hi1 : (i 1).val < 128 := (i 1).isLt
  obtain ⟨t, ht⟩ := idx_onto ⟨(i 0).val / 5000, by omega⟩
  have q0 : win8_5.index t (0 : Fin 2) = (i 0).val / 5000 := congrFun ht 0
  have q1 : win8_5.index t (1 : Fin 2) = 0 := congrFun ht 1
  refine ⟨t, flush8_5 t, ?_⟩
  rw [mem_blk]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 128 ≤ (i 1).val ∧ (i 1).val < win8_5.index t (1 : Fin 2) * 128 + 128; omega

/-- The array after region 8: the normalised residual of the arrays the region finds. -/
theorem arr (c : Dev nD) :
    (dat8 (F := Ideal) V c).arrAt 5 cfg8.N = gcnPost (n := 50000) (V c main_v116) (V c main_v133) (V c main_v136) (V c main_v139) (V c main_v142) :=
  (dat8 (F := Ideal) V c).arrAt_eq_of_cover 5 _ (fun t _ => flushed_eq V c t) (cover)

end Cert.KernelIdeal.Arr8

end
-- ==== Proof.KArr9.lean ====
/-
  The array region 9 leaves: a linear layer of the arrays the region finds. Point `t` of the grid stores rows
  5000·t … 5000·t + 4999, computed from the same rows of the row operand, the whole weight and the whole bias row,
  and the ten points' blocks cover the array.
-/
import proofs.«103784_j3092376453282_1_alg».proof.Proof.Gen.KernelIdeal.Frame
import proofs.«103784_j3092376453282_1_alg».proof.Proof.KPay

set_option maxRecDepth 16384

noncomputable section

namespace Cert.KernelIdeal.Arr9

open Cert.KernelIdeal Cert.KernelIdeal.Gen Idealize.ShloMosaic Idealize.ShloMosaic.TcCoe Idealize.ShloMosaic.ValueIdx Cert.Gcn
open Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the row operand's block moves with the output's, the weight and the bias row
    stay at block (0, 0), and the output's block row is below 10. -/
theorem idx_facts : ∀ t : Fin cfg9.N, win9_0.index t (0 : Fin 2) = win9_3.index t (0 : Fin 2)
    ∧ win9_0.index t (1 : Fin 2) = 0 ∧ win9_3.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) ≤ 9 :=
  (by decide +kernel : ∀ t : Fin grid9.N, _)

/-- Every block row of the output is some point's. -/
theorem idx_onto : ∀ q0 : Fin 10, ∃ t : Fin cfg9.N, win9_3.index t = ![q0.val, 0] :=
  (by decide +kernel : ∀ q0 : Fin 10, ∃ t : Fin grid9.N, win9_3.index t = ![q0.val, 0])

/-- What point `t` writes back is block `t` of the linear layer of the arrays. -/
theorem flushed_eq (c : Dev nD) (t : Fin cfg9.N) :
    (dat9 (F := Ideal) V c).flushed 3 t
      = ((cfg9.win 3).blk t).view.read (Elt Ideal) (lin (n := 50000) (K := 128) (d := 128) (V c main_v143) (V c main_v147) (V c main_v148)) := by
  show (cfg9.win 3).cut (grid9.coords t) ((dat9 V c).after 3 t) = _
  rw [after9_3]
  unfold out9_3
  rw [View.canon_unit_zero origin]
  simp only [View.ld_unit_zero (S := S5000x128) origin, View.ld_unit_zero (S := S128x128) origin, View.ld_unit_zero (S := S1x128) origin]
  rw [Cert.KernelIdeal.Pay.k9_lin]
  obtain ⟨e0, e1, e2, e3, e4, e5, e6, e7⟩ := idx_facts t
  have hw : (iblk9 V c 1 t : S128x128.Idx → EReal) = V c main_v147 := by
    funext y
    show V c main_v147 (((cfg9.win 1).blk t).view.emb y) = V c main_v147 y
    refine congrArg (V c main_v147) (funext fun a => Fin.ext ?_)
    match a with
    | ⟨0, _⟩ => show win9_1.index t (0 : Fin 2) * 128 + 1 * (y 0).val = (y 0).val; omega
    | ⟨1, _⟩ => show win9_1.index t (1 : Fin 2) * 128 + 1 * (y 1).val = (y 1).val; omega
  have hb : (iblk9 V c 2 t : S1x128.Idx → EReal) = V c main_v148 := by
    funext y
    show V c main_v148 (((cfg9.win 2).blk t).view.emb y) = V c main_v148 y
    refine congrArg (V c main_v148) (funext fun a => Fin.ext ?_)
    match a with
    | ⟨0, _⟩ => show win9_2.index t (0 : Fin 2) * 1 + 1 * (y 0).val = (y 0).val; omega
    | ⟨1, _⟩ => show win9_2.index t (1 : Fin 2) * 128 + 1 * (y 1).val = (y 1).val; omega
  rw [hw, hb]
  funext j
  obtain ⟨p, q, rfl⟩ : ∃ (p : Fin 5000) (q : Fin 128), j = ix2 p q := ⟨j 0, j 1, eq_ix2 j⟩
  have hr : win9_3.index t (0 : Fin 2) * 5000 + p.val < 50000 := by have := p.isLt; omega
  have hemb : ((cfg9.win 3).blk t).view.emb (ix2 p q) = ix2 (⟨win9_3.index t (0 : Fin 2) * 5000 + p.val, hr⟩ : Fin 50000) q := by
    funext a; apply Fin.ext
    match a with
    | ⟨0, _⟩ => show win9_3.index t (0 : Fin 2) * 5000 + 1 * p.val = win9_3.index t (0 : Fin 2) * 5000 + p.val; omega
    | ⟨1, _⟩ => show win9_3.index t (1 : Fin 2) * 128 + 1 * q.val = q.val; omega
  show lin (iblk9 V c 0 t) (V c main_v147) (V c main_v148) (ix2 p q) = lin (V c main_v143) (V c main_v147) (V c main_v148) (((cfg9.win 3).blk t).view.emb (ix2 p q))
  rw [hemb]
  refine lin_congr (iblk9 V c 0 t) (V c main_v143) (V c main_v147) (V c main_v148) p _ q (fun k => ?_)
  show V c main_v143 (((cfg9.win 0).blk t).view.emb (ix2 p k)) = V c main_v143 (ix2 _ k)
  refine congrArg (V c main_v143) (funext fun a => Fin.ext ?_)
  match a with
  | ⟨0, _⟩ => show win9_0.index t (0 : Fin 2) * 5000 + 1 * p.val = win9_3.index t (0 : Fin 2) * 5000 + p.val; omega
  | ⟨1, _⟩ => show win9_0.index t (1 : Fin 2) * 128 + 1 * k.val = k.val; omega

/-- An index of the array is in point `t`'s block iff each coordinate is in the block's range on its axis. -/
theorem mem_blk (t : Fin cfg9.N) (i : S50000x128.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v149).slice (win9_3.rect t)).set ↔ _
  rw [View.set_slice_whole, Rect.mem_set_unit]
  exact Iff.rfl

/-- The ten blocks cover the array. -/
theorem cover (i : S50000x128.Idx) : ∃ t : Fin cfg9.N, (cfg9.win 3).flush t = true ∧ i ∈ ((cfg9.win 3).blk t).view.set := by
  have hi0 : (i 0).val < 50000 := (i 0).isLt
  have hi1 : (i 1).val < 128 := (i 1).isLt
  obtain ⟨t, ht⟩ := idx_onto ⟨(i 0).val / 5000, by omega⟩
  have q0 : win9_3.index t (0 : Fin 2) = (i 0).val / 5000 := congrFun ht 0
  have q1 : win9_3.index t (1 : Fin 2) = 0 := congrFun ht 1
  refine ⟨t, flush9_3 t, ?_⟩
  rw [mem_blk]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 128 ≤ (i 1).val ∧ (i 1).val < win9_3.index t (1 : Fin 2) * 128 + 128; omega

/-- The array after region 9: the linear layer of the arrays the region finds. -/
theorem arr (c : Dev nD) :
    (dat9 (F := Ideal) V c).arrAt 3 cfg9.N = lin (n := 50000) (K := 128) (d := 128) (V c main_v143) (V c main_v147) (V c main_v148) :=
  (dat9 (F := Ideal) V c).arrAt_eq_of_cover 3 _ (fun t _ => flushed_eq V c t) (cover)

end Cert.KernelIdeal.Arr9

end
-- ==== Proof.TailEq.lean ====
/-
  The last linear map on both sides: the kernel program multiplies by the `[128, 128]` array that holds the transposed
  output weight in column 0 and zeros elsewhere and cuts column 0 out of the product; the reference multiplies by the
  transposed output weight `[128, 1]` itself. Entry (p, 0) of either is `∑ k, H (p, k) * W_out (0, k)`.
-/
import proofs.«103784_j3092376453282_1_alg».proof.Proof.KTail
import proofs.«103784_j3092376453282_1_alg».proof.Proof.Gen.ReferenceIdeal
import proofs.«103784_j3092376453282_1_alg».proof.Proof.Spec

noncomputable section

namespace Cert.TailEq

open Idealize.ShloMosaic Idealize.ShloMosaic.ValueIdx Cert.Gcn

/-- The last matrix product's dimension record is the plain [50000, 128] × [128, 1] one. -/
theorem dot_plain : Cert.ReferenceIdeal.dot_S50000x128_S128x1_S50000x1_1_0_0_1_n_n = DotDims.plain 50000 128 1 := rfl

/-- The reference's last dot_general `[50000, 128] × [128, 1]` at (p, 0) is the row-by-column sum. -/
theorem ref_dot_col (H : FVec Ideal Cert.ReferenceIdeal.S50000x128 .f32) (w : FVec Ideal Cert.ReferenceIdeal.S128x1 .f32) (p : Fin 50000) :
    Host.dotGeneral (F := Ideal) Cert.ReferenceIdeal.dot_S50000x128_S128x1_S50000x1_1_0_0_1_n_n none H w (ix2 p (0 : Fin 1))
      = ∑ k : Fin 128, H (ix2 p k) * w (ix2 k (0 : Fin 1)) := by
  simp only [Host.dotGeneral]
  exact Cert.LibDense.dotGeneral_plain (M := 50000) (K := 128) (N := 1) _ H w (ix2 p (0 : Fin 1))

/-- The kernel program's output column is the reference's last dot_general. -/
theorem out_eq (H : FVec Ideal Cert.KernelIdeal.S50000x128 .f32) (x9 : FVec Ideal Cert.KernelIdeal.S1x128 .f32) :
    (extractStridedSlice Cert.KernelIdeal.S50000x1 ![0, 0]
        (lin (n := 50000) (K := 128) (d := 128) H
          (Host.scatter Cert.KernelIdeal.scatter_S128x128_S1_S128x1_01_n_1_0 (fun _ b => b)
            (broadcastInDim Cert.KernelIdeal.S128x128 ![] Cert.KernelIdeal.Gen.bcast_S_S128x128 (constant (F := Ideal) Cert.KernelIdeal.S_ .f32 0x00000000#32))
            (broadcastInDim Cert.KernelIdeal.S1 ![] Cert.KernelIdeal.Gen.bcast_S_S1 (constantI Cert.KernelIdeal.S_ 32 0#32))
            (transpose Cert.KernelIdeal.S128x1 [1, 0] x9 Cert.KernelIdeal.Gen.transposes_S1x128_S128x1_1_0))
          (zeroRow 128))
        Cert.KernelIdeal.Gen.slices_S50000x128_S50000x1_0_0 : FVec Ideal Cert.KernelIdeal.S50000x1 .f32)
      = Host.dotGeneral (F := Ideal) Cert.ReferenceIdeal.dot_S50000x128_S128x1_S50000x1_1_0_0_1_n_n none H
          (transpose Cert.ReferenceIdeal.S128x1 [1, 0] x9 Cert.ReferenceIdeal.Gen.transposes_S1x128_S128x1_1_0) := by
  funext i
  obtain ⟨p, z, rfl⟩ : ∃ (p : Fin 50000) (z : Fin 1), i = ix2 p z := ⟨i 0, i 1, eq_ix2 i⟩
  obtain rfl : z = 0 := Subsingleton.elim _ _
  -- the right side: the row-by-column sum against the transposed weight
  refine Eq.trans ?_ (ref_dot_col H _ p).symm
  -- the left side: column 0 of the product is the sum against column 0 of the padded array
  refine (Cert.KernelIdeal.Tail.out_col H _ p).trans ?_
  refine Finset.sum_congr rfl fun k _ => congrArg (H (ix2 p k) * ·) ?_
  -- column 0 of the padded array is the transposed weight
  refine (Cert.KernelIdeal.Tail.pad_col _ k).trans ?_
  rfl

end Cert.TailEq

end
-- ==== Proof.KChainL4.lean ====
/-
  The fold of the kernel program's segments read through layer 4: the gather, the scaling by the edge
  normalisation and the scatter-add are the same host operations as the reference's stages, the normalisation region
  leaves the reference's normalised residual, and the tail (the padded output weight, the last linear region, the per-graph means) is the reference's.
-/
import proofs.«103784_j3092376453282_1_alg».proof.Proof.KChainL3
import proofs.«103784_j3092376453282_1_alg».proof.Proof.KArr8
import proofs.«103784_j3092376453282_1_alg».proof.Proof.KArr9
import proofs.«103784_j3092376453282_1_alg».proof.Proof.TailEq
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.ValueIdx Cert.Gcn
open Idealize.SL.Sem Idealize.ShloMosaic.StableHlo
open Cert.ReferenceIdeal.ReadP

variable (m : (ℓ : Loc nD τ sig) → Buf (Elt Ideal) ℓ) (ρ : Dev nD → PrngReg) (c : Dev nD)

/-! ## Layer 4: the aggregation on the host, the normalisation region -/

set_option maxHeartbeats 8000000 in
set_option maxRecDepth 100000 in
theorem agg_19 : W19 m ρ c (Proc.devRef .tc main_v133) = val_main_v209 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps8 (W18 m ρ c) (Proc.devRef .tc main_v133) = _
  after_results
  rw [T_18, row_18, col_18, nrm_18]
  rfl

set_option maxHeartbeats 8000000 in
set_option maxRecDepth 100000 in
theorem b_19 : W19 m ρ c (Proc.devRef .tc main_v136) = rowOf (val_main_v211 (m ((c : Thread nD τ).loc main_arg6))) := by
  show StableHlo.after hostOps8 (W18 m ρ c) (Proc.devRef .tc main_v136) = _
  after_results
  rw [arg6_18]
  exact Cert.KernelIdeal.Tail.row_cast _

set_option maxHeartbeats 8000000 in
set_option maxRecDepth 100000 in
theorem g_19 : W19 m ρ c (Proc.devRef .tc main_v139) = rowOf (val_main_v218 (m ((c : Thread nD τ).loc main_arg7))) := by
  show StableHlo.after hostOps8 (W18 m ρ c) (Proc.devRef .tc main_v139) = _
  after_results
  rw [arg7_18]
  exact Cert.KernelIdeal.Tail.row_cast _

set_option maxHeartbeats 8000000 in
set_option maxRecDepth 100000 in
theorem be_19 : W19 m ρ c (Proc.devRef .tc main_v142) = rowOf (val_main_v220 (m ((c : Thread nD τ).loc main_arg8))) := by
  show StableHlo.after hostOps8 (W18 m ρ c) (Proc.devRef .tc main_v142) = _
  after_results
  rw [arg8_18]
  exact Cert.KernelIdeal.Tail.row_cast _

theorem H_19 : W19 m ρ c (Proc.devRef .tc main_v116) = val_main_v192 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (by keepH : W19 m ρ c (Proc.devRef .tc main_v116) = W18 m ρ c (Proc.devRef .tc main_v116)).trans (H_18 m ρ c)

theorem H_20 : W20 m ρ c (Proc.devRef .tc main_v143) = val_main_v244 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W20_arr m ρ c 5).trans ((Cert.KernelIdeal.Arr8.arr (V19 m ρ) c).trans ?_)
  show gcnPost (W19 m ρ c (Proc.devRef .tc main_v116)) (W19 m ρ c (Proc.devRef .tc main_v133)) (W19 m ρ c (Proc.devRef .tc main_v136)) (W19 m ρ c (Proc.devRef .tc main_v139)) (W19 m ρ c (Proc.devRef .tc main_v142)) = _
  rw [H_19, agg_19, b_19, g_19, be_19]
  exact (Cert.ReferenceIdeal.Layer.post_eq _ _ _ _ _).symm

/-! ## The tail: the padded output weight, the last linear region, the per-graph means -/

/-- The `[128, 128]` array holding the transposed output weight in column 0 and zeros elsewhere. -/
abbrev padK (w : FVec Ideal S1x128 .f32) : FVec Ideal S128x128 .f32 :=
  Host.scatter scatter_S128x128_S1_S128x1_01_n_1_0 (fun _ b => b)
    (broadcastInDim S128x128 ![] bcast_S_S128x128 (constant (F := Ideal) S_ .f32 0x00000000#32))
    (broadcastInDim S1 ![] bcast_S_S1 (constantI S_ 32 0#32))
    (transpose S128x1 [1, 0] w transposes_S1x128_S128x1_1_0)

theorem arg9_20 : W20 m ρ c (Proc.devRef .tc main_arg9) = (m ((c : Thread nD τ).loc main_arg9)) :=
  (((((((((((((((((W20_of_ne m ρ c main_arg9 (by decide)).trans (by keepH : W19 m ρ c (Proc.devRef .tc main_arg9) = W18 m ρ c (Proc.devRef .tc main_arg9))).trans (W18_of_ne m ρ c main_arg9 (by decide))).trans (by keepH : W17 m ρ c (Proc.devRef .tc main_arg9) = W16 m ρ c (Proc.devRef .tc main_arg9))).trans (W16_of_ne m ρ c main_arg9 (by decide))).trans (by keepH : W15 m ρ c (Proc.devRef .tc main_arg9) = W14 m ρ c (Proc.devRef .tc main_arg9))).trans (W14_of_ne m ρ c main_arg9 (by decide))).trans (by keepH : W13 m ρ c (Proc.devRef .tc main_arg9) = W12 m ρ c (Proc.devRef .tc main_arg9))).trans (W12_of_ne m ρ c main_arg9 (by decide))).trans (by keepH : W11 m ρ c (Proc.devRef .tc main_arg9) = W10 m ρ c (Proc.devRef .tc main_arg9))).trans (W10_of_ne m ρ c main_arg9 (by decide))).trans (by keepH : W9 m ρ c (Proc.devRef .tc main_arg9) = W8 m ρ c (Proc.devRef .tc main_arg9))).trans (W8_of_ne m ρ c main_arg9 (by decide))).trans (by keepH : W7 m ρ c (Proc.devRef .tc main_arg9) = W6 m ρ c (Proc.devRef .tc main_arg9))).trans (W6_of_ne m ρ c main_arg9 (by decide))).trans (by keepH : W5 m ρ c (Proc.devRef .tc main_arg9) = W4 m ρ c (Proc.devRef .tc main_arg9))).trans (W4_of_ne m ρ c main_arg9 (by decide))).trans (arg9_3 m ρ c)

theorem arg2_22 : W22 m ρ c (Proc.devRef .tc main_arg2) = (m ((c : Thread nD τ).loc main_arg2)) :=
  (((((((((((((((((((W22_of_ne m ρ c main_arg2 (by decide)).trans (by keepH : W21 m ρ c (Proc.devRef .tc main_arg2) = W20 m ρ c (Proc.devRef .tc main_arg2))).trans (W20_of_ne m ρ c main_arg2 (by decide))).trans (by keepH : W19 m ρ c (Proc.devRef .tc main_arg2) = W18 m ρ c (Proc.devRef .tc main_arg2))).trans (W18_of_ne m ρ c main_arg2 (by decide))).trans (by keepH : W17 m ρ c (Proc.devRef .tc main_arg2) = W16 m ρ c (Proc.devRef .tc main_arg2))).trans (W16_of_ne m ρ c main_arg2 (by decide))).trans (by keepH : W15 m ρ c (Proc.devRef .tc main_arg2) = W14 m ρ c (Proc.devRef .tc main_arg2))).trans (W14_of_ne m ρ c main_arg2 (by decide))).trans (by keepH : W13 m ρ c (Proc.devRef .tc main_arg2) = W12 m ρ c (Proc.devRef .tc main_arg2))).trans (W12_of_ne m ρ c main_arg2 (by decide))).trans (by keepH : W11 m ρ c (Proc.devRef .tc main_arg2) = W10 m ρ c (Proc.devRef .tc main_arg2))).trans (W10_of_ne m ρ c main_arg2 (by decide))).trans (by keepH : W9 m ρ c (Proc.devRef .tc main_arg2) = W8 m ρ c (Proc.devRef .tc main_arg2))).trans (W8_of_ne m ρ c main_arg2 (by decide))).trans (by keepH : W7 m ρ c (Proc.devRef .tc main_arg2) = W6 m ρ c (Proc.devRef .tc main_arg2))).trans (W6_of_ne m ρ c main_arg2 (by decide))).trans (by keepH : W5 m ρ c (Proc.devRef .tc main_arg2) = W4 m ρ c (Proc.devRef .tc main_arg2))).trans (W4_of_ne m ρ c main_arg2 (by decide))).trans (arg2_3 m ρ c)

set_option maxHeartbeats 8000000 in
set_option maxRecDepth 100000 in
theorem Wpad_21 : W21 m ρ c (Proc.devRef .tc main_v147) = padK (m ((c : Thread nD τ).loc main_arg9)) := by
  show StableHlo.after hostOps9 (W20 m ρ c) (Proc.devRef .tc main_v147) = _
  after_results
  rw [arg9_20]

theorem z_21 : W21 m ρ c (Proc.devRef .tc main_v148) = zeroRow 128 := by
  show StableHlo.after hostOps9 (W20 m ρ c) (Proc.devRef .tc main_v148) = _
  after_results
  exact Cert.KernelIdeal.Tail.zero_row

theorem H_21 : W21 m ρ c (Proc.devRef .tc main_v143) = val_main_v244 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (by keepH : W21 m ρ c (Proc.devRef .tc main_v143) = W20 m ρ c (Proc.devRef .tc main_v143)).trans (H_20 m ρ c)

theorem out_22 : W22 m ρ c (Proc.devRef .tc main_v149) = lin (n := 50000) (K := 128) (d := 128) (val_main_v244 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (padK (m ((c : Thread nD τ).loc main_arg9))) (zeroRow 128) := by
  refine (W22_arr m ρ c 3).trans ((Cert.KernelIdeal.Arr9.arr (V21 m ρ) c).trans ?_)
  show lin (W21 m ρ c (Proc.devRef .tc main_v143)) (W21 m ρ c (Proc.devRef .tc main_v147)) (W21 m ρ c (Proc.devRef .tc main_v148)) = _
  rw [H_21, Wpad_21, z_21]

set_option maxHeartbeats 8000000 in
set_option maxRecDepth 100000 in
/-- The result buffer after the last stretch is the reference's last stage. -/
theorem res_23 : W23 m ρ c (Proc.devRef .tc main_v161) = val_main_v257 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps10 (W22 m ρ c) (Proc.devRef .tc main_v161) = _
  after_results
  rw [out_22, arg2_22, Cert.TailEq.out_eq]
  rfl

end Cert.KernelIdeal.Chain

end
-- ==== Proof.RefRun.lean ====
/-
  The reference program's run with its result named by stages: every weakly fair execution of @main terminates
  without a fault, the result buffer holds the last stage's value — each stage one host operation applied to earlier
  stages, a function of the argument arrays — and the argument arrays are as launched.
-/
import proofs.«103784_j3092376453282_1_alg».proof.Proof.ReadP

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 125200000 in
/-- The run read back through the operations: the fold of the operations' results at the result buffer is the last
    stage, and at an argument's buffer the launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v257) = val_main_v257 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v257).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

end Cert.ReferenceIdeal.RefRun

end
-- ==== Proof.lean ====
/-
  A four-layer graph-convolution network with a mean readout, as a kernel program and as a reference program, computes
  one function on the extended reals.

  Both programs build the same edge lists (the given edges plus a self-loop per node), the same degree normalisation
  `norm = dis[row] · dis[col]`, embed the node features by a linear layer, and then four times: multiply by the layer's
  transposed weight, gather the rows at the edges' sources, scale by `norm`, scatter-add into the edges' targets, add the
  bias, rectify, add the residual and normalise each row (mean and variance over the 128 features, `ε`, scale, shift);
  last they multiply by the output weight and average the nodes of each graph. The reference does all of it with host
  operations; the kernel program does the linear layers and the normalisation blocks in regions of ten grid points,
  each storing 5000 rows, and the rest with the same host operations. On the extended reals a change of float format
  is the identity, a matrix product into a zero accumulator is the row-by-column sum of the host's dot_general, a lane
  sum is the host's sum, and a sum does not depend on its tiling, so every region leaves exactly the reference's stage
  (Proof/KArr0 … KArr9 for the regions, Proof/RLayer for the reference's layers), the stretches between regions are the
  reference's own operations (Proof/KChain0, KChainL1 … KChainL4), and the padded output weight contributes only its
  column 0 (Proof/KTail, Proof/TailEq). No finiteness of the inputs is used.
-/
import proofs.«103784_j3092376453282_1_alg».proof.Defs
import proofs.«103784_j3092376453282_1_alg».proof.Proof.Gen.Kernel
import proofs.«103784_j3092376453282_1_alg».proof.Proof.Gen.Kernel.Skeleton
import proofs.«103784_j3092376453282_1_alg».proof.Proof.Gen.Kernel.Launch
import proofs.«103784_j3092376453282_1_alg».proof.Proof.Gen.Kernel.Points
import proofs.«103784_j3092376453282_1_alg».proof.Proof.Gen.Kernel.Frame
import proofs.«103784_j3092376453282_1_alg».proof.Proof.Gen.KernelIdeal
import proofs.«103784_j3092376453282_1_alg».proof.Proof.Gen.KernelIdeal.Skeleton
import proofs.«103784_j3092376453282_1_alg».proof.Proof.Gen.KernelIdeal.Launch
import proofs.«103784_j3092376453282_1_alg».proof.Proof.Gen.KernelIdeal.Points
import proofs.«103784_j3092376453282_1_alg».proof.Proof.Gen.KernelIdeal.Frame
import proofs.«103784_j3092376453282_1_alg».proof.Proof.Gen.ReferenceIdeal
import proofs.«103784_j3092376453282_1_alg».proof.Proof.Gen.Pre_finite_inputs
import proofs.«103784_j3092376453282_1_alg».proof.Proof.KRun
import proofs.«103784_j3092376453282_1_alg».proof.Proof.KChainL4
import proofs.«103784_j3092376453282_1_alg».proof.Proof.RefRun
import Idealize.ShloMosaic.Adequacy
import Idealize.ShloMosaic.Init

noncomputable section

namespace Cert.Proof

open Idealize.ShloMosaic Idealize.SL.Sem

/-- The kernel program as printed runs and leaves its arguments unchanged. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.ReferenceIdeal.ReadP.val_main_v257 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.res_23 m ρ c), (h c).2⟩)
      (Cert.KernelIdeal.Gen.run_result (F := Ideal) m ρ)
  · refine (θ_run Cert.ReferenceIdeal.defs _ _).mono (fun r h c => ⟨?_, (h c).2⟩)
      (Cert.ReferenceIdeal.RefRun.run (F := Ideal) m' ρ')
    obtain ⟨e0, e1, e2, e3, e4, e5, e6, e7, e8, e9⟩ := hagree c
    rw [(h c).1, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
